-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x128x128 : Shape := ⟨3, ![4, 128, 128]⟩
abbrev S4x128 : Shape := ⟨2, ![4, 128]⟩
abbrev S850000 : Shape := ⟨1, ![850000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S50000x128 .f32) (main_arg1 : FVec F S4x128x128 .f32) (main_arg2 : FVec F S4x128 .f32) (main_arg3 : IVec S850000 32) (main_arg4 : IVec S850000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  main_v13
-- ==== Kernel.lean ====
abbrev S50000x128 : Shape := ⟨2, ![50000, 128]⟩
abbrev S4x128x128 : Shape := ⟨3, ![4, 128, 128]⟩
abbrev S4x128 : Shape := ⟨2, ![4, 128]⟩
abbrev S850000 : Shape := ⟨1, ![850000]⟩
abbrev S_ : Shape := ⟨0, ![]⟩
abbrev S50000 : Shape := ⟨1, ![50000]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 113
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S4x128x128, .f32⟩
  | .hbm, ⟨2, _⟩ => ⟨S4x128, .f32⟩
  | .hbm, ⟨3, _⟩ => ⟨S850000, .i32⟩
  | .hbm, ⟨4, _⟩ => ⟨S850000, .i32⟩
  | .hbm, ⟨5, _⟩ => ⟨S_, .f32⟩
  | .hbm, ⟨6, _⟩ => ⟨S850000, .f32⟩
  | .hbm, ⟨7, _⟩ => ⟨S_, .f32⟩
  | .hbm, ⟨8, _⟩ => ⟨S50000, .f32⟩
  | .hbm, ⟨9, _⟩ => ⟨S850000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S850000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x128, .f32⟩
  | .hbm, ⟨39, _⟩ => ⟨S_, .f32⟩
  | .hbm, ⟨40, _⟩ => ⟨S50000x128, .f32⟩
  | .hbm, ⟨41, _⟩ => ⟨S850000x1, .i32⟩
  | .hbm, ⟨42, _⟩ => ⟨S50000x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x128, .f32⟩
  | .hbm, ⟨102, _⟩ => ⟨S_, .f32⟩
  | .hbm, ⟨103, _⟩ => ⟨S50000x128, .f32⟩
  | .hbm, ⟨104, _⟩ => ⟨S850000x1, .i32⟩
  | .hbm, ⟨105, _⟩ => ⟨S50000x128, .f32⟩
  | .hbm, ⟨106, _⟩ => ⟨S1x128x128, .f32⟩
  | .hbm, ⟨107, _⟩ => ⟨S128x128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S50000x128, .f32⟩
  | .hbm, ⟨112, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x1, .f32⟩
  | .local _ .vmem, ⟨57, _⟩ => ⟨S2000x1, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x1, .f32⟩
  | .local _ .vmem, ⟨63, _⟩ => ⟨S2000x1, .f32⟩
  | .local _ .vmem, ⟨64, _⟩ => ⟨S128x128, .f32⟩
  | .local _ .vmem, ⟨65, _⟩ => ⟨S1x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67_0 : Ref sig .tc := ⟨.hbm, 90, rfl⟩
abbrev main_v67_1 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84_0 : Ref sig .tc := ⟨.hbm, 111, rfl⟩
abbrev main_v84_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg5_1 : Ref sig .tc := ⟨.vmem, 69, rfl⟩
abbrev cc7_stg6_0 : Ref sig .tc := ⟨.vmem, 70, rfl⟩
abbrev cc7_stg6_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem5_1 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem3_0 : DmaSem sig := 65
abbrev cc7_sem4_0 : DmaSem sig := 66
abbrev cc7_sem4_1 : DmaSem sig := 67
abbrev cc7_sem5_0 : DmaSem sig := 68
abbrev cc7_sem5_1 : DmaSem sig := 69
abbrev cc7_sem6_0 : DmaSem sig := 70
abbrev cc7_sem6_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33_1) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v50_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v50_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v50_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v50_1) S2000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v67_0) S2000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v67_1) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v67_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v80) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v67_1) S2000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v84_0) S2000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v84_1) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where
  halias1_6 : Pipeline.Aliased win1 4 6
  halias3_6 : Pipeline.Aliased win3 4 6
  halias5_6 : Pipeline.Aliased win5 4 6
  halias7_6 : Pipeline.Aliased win7 4 6

variable [Facts]
-- ==== ReferenceIdeal.lean ====
abbrev S50000x128 : Shape := ⟨2, ![50000, 128]⟩
abbrev S4x128x128 : Shape := ⟨3, ![4, 128, 128]⟩
abbrev S4x128 : Shape := ⟨2, ![4, 128]⟩
abbrev S850000 : Shape := ⟨1, ![850000]⟩
abbrev S_ : Shape := ⟨0, ![]⟩
abbrev S50000 : Shape := ⟨1, ![50000]⟩
abbrev S850000x1 : Shape := ⟨2, ![850000, 1]⟩
abbrev S50000x1 : Shape := ⟨2, ![50000, 1]⟩
abbrev S850000x128 : Shape := ⟨2, ![850000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x128x1 : Shape := ⟨3, ![50000, 128, 1]⟩
abbrev S50000x128x5 : Shape := ⟨3, ![50000, 128, 5]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S4x128x128, .f32⟩
  | 2 => ⟨S4x128, .f32⟩
  | 3 => ⟨S850000, .i32⟩
  | 4 => ⟨S850000, .i32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S850000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x128, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S_, .f32⟩
  | 40 => ⟨S50000x128, .f32⟩
  | 41 => ⟨S850000x1, .i32⟩
  | 42 => ⟨S50000x128, .f32⟩
  | 43 => ⟨S50000x1, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S_, .f32⟩
  | 56 => ⟨S50000x128, .f32⟩
  | 57 => ⟨S50000x128, .i1⟩
  | 58 => ⟨S_, .f32⟩
  | 59 => ⟨S50000x128, .f32⟩
  | 60 => ⟨S50000x128, .f32⟩
  | 61 => ⟨S50000x128, .f32⟩
  | 62 => ⟨S50000x1, .f32⟩
  | 63 => ⟨S50000x128, .f32⟩
  | 64 => ⟨S50000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S50000x1, .f32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S50000x1, .f32⟩
  | 98 => ⟨S50000x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S50000x1, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S_, .f32⟩
  | 126 => ⟨S50000x128, .f32⟩
  | 127 => ⟨S50000x128, .i1⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x1, .f32⟩
  | 5 => ⟨S50000x128, .f32⟩
  | 6 => ⟨S50000x128, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x128, .f32⟩
  | 16 => ⟨S_, .f32⟩
  | 17 => ⟨S50000x128, .f32⟩
  | 18 => ⟨S850000x1, .i32⟩
  | 19 => ⟨S50000x128, .f32⟩
  | 20 => ⟨S50000x1, .f32⟩
  | 21 => ⟨S50000x128, .f32⟩
  | 22 => ⟨S50000x128, .f32⟩
  | 23 => ⟨S1x128x128, .f32⟩
  | 24 => ⟨S128x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S_, .f32⟩
  | 33 => ⟨S50000x128, .f32⟩
  | 34 => ⟨S50000x128, .i1⟩
  | 35 => ⟨S_, .f32⟩
  | 36 => ⟨S50000x128, .f32⟩
  | 37 => ⟨S50000x128, .f32⟩
  | 38 => ⟨S50000x128, .f32⟩
  | 39 => ⟨S50000x128x1, .f32⟩
  | 40 => ⟨S50000x128x1, .f32⟩
  | 41 => ⟨S50000x128x1, .f32⟩
  | 42 => ⟨S50000x128x1, .f32⟩
  | 43 => ⟨S50000x128x1, .f32⟩
  | 44 => ⟨S50000x128x5, .f32⟩
  | 45 => ⟨S_, .f32⟩
  | 46 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_16 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_17 : Ref sig .tc := ⟨.hbm, 135, rfl⟩
abbrev main_v93 : Ref sig .tc := ⟨.hbm, 136, rfl⟩
abbrev main_v94 : Ref sig .tc := ⟨.hbm, 137, rfl⟩
abbrev main_c_18 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_20 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_21 : Ref sig .tc := ⟨.hbm, 173, rfl⟩
abbrev main_v121 : Ref sig .tc := ⟨.hbm, 174, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S50000x128_S50000x128x1_0_1 : S50000x128.BroadcastsInDim S50000x128x1 (![0, 1] : Fin 2 → Fin S50000x128x1.rank)
  concatenates_S50000x128x1_S50000x128x1_S50000x128x1_S50000x128x1_S50000x128x1_S50000x128x5_d2 : Shape.Concatenates [S50000x128x1, S50000x128x1, S50000x128x1, S50000x128x1, S50000x128x1] S50000x128x5 2
  reducesTo_S50000x128x5_S50000x128_d2 : S50000x128x5.ReducesTo [2] S50000x128
  h_S_ : 0 < S_.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, written once over whole arrays at the ideal values (every float an extended
  real, every operation exact, a change of float format the identity).

  A graph of 50000 nodes and 850000 edges (src e → dst e), node features x : [50000, 128].
  * `nrm idx` : per node v, (max(#{e | idx e = v}, 1))^(-1/2) — the degree normalisation.
  * `scale x k` : every row v of x multiplied by the scalar k v (k a column [50000, 1]).
  * `aggr h src dst` : row v is the sum over the edges e with dst e = v of the row h (src e)
    (a negative src e counted from the end, an out-of-range one clamped / dropped as the host operations do).
  * `dense a k W b` : leaky (scale a k · W + b), leaky y = y where y ≥ 0 and y/100 (the f32 nearest 1/100) elsewhere.
  * one layer: x ↦ dense (aggr (scale x ks) src dst) kd W_l b_l, ks = nrm src, kd = nrm dst;
  * the result: the entrywise maximum of x and the four layers' outputs.
-/
import proofs.«179694_j65103114272768_1_alg».proof.ReferenceIdeal
import proofs.«179694_j65103114272768_1_alg».proof.Proof.Gen.ReferenceIdeal
import Idealize.ShloMosaic.PureOps.Ideal

noncomputable section

namespace Cert.Spec

open Idealize.ShloMosaic Cert.ReferenceIdeal Cert.ReferenceIdeal.Facts₀

/-- Node features [50000, 128]. -/
abbrev Nodes := FVec Ideal S50000x128 .f32
/-- One scalar per node, as a column [50000, 1]. -/
abbrev Col := FVec Ideal S50000x1 .f32
/-- One scalar per node, as a vector [50000]. -/
abbrev NodeVec := FVec Ideal S50000 .f32
/-- One node index per edge [850000]. -/
abbrev Edges := IVec S850000 32
/-- The four layers' weights [4, 128, 128] and biases [4, 128]. -/
abbrev Wts := FVec Ideal S4x128x128 .f32
abbrev Biases := FVec Ideal S4x128 .f32
/-- One layer's weight [128, 128], bias as a vector [128] and as a row [1, 128]. -/
abbrev Mat := FVec Ideal S128x128 .f32
abbrev BVec := FVec Ideal S128 .f32
abbrev Row := FVec Ideal S1x128 .f32

/-- The degree normalisation: per node, the number of edges whose index is that node, at least 1, to the power -1/2. -/
def nrm (idx : Edges) : NodeVec :=
  Host.powf
    (maximumf
      (Host.scatterAdd scatter_S50000_S850000x1_S850000_n_0_0_1
        (broadcastInDim S50000 ![] bcast_S_S50000 (constant S_ .f32 0x00000000#32))
        (broadcastInDim S850000x1 ![0] bcast_S850000_S850000x1_0 idx)
        (broadcastInDim S850000 ![] bcast_S_S850000 (constant S_ .f32 0x3F800000#32)))
      (broadcastInDim S50000 ![] bcast_S_S50000 (constant S_ .f32 0x3F800000#32)))
    (broadcastInDim S50000 ![] bcast_S_S50000 (constant S_ .f32 0xBF000000#32))

/-- A per-node vector laid as a column. -/
def col (n : NodeVec) : Col := broadcastInDim S50000x1 ![0] bcast_S50000_S50000x1_0 n

/-- Row v of x times the scalar k v. -/
def scale (x : Nodes) (k : Col) : Nodes :=
  mulf x (broadcastInDim S50000x128 ![0, 1] bcast_S50000x1_S50000x128_0_1 k)

/-- Row v: the sum over the edges into v of the source node's row of h. -/
def aggr (h : Nodes) (src dst : Edges) : Nodes :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (Host.gather gather_S50000x128_S850000x1_S850000x128_1_0_n_n_0_1_1128 h
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src)))

/-- y where y ≥ 0, y times the f32 nearest 1/100 elsewhere. -/
def leaky (y : Nodes) : Nodes :=
  select (cmpf .oge y (broadcastInDim S50000x128 ![] bcast_S_S50000x128 (constant S_ .f32 0x00000000#32))) y
    (mulf (broadcastInDim S50000x128 ![] bcast_S_S50000x128 (constant S_ .f32 0x3C23D70A#32)) y)

/-- leaky ((scale a k) · W + b): entry (v, j) is leaky (∑ₖ a v k · k v · W k j + b j). -/
def dense (a : Nodes) (k : Col) (W : Mat) (b : Row) : Nodes :=
  leaky (addf (Host.dotGeneral dot_S50000x128_S128x128_S50000x128_1_0_0_1_n_n none (scale a k) W)
    (broadcastInDim S50000x128 ![0, 1] bcast_S1x128_S50000x128_0_1 b))

/-- The entrywise maximum of two node-feature arrays. -/
def rmax (r x : Nodes) : Nodes := maximumf r x

/-- Layer l's weight matrix and bias vector, cut out of the stacked arguments. -/
def wmat0 (W : Wts) : Mat := shapeCast S128x128 (extractStridedSlice S1x128x128 ![0, 0, 0] W slices_S4x128x128_S1x128x128_0_0_0) shapeCasts_S1x128x128_S128x128
def wmat1 (W : Wts) : Mat := shapeCast S128x128 (extractStridedSlice S1x128x128 ![1, 0, 0] W slices_S4x128x128_S1x128x128_1_0_0) shapeCasts_S1x128x128_S128x128
def wmat2 (W : Wts) : Mat := shapeCast S128x128 (extractStridedSlice S1x128x128 ![2, 0, 0] W slices_S4x128x128_S1x128x128_2_0_0) shapeCasts_S1x128x128_S128x128
def wmat3 (W : Wts) : Mat := shapeCast S128x128 (extractStridedSlice S1x128x128 ![3, 0, 0] W slices_S4x128x128_S1x128x128_3_0_0) shapeCasts_S1x128x128_S128x128
def bvec0 (b : Biases) : BVec := shapeCast S128 (extractStridedSlice S1x128 ![0, 0] b slices_S4x128_S1x128_0_0) shapeCasts_S1x128_S128
def bvec1 (b : Biases) : BVec := shapeCast S128 (extractStridedSlice S1x128 ![1, 0] b slices_S4x128_S1x128_1_0) shapeCasts_S1x128_S128
def bvec2 (b : Biases) : BVec := shapeCast S128 (extractStridedSlice S1x128 ![2, 0] b slices_S4x128_S1x128_2_0) shapeCasts_S1x128_S128
def bvec3 (b : Biases) : BVec := shapeCast S128 (extractStridedSlice S1x128 ![3, 0] b slices_S4x128_S1x128_3_0) shapeCasts_S1x128_S128
/-- A bias vector laid as a row. -/
def brow (v : BVec) : Row := broadcastInDim S1x128 ![1] bcast_S128_S1x128_1 v

/-- One layer. -/
def layer (x : Nodes) (ks kd : Col) (W : Mat) (b : Row) (src dst : Edges) : Nodes :=
  dense (aggr (scale x ks) src dst) kd W b

/-- A node-feature array with a trailing unit axis. -/
def up (x : Nodes) : FVec Ideal S50000x128x1 .f32 :=
  broadcastInDim S50000x128x1 ![0, 1] bcast_S50000x128_S50000x128x1_0_1 x

/-- The entrywise maximum of five node-feature arrays, as a maximum from -inf along a stacking axis. -/
def jk (x0 x1 x2 x3 x4 : Nodes) : Nodes :=
  Host.reduce FloatOps.maximumf
    (concatenate S50000x128x5 2 [⟨S50000x128x1, up x0⟩, ⟨S50000x128x1, up x1⟩, ⟨S50000x128x1, up x2⟩, ⟨S50000x128x1, up x3⟩, ⟨S50000x128x1, up x4⟩]
      concatenates_S50000x128x1_S50000x128x1_S50000x128x1_S50000x128x1_S50000x128x1_S50000x128x5_d2)
    (constant S_ .f32 0xFF800000#32) reducesTo_S50000x128x5_S50000x128_d2 h_S_

/-- The four layers' outputs, one after the other. -/
def x1 (x : Nodes) (W : Wts) (b : Biases) (src dst : Edges) : Nodes :=
  layer x (col (nrm src)) (col (nrm dst)) (wmat0 W) (brow (bvec0 b)) src dst
def x2 (x : Nodes) (W : Wts) (b : Biases) (src dst : Edges) : Nodes :=
  layer (x1 x W b src dst) (col (nrm src)) (col (nrm dst)) (wmat1 W) (brow (bvec1 b)) src dst
def x3 (x : Nodes) (W : Wts) (b : Biases) (src dst : Edges) : Nodes :=
  layer (x2 x W b src dst) (col (nrm src)) (col (nrm dst)) (wmat2 W) (brow (bvec2 b)) src dst
def x4 (x : Nodes) (W : Wts) (b : Biases) (src dst : Edges) : Nodes :=
  layer (x3 x W b src dst) (col (nrm src)) (col (nrm dst)) (wmat3 W) (brow (bvec3 b)) src dst

/-- The result: the entrywise maximum of the input features and the four layers' outputs. -/
def G (x : Nodes) (W : Wts) (b : Biases) (src dst : Edges) : Nodes :=
  jk x (x1 x W b src dst) (x2 x W b src dst) (x3 x W b src dst) (x4 x W b src dst)

end Cert.Spec

end
-- ==== Proof.KRun.lean ====
/-
  The idealized kernel program's run with its result named: every weakly fair execution of @main terminates, nothing
  faulting, the five argument arrays end as launched, and the result array ends holding what the last boundary of the
  run's fold holds there (the contents after the eighth region's write-backs). The run is the launch over the program's
  thirteen segments — five stretches of host operations and eight regions — and the final state is read against the last
  thread state, one buffer at a time: the result buffer is read exactly as each argument is.
-/
import proofs.«179694_j65103114272768_1_alg».proof.Proof.Gen.KernelIdeal.Frame

set_option maxRecDepth 16384

noncomputable section

namespace Cert.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array named: it holds the last boundary's contents of the result buffer. -/
theorem run_named : θ_run defs (onTc (τ := τ) (main (F := F))) ⟨m, fun _ => 0, ρ⟩ (fun r => ∀ c : Dev nD,
      r.2.mem ((c.tc : Thread nD τ).loc main_v84_1) = W13 m ρ c (Proc.devRef .tc main_v84_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v84_1 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c)⟩)

end Cert.KValue

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.SpecLaws.lean ====
/-
  The few laws that join two spellings of one array: a per-node vector laid as a column by a broadcast or by a
  reshape; a bias vector laid as a row by a broadcast or by a reshape; and the maximum of five arrays taken as a
  maximum from -inf along a stacking axis or as four nested pairwise maxima.
-/
import proofs.«179694_j65103114272768_1_alg».proof.Proof.Spec
import proofs.«179694_j65103114272768_1_alg».proof.Proof.LibMaxReduce
import Idealize.ShloMosaic.Lib.Pipeline.Value
import Idealize.ShloMosaic.Lib.ValueIdx
import Idealize.ShloMosaic.Lib.ValueLayout

noncomputable section

namespace Cert.Spec

open Idealize.ShloMosaic Idealize.ShloMosaic.ValueIdx Cert.ReferenceIdeal Cert.ReferenceIdeal.Facts₀

/-- A vector [50000] broadcast to a column [50000, 1] is the vector reshaped to that column: entry (v, 0) is entry v. -/
theorem col_eq_reshape (n : NodeVec) (h : S50000.ShapeCasts S50000x1) : col n = shapeCast S50000x1 n h := by
  funext j
  have e1 : col n j = n (ix1 (j 0)) :=
    broadcastInDim_apply _ _ n j (ix1 (j 0)) (fun a => by match a with | ⟨0, _⟩ => rfl)
  have e2 : shapeCast S50000x1 n h j = n (ix1 (j 0)) :=
    shapeCast_apply n h j (ix1 (j 0)) (by
      rw [Shape.rowMajor_val_one, Shape.rowMajor_val_two]
      have h1 : (j 1).val = 0 := Nat.lt_one_iff.mp (j 1).isLt
      show (j 0).val = (j 0).val * 1 + (j 1).val
      omega)
  exact e1.trans e2.symm

/-- A vector [128] broadcast to a row [1, 128] is the vector reshaped to that row: entry (0, i) is entry i. -/
theorem brow_eq_reshape (v : BVec) (h : S128.ShapeCasts S1x128) : brow v = shapeCast S1x128 v h := by
  funext j
  have e1 : brow v j = v (ix1 (j 1)) :=
    broadcastInDim_apply _ _ v j (ix1 (j 1)) (fun a => by match a with | ⟨0, _⟩ => rfl)
  have e2 : shapeCast S1x128 v h j = v (ix1 (j 1)) :=
    shapeCast_apply v h j (ix1 (j 1)) (by
      rw [Shape.rowMajor_val_one, Shape.rowMajor_val_two]
      have h0 : (j 0).val = 0 := Nat.lt_one_iff.mp (j 0).isLt
      show (j 1).val = (j 0).val * 128 + (j 1).val
      omega)
  exact e1.trans e2.symm

/-- The stacking axis is dropped by the maximum. -/
theorem stackReduces : S50000x128x5.Reduces [2] S50000x128 := by decide

/-- A node-feature array with a trailing unit axis reads, at (v, i, 0), the array at (v, i). -/
theorem up_apply (x : Nodes) (i : S50000x128x1.Idx) (j : S50000x128.Idx)
    (h0 : (j 0).val = (i 0).val) (h1 : (j 1).val = (i 1).val) : up x i = x j :=
  broadcastInDim_apply _ _ x i j (fun a => by match a with | ⟨0, _⟩ => exact h0 | ⟨1, _⟩ => exact h1)

/-- The stack of five arrays along a new last axis reads, at (v, i, k), the k-th array at (v, i). -/
theorem stack_apply (x0 x1 x2 x3 x4 : Nodes) (j : S50000x128.Idx) (k : Fin (S50000x128x5.size 2)) :
    concatenate S50000x128x5 2 [⟨S50000x128x1, up x0⟩, ⟨S50000x128x1, up x1⟩, ⟨S50000x128x1, up x2⟩, ⟨S50000x128x1, up x3⟩, ⟨S50000x128x1, up x4⟩]
        concatenates_S50000x128x1_S50000x128x1_S50000x128x1_S50000x128x1_S50000x128x1_S50000x128x5_d2 (stackReduces.lift j k)
      = (![x0 j, x1 j, x2 j, x3 j, x4 j] : Fin 5 → Ideal .f32) k := by
  match k with
  | ⟨0, _⟩ =>
    exact (concatenate_apply_piece (2 : Fin S50000x128x5.rank) _ _ _ 0 (by simp) S50000x128x1 (up x0) rfl rfl 0 rfl
      (ix3 (n0 := 50000) (n1 := 128) (n2 := 1) (j 0) (j 1) 0)
      (fun b hb => by match b with | ⟨0, _⟩ => rfl | ⟨1, _⟩ => rfl | ⟨2, _⟩ => exact absurd rfl hb) rfl).trans
      (up_apply x0 _ j rfl rfl)
  | ⟨1, _⟩ =>
    exact (concatenate_apply_piece (2 : Fin S50000x128x5.rank) _ _ _ 1 (by simp) S50000x128x1 (up x1) rfl rfl 1 rfl
      (ix3 (n0 := 50000) (n1 := 128) (n2 := 1) (j 0) (j 1) 0)
      (fun b hb => by match b with | ⟨0, _⟩ => rfl | ⟨1, _⟩ => rfl | ⟨2, _⟩ => exact absurd rfl hb) rfl).trans
      (up_apply x1 _ j rfl rfl)
  | ⟨2, _⟩ =>
    exact (concatenate_apply_piece (2 : Fin S50000x128x5.rank) _ _ _ 2 (by simp) S50000x128x1 (up x2) rfl rfl 2 rfl
      (ix3 (n0 := 50000) (n1 := 128) (n2 := 1) (j 0) (j 1) 0)
      (fun b hb => by match b with | ⟨0, _⟩ => rfl | ⟨1, _⟩ => rfl | ⟨2, _⟩ => exact absurd rfl hb) rfl).trans
      (up_apply x2 _ j rfl rfl)
  | ⟨3, _⟩ =>
    exact (concatenate_apply_piece (2 : Fin S50000x128x5.rank) _ _ _ 3 (by simp) S50000x128x1 (up x3) rfl rfl 3 rfl
      (ix3 (n0 := 50000) (n1 := 128) (n2 := 1) (j 0) (j 1) 0)
      (fun b hb => by match b with | ⟨0, _⟩ => rfl | ⟨1, _⟩ => rfl | ⟨2, _⟩ => exact absurd rfl hb) rfl).trans
      (up_apply x3 _ j rfl rfl)
  | ⟨4, _⟩ =>
    exact (concatenate_apply_piece (2 : Fin S50000x128x5.rank) _ _ _ 4 (by simp) S50000x128x1 (up x4) rfl rfl 4 rfl
      (ix3 (n0 := 50000) (n1 := 128) (n2 := 1) (j 0) (j 1) 0)
      (fun b hb => by match b with | ⟨0, _⟩ => rfl | ⟨1, _⟩ => rfl | ⟨2, _⟩ => exact absurd rfl hb) rfl).trans
      (up_apply x4 _ j rfl rfl)

/-- A supremum over five entries is their nested pairwise maximum. -/
theorem iSup_fin5 (f : Fin 5 → EReal) : ⨆ k, f k = max (max (max (max (f 0) (f 1)) (f 2)) (f 3)) (f 4) := by
  apply le_antisymm
  · refine iSup_le fun k => ?_
    match k with
    | ⟨0, _⟩ => exact le_max_of_le_left (le_max_of_le_left (le_max_of_le_left (le_max_left _ _)))
    | ⟨1, _⟩ => exact le_max_of_le_left (le_max_of_le_left (le_max_of_le_left (le_max_right _ _)))
    | ⟨2, _⟩ => exact le_max_of_le_left (le_max_of_le_left (le_max_right _ _))
    | ⟨3, _⟩ => exact le_max_of_le_left (le_max_right _ _)
    | ⟨4, _⟩ => exact le_max_right _ _
  · exact max_le (max_le (max_le (max_le (le_iSup f 0) (le_iSup f 1)) (le_iSup f 2)) (le_iSup f 3)) (le_iSup f 4)

/-- The maximum from -inf along the stacking axis of five stacked arrays is, entry by entry, their nested pairwise maximum. -/
theorem jk_eq_max (x0 x1 x2 x3 x4 : Nodes) :
    jk x0 x1 x2 x3 x4 = rmax (rmax (rmax (rmax x0 x1) x2) x3) x4 := by
  funext j
  unfold jk
  rw [Ideal.hostReduce_maximumf_single_iSup _ _ stackReduces h_S_ j]
  have e : (fun k : Fin (S50000x128x5.size 2) => concatenate S50000x128x5 2 [⟨S50000x128x1, up x0⟩, ⟨S50000x128x1, up x1⟩, ⟨S50000x128x1, up x2⟩, ⟨S50000x128x1, up x3⟩, ⟨S50000x128x1, up x4⟩]
        concatenates_S50000x128x1_S50000x128x1_S50000x128x1_S50000x128x1_S50000x128x1_S50000x128x5_d2 (stackReduces.lift j k))
      = (![x0 j, x1 j, x2 j, x3 j, x4 j] : Fin 5 → Ideal .f32) := funext fun k => stack_apply x0 x1 x2 x3 x4 j k
  rw [e]
  exact iSup_fin5 _

end Cert.Spec

end
-- ==== Proof.ScaleTile.lean ====
/-
  One tile of the row scaling, and the whole-array row scaling, each read at an index.

  The prescale body multiplies a tile x0 : [2000, 128] by a column x1 : [2000, 1] laid along the rows: entry (p, q) of the
  result is x0 (p, q) · x1 (p, 0). The specification's `scale x k` is the same on the whole arrays: entry (r, q) is
  x (r, q) · k (r, 0). Both are read here at an index given by its two coordinates, over arbitrary tiles and arrays.
-/
import proofs.«179694_j65103114272768_1_alg».proof.Proof.Spec
import proofs.«179694_j65103114272768_1_alg».proof.Proof.Gen.KernelIdeal.Skeleton
import Idealize.ShloMosaic.Lib.Pipeline.Value
import Idealize.ShloMosaic.Lib.ValueIdx

noncomputable section

namespace Cert.KValue

open Idealize.ShloMosaic Idealize.ShloMosaic.ValueIdx Cert.KernelIdeal Cert.KernelIdeal.Gen

/-- The zero offsets of a rank-2 rectangle, however spelt. -/
theorem zero_off2 : (![0, 0] : Fin 2 → Nat) = fun _ => 0 := funext fun a => by fin_cases a <;> rfl

/-- A [2000, 1] column broadcast along the rows of a [2000, 128] tile, after a shape cast to its own shape: entry (p, q)
    is the column's entry (p, 0). -/
theorem colBroadcast_apply (x1 : Vec Ideal S2000x1 .f32) (h1 : S2000x1.ShapeCasts S2000x1) (h2 : S2000x1.Broadcasts S2000x128)
    (p : Fin 2000) (q : Fin 128) :
    (broadcastTo S2000x128 (shapeCast S2000x1 x1 h1) h2 : FVec Ideal S2000x128 .f32) (ix2 p q) = x1 (ix2 p (0 : Fin 1)) := by
  refine (broadcastTo_apply _ h2 (ix2 p q) (ix2 p (0 : Fin 1)) ?_).trans (congrFun (shapeCast_self x1 h1) _)
  intro a
  match a with
  | ⟨0, _⟩ => rfl
  | ⟨1, _⟩ => rfl

/-- A tile times the column laid along its rows: entry (p, q) is x0 (p, q) · x1 (p, 0). -/
theorem rowScale_apply (x0 : Vec Ideal S2000x128 .f32) (x1 : Vec Ideal S2000x1 .f32) (h1 : S2000x1.ShapeCasts S2000x1)
    (h2 : S2000x1.Broadcasts S2000x128) (p : Fin 2000) (q : Fin 128) :
    (mulf x0 (broadcastTo S2000x128 (shapeCast S2000x1 x1 h1) h2) : FVec Ideal S2000x128 .f32) (ix2 p q)
      = x0 (ix2 p q) * x1 (ix2 p (0 : Fin 1)) :=
  congrArg (x0 (ix2 p q) * ·) (colBroadcast_apply x1 h1 h2 p q)

/-- The first prescale body's stored value at an index. -/
theorem pay0_apply (x0 : Vec Ideal S2000x128 .f32) (x1 : Vec Ideal S2000x1 .f32) (p : Fin 2000) (q : Fin 128) :
    k0_pay1 x0 x1 (ix2 p q) = x0 (ix2 p q) * x1 (ix2 p (0 : Fin 1)) := by
  unfold k0_pay1
  exact rowScale_apply x0 x1 _ _ p q

/-- The later prescale bodies cast the tile to its own shape first; the stored value at an index is the same. -/
theorem pay2_apply (x0 : Vec Ideal S2000x128 .f32) (x1 : Vec Ideal S2000x1 .f32) (p : Fin 2000) (q : Fin 128) :
    k2_pay1 x0 x1 (ix2 p q) = x0 (ix2 p q) * x1 (ix2 p (0 : Fin 1)) := by
  unfold k2_pay1
  refine (rowScale_apply _ x1 _ _ p q).trans ?_
  exact congrArg (· * x1 (ix2 p (0 : Fin 1))) (congrFun (shapeCast_self x0 _) _)

theorem pay4_apply (x0 : Vec Ideal S2000x128 .f32) (x1 : Vec Ideal S2000x1 .f32) (p : Fin 2000) (q : Fin 128) :
    k4_pay1 x0 x1 (ix2 p q) = x0 (ix2 p q) * x1 (ix2 p (0 : Fin 1)) := by
  unfold k4_pay1
  refine (rowScale_apply _ x1 _ _ p q).trans ?_
  exact congrArg (· * x1 (ix2 p (0 : Fin 1))) (congrFun (shapeCast_self x0 _) _)

theorem pay6_apply (x0 : Vec Ideal S2000x128 .f32) (x1 : Vec Ideal S2000x1 .f32) (p : Fin 2000) (q : Fin 128) :
    k6_pay1 x0 x1 (ix2 p q) = x0 (ix2 p q) * x1 (ix2 p (0 : Fin 1)) := by
  unfold k6_pay1
  refine (rowScale_apply _ x1 _ _ p q).trans ?_
  exact congrArg (· * x1 (ix2 p (0 : Fin 1))) (congrFun (shapeCast_self x0 _) _)

/-- The specification's row scaling at an index: entry (r, q) is x (r, q) · k (r, 0). -/
theorem scale_apply (x : Cert.Spec.Nodes) (k : Cert.Spec.Col) (r : Fin 50000) (q : Fin 128) :
    Cert.Spec.scale x k (ix2 r q) = x (ix2 r q) * k (ix2 r (0 : Fin 1)) := by
  unfold Cert.Spec.scale
  refine congrArg (x (ix2 r q) * ·) ?_
  refine broadcastInDim_apply _ _ k (ix2 r q) (ix2 r (0 : Fin 1)) ?_
  intro a
  match a with
  | ⟨0, _⟩ => rfl
  | ⟨1, _⟩ => rfl

end Cert.KValue

end
-- ==== Proof.Scale0.lean ====
/-
  Prescale region 0: the array its output window leaves is the row scaling of its two input arrays.

  The region's grid has 25 points; at point t each window's block is rows 2000·t … 2000·t + 1999 of its array (all
  columns). The body stores, into the output's tile, the feature tile times the column tile laid along the rows. So what
  point t writes back is block t of `scale A k` of the two input arrays as the region finds them, and the 25 blocks
  tile the output array: it ends holding `scale A k`.
-/
import proofs.«179694_j65103114272768_1_alg».proof.Proof.ScaleTile
import proofs.«179694_j65103114272768_1_alg».proof.Proof.Gen.KernelIdeal.Frame

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- The three windows' index maps, decided over the grid: at point t every window is at block (t, 0). -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The grid has 25 points. -/
theorem points0 : cfg0.N = 25 := N_0

/-- Row p of block t is row 2000·t + p of the array. -/
theorem row_lt0 (t : Fin cfg0.N) (p : Fin 2000) : 2000 * t.val + p.val < 50000 := by
  have ht : t.val < 25 := points0 ▸ t.isLt
  have hp := p.isLt
  omega

/-- The feature window's block at point t, read off an arbitrary array: entry (p, q) is the array's (2000·t + p, q). -/
theorem read_features0 (A : FVec Ideal S50000x128 .f32) (t : Fin cfg0.N) (p : Fin 2000) (q : Fin 128) :
    (((cfg0.win 0).blk t).view.read (Elt Ideal) A : Vec Ideal S2000x128 .f32) (ix2 p q)
      = A (ix2 ⟨2000 * t.val + p.val, row_lt0 t p⟩ q) := by
  obtain ⟨e0, e1, -, -, -, -⟩ := index0 t
  rw [View.read_apply]
  show A _ = A _
  refine congrArg A (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * q.val = q.val; omega

/-- The column window's block at point t, read off an arbitrary column: entry (p, 0) is the column's (2000·t + p, 0). -/
theorem read_column0 (k : FVec Ideal S50000x1 .f32) (t : Fin cfg0.N) (p : Fin 2000) :
    (((cfg0.win 1).blk t).view.read (Elt Ideal) k : Vec Ideal S2000x1 .f32) (ix2 p (0 : Fin 1))
      = k (ix2 ⟨2000 * t.val + p.val, row_lt0 t p⟩ (0 : Fin 1)) := by
  obtain ⟨-, -, e0, e1, -, -⟩ := index0 t
  rw [View.read_apply]
  show k _ = k _
  refine congrArg k (funext fun a => Fin.ext ?_)
  match a with
  | ⟨0, _⟩ => show win0_1.index t (0 : Fin 2) * 2000 + 1 * p.val = 2000 * t.val + p.val; omega
  | ⟨1, _⟩ => show win0_1.index t (1 : Fin 2) * 1 + 1 * (0 : Fin 1).val = (0 : Fin 1).val; omega

/-- The output window's block at point t, read off an arbitrary array. -/
theorem read_out0 (G : FVec Ideal S50000x128 .f32) (t : Fin cfg0.N) (p : Fin 2000) (q : Fin 128) :
    (((cfg0.win 2).blk t).view.read (Elt Ideal) G : Vec Ideal S2000x128 .f32) (ix2 p q)
      = G (ix2 ⟨2000 * t.val + p.val, row_lt0 t p⟩ q) := by
  obtain ⟨-, -, -, -, e0, e1⟩ := index0 t
  rw [View.read_apply]
  show G _ = G _
  refine congrArg G (funext fun a => Fin.ext ?_)
  match a with
  | ⟨0, _⟩ => show win0_2.index t (0 : Fin 2) * 2000 + 1 * p.val = 2000 * t.val + p.val; omega
  | ⟨1, _⟩ => show win0_2.index t (1 : Fin 2) * 128 + 1 * q.val = q.val; omega

/-- A tile X that agrees, entry by entry, with rows 2000·t … of an array G is, written back at point t, block t of G
    (the blocks lie inside the array, so the write-back moves all of the tile). -/
theorem writeback0 (t : Fin cfg0.N) (X : Vec Ideal S2000x128 .f32) (G : FVec Ideal S50000x128 .f32)
    (h : ∀ (p : Fin 2000) (q : Fin 128), X (ix2 p q) = G (ix2 ⟨2000 * t.val + p.val, row_lt0 t p⟩ q)) :
    (cfg0.win 2).cut (grid0.coords t) X = ((cfg0.win 2).blk t).view.read (Elt Ideal) G := by
  funext j
  obtain ⟨p, q, rfl⟩ : ∃ (p : Fin 2000) (q : Fin 128), j = ix2 p q := ⟨j 0, j 1, eq_ix2 j⟩
  refine Eq.trans ?_ ((h p q).trans (read_out0 G t p q).symm)
  refine congrArg X (funext fun a => Fin.ext ?_)
  match a with
  | ⟨0, _⟩ => rfl
  | ⟨1, _⟩ => rfl

section
variable (V : (c : Dev nD) → (b : Ref sig .tc) → Buf (Elt Ideal) ((c : Thread nD τ).loc b)) (c : Dev nD)

/-- What point t writes back is block t of the row scaling of the two input arrays as the region finds them. -/
theorem flushed_scale0 (t : Fin cfg0.N) :
    (dat0 (F := Ideal) V c).flushed 2 t
      = ((cfg0.win 2).blk t).view.read (Elt Ideal) (Cert.Spec.scale (V c main_arg0) (V c main_v11)) := by
  show (cfg0.win 2).cut (grid0.coords t) ((dat0 (F := Ideal) V c).after 2 t) = _
  rw [after0_2]
  unfold out0_2
  rw [View.canon_unit_zero zero_off2]
  simp only [View.ld_unit_zero (S := S2000x128) zero_off2, View.ld_unit_zero (S := S2000x1) zero_off2]
  refine writeback0 t _ _ fun p q => ?_
  refine (pay0_apply (iblk0 V c 0 t) (iblk0 V c 1 t) p q).trans ?_
  refine Eq.trans ?_ (scale_apply (V c main_arg0) (V c main_v11) ⟨2000 * t.val + p.val, row_lt0 t p⟩ q).symm
  unfold iblk0
  exact congrArg₂ (· * ·) (read_features0 (V c main_arg0) t p q) (read_column0 (V c main_v11) t p)

/-- An index of the output array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v17).slice (win0_2.rect t)).set ↔ _
  rw [View.set_slice_whole, Rect.mem_set_unit]
  exact Iff.rfl

/-- The 25 blocks tile the output array: row r is in the block of point r / 2000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by rw [points0]; omega⟩
  have ht : t.val = (i 0).val / 2000 := rfl
  obtain ⟨-, -, -, -, e0, e1⟩ := index0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the row scaling of the region's two input arrays. -/
theorem scale0 :
    (dat0 (F := Ideal) V c).arrAt 2 cfg0.N = Cert.Spec.scale (V c main_arg0) (V c main_v11) :=
  (dat0 (F := Ideal) V c).arrAt_eq_of_cover 2 (Cert.Spec.scale (V c main_arg0) (V c main_v11))
    (fun t _ => flushed_scale0 V c t) (cover0)

end

end Cert.KValue

end
-- ==== Proof.Scale2.lean ====
/-
  Prescale region 2: the array its output window leaves is the row scaling of its two input arrays.

  The region's grid has 25 points; at point t each window's block is rows 2000·t … 2000·t + 1999 of its array (all
  columns). The body stores, into the output's tile, the feature tile times the column tile laid along the rows. So what
  point t writes back is block t of `scale A k` of the two input arrays as the region finds them, and the 25 blocks
  tile the output array: it ends holding `scale A k`.
-/
import proofs.«179694_j65103114272768_1_alg».proof.Proof.ScaleTile
import proofs.«179694_j65103114272768_1_alg».proof.Proof.Gen.KernelIdeal.Frame

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- The three windows' index maps, decided over the grid: at point t every window is at block (t, 0). -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The grid has 25 points. -/
theorem points2 : cfg2.N = 25 := N_2

/-- Row p of block t is row 2000·t + p of the array. -/
theorem row_lt2 (t : Fin cfg2.N) (p : Fin 2000) : 2000 * t.val + p.val < 50000 := by
  have ht : t.val < 25 := points2 ▸ t.isLt
  have hp := p.isLt
  omega

/-- The feature window's block at point t, read off an arbitrary array: entry (p, q) is the array's (2000·t + p, q). -/
theorem read_features2 (A : FVec Ideal S50000x128 .f32) (t : Fin cfg2.N) (p : Fin 2000) (q : Fin 128) :
    (((cfg2.win 0).blk t).view.read (Elt Ideal) A : Vec Ideal S2000x128 .f32) (ix2 p q)
      = A (ix2 ⟨2000 * t.val + p.val, row_lt2 t p⟩ q) := by
  obtain ⟨e0, e1, -, -, -, -⟩ := index2 t
  rw [View.read_apply]
  show A _ = A _
  refine congrArg A (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * q.val = q.val; omega

/-- The column window's block at point t, read off an arbitrary column: entry (p, 0) is the column's (2000·t + p, 0). -/
theorem read_column2 (k : FVec Ideal S50000x1 .f32) (t : Fin cfg2.N) (p : Fin 2000) :
    (((cfg2.win 1).blk t).view.read (Elt Ideal) k : Vec Ideal S2000x1 .f32) (ix2 p (0 : Fin 1))
      = k (ix2 ⟨2000 * t.val + p.val, row_lt2 t p⟩ (0 : Fin 1)) := by
  obtain ⟨-, -, e0, e1, -, -⟩ := index2 t
  rw [View.read_apply]
  show k _ = k _
  refine congrArg k (funext fun a => Fin.ext ?_)
  match a with
  | ⟨0, _⟩ => show win2_1.index t (0 : Fin 2) * 2000 + 1 * p.val = 2000 * t.val + p.val; omega
  | ⟨1, _⟩ => show win2_1.index t (1 : Fin 2) * 1 + 1 * (0 : Fin 1).val = (0 : Fin 1).val; omega

/-- The output window's block at point t, read off an arbitrary array. -/
theorem read_out2 (G : FVec Ideal S50000x128 .f32) (t : Fin cfg2.N) (p : Fin 2000) (q : Fin 128) :
    (((cfg2.win 2).blk t).view.read (Elt Ideal) G : Vec Ideal S2000x128 .f32) (ix2 p q)
      = G (ix2 ⟨2000 * t.val + p.val, row_lt2 t p⟩ q) := by
  obtain ⟨-, -, -, -, e0, e1⟩ := index2 t
  rw [View.read_apply]
  show G _ = G _
  refine congrArg G (funext fun a => Fin.ext ?_)
  match a with
  | ⟨0, _⟩ => show win2_2.index t (0 : Fin 2) * 2000 + 1 * p.val = 2000 * t.val + p.val; omega
  | ⟨1, _⟩ => show win2_2.index t (1 : Fin 2) * 128 + 1 * q.val = q.val; omega

/-- A tile X that agrees, entry by entry, with rows 2000·t … of an array G is, written back at point t, block t of G
    (the blocks lie inside the array, so the write-back moves all of the tile). -/
theorem writeback2 (t : Fin cfg2.N) (X : Vec Ideal S2000x128 .f32) (G : FVec Ideal S50000x128 .f32)
    (h : ∀ (p : Fin 2000) (q : Fin 128), X (ix2 p q) = G (ix2 ⟨2000 * t.val + p.val, row_lt2 t p⟩ q)) :
    (cfg2.win 2).cut (grid2.coords t) X = ((cfg2.win 2).blk t).view.read (Elt Ideal) G := by
  funext j
  obtain ⟨p, q, rfl⟩ : ∃ (p : Fin 2000) (q : Fin 128), j = ix2 p q := ⟨j 0, j 1, eq_ix2 j⟩
  refine Eq.trans ?_ ((h p q).trans (read_out2 G t p q).symm)
  refine congrArg X (funext fun a => Fin.ext ?_)
  match a with
  | ⟨0, _⟩ => rfl
  | ⟨1, _⟩ => rfl

section
variable (V : (c : Dev nD) → (b : Ref sig .tc) → Buf (Elt Ideal) ((c : Thread nD τ).loc b)) (c : Dev nD)

/-- What point t writes back is block t of the row scaling of the two input arrays as the region finds them. -/
theorem flushed_scale2 (t : Fin cfg2.N) :
    (dat2 (F := Ideal) V c).flushed 2 t
      = ((cfg2.win 2).blk t).view.read (Elt Ideal) (Cert.Spec.scale (V c main_v33_0) (V c main_v11)) := by
  show (cfg2.win 2).cut (grid2.coords t) ((dat2 (F := Ideal) V c).after 2 t) = _
  rw [after2_2]
  unfold out2_2
  rw [View.canon_unit_zero zero_off2]
  simp only [View.ld_unit_zero (S := S2000x128) zero_off2, View.ld_unit_zero (S := S2000x1) zero_off2]
  refine writeback2 t _ _ fun p q => ?_
  refine (pay2_apply (iblk2 V c 0 t) (iblk2 V c 1 t) p q).trans ?_
  refine Eq.trans ?_ (scale_apply (V c main_v33_0) (V c main_v11) ⟨2000 * t.val + p.val, row_lt2 t p⟩ q).symm
  unfold iblk2
  exact congrArg₂ (· * ·) (read_features2 (V c main_v33_0) t p q) (read_column2 (V c main_v11) t p)

/-- An index of the output array is in point t's block iff each coordinate is in the block's range on its axis. -/
theorem mem_block2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v34).slice (win2_2.rect t)).set ↔ _
  rw [View.set_slice_whole, Rect.mem_set_unit]
  exact Iff.rfl

/-- The 25 blocks tile the output array: row r is in the block of point r / 2000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 2000, by rw [points2]; omega⟩
  have ht : t.val = (i 0).val / 2000 := rfl
  obtain ⟨-, -, -, -, e0, e1⟩ := index2 t
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: the row scaling of the region's two input arrays. -/
theorem scale2 :
    (dat2 (F := Ideal) V c).arrAt 2 cfg2.N = Cert.Spec.scale (V c main_v33_0) (V c main_v11) :=
  (dat2 (F := Ideal) V c).arrAt_eq_of_cover 2 (Cert.Spec.scale (V c main_v33_0) (V c main_v11))
    (fun t _ => flushed_scale2 V c t) (cover2)

end

end Cert.KValue

end
-- ==== Proof.Scale4.lean ====
/-
  Prescale region 4: the array its output window leaves is the row scaling of its two input arrays.

  The region's grid has 25 points; at point t each window's block is rows 2000·t … 2000·t + 1999 of its array (all
  columns). The body stores, into the output's tile, the feature tile times the column tile laid along the rows. So what
  point t writes back is block t of `scale A k` of the two input arrays as the region finds them, and the 25 blocks
  tile the output array: it ends holding `scale A k`.
-/
import proofs.«179694_j65103114272768_1_alg».proof.Proof.ScaleTile
import proofs.«179694_j65103114272768_1_alg».proof.Proof.Gen.KernelIdeal.Frame

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- The three windows' index maps, decided over the grid: at point t every window is at block (t, 0). -/
theorem index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The grid has 25 points. -/
theorem points4 : cfg4.N = 25 := N_4

/-- Row p of block t is row 2000·t + p of the array. -/
theorem row_lt4 (t : Fin cfg4.N) (p : Fin 2000) : 2000 * t.val + p.val < 50000 := by
  have ht : t.val < 25 := points4 ▸ t.isLt
  have hp := p.isLt
  omega

/-- The feature window's block at point t, read off an arbitrary array: entry (p, q) is the array's (2000·t + p, q). -/
theorem read_features4 (A : FVec Ideal S50000x128 .f32) (t : Fin cfg4.N) (p : Fin 2000) (q : Fin 128) :
    (((cfg4.win 0).blk t).view.read (Elt Ideal) A : Vec Ideal S2000x128 .f32) (ix2 p q)
      = A (ix2 ⟨2000 * t.val + p.val, row_lt4 t p⟩ q) := by
  obtain ⟨e0, e1, -, -, -, -⟩ := index4 t
  rw [View.read_apply]
  show A _ = A _
  refine congrArg A (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * q.val = q.val; omega

/-- The column window's block at point t, read off an arbitrary column: entry (p, 0) is the column's (2000·t + p, 0). -/
theorem read_column4 (k : FVec Ideal S50000x1 .f32) (t : Fin cfg4.N) (p : Fin 2000) :
    (((cfg4.win 1).blk t).view.read (Elt Ideal) k : Vec Ideal S2000x1 .f32) (ix2 p (0 : Fin 1))
      = k (ix2 ⟨2000 * t.val + p.val, row_lt4 t p⟩ (0 : Fin 1)) := by
  obtain ⟨-, -, e0, e1, -, -⟩ := index4 t
  rw [View.read_apply]
  show k _ = k _
  refine congrArg k (funext fun a => Fin.ext ?_)
  match a with
  | ⟨0, _⟩ => show win4_1.index t (0 : Fin 2) * 2000 + 1 * p.val = 2000 * t.val + p.val; omega
  | ⟨1, _⟩ => show win4_1.index t (1 : Fin 2) * 1 + 1 * (0 : Fin 1).val = (0 : Fin 1).val; omega

/-- The output window's block at point t, read off an arbitrary array. -/
theorem read_out4 (G : FVec Ideal S50000x128 .f32) (t : Fin cfg4.N) (p : Fin 2000) (q : Fin 128) :
    (((cfg4.win 2).blk t).view.read (Elt Ideal) G : Vec Ideal S2000x128 .f32) (ix2 p q)
      = G (ix2 ⟨2000 * t.val + p.val, row_lt4 t p⟩ q) := by
  obtain ⟨-, -, -, -, e0, e1⟩ := index4 t
  rw [View.read_apply]
  show G _ = G _
  refine congrArg G (funext fun a => Fin.ext ?_)
  match a with
  | ⟨0, _⟩ => show win4_2.index t (0 : Fin 2) * 2000 + 1 * p.val = 2000 * t.val + p.val; omega
  | ⟨1, _⟩ => show win4_2.index t (1 : Fin 2) * 128 + 1 * q.val = q.val; omega

/-- A tile X that agrees, entry by entry, with rows 2000·t … of an array G is, written back at point t, block t of G
    (the blocks lie inside the array, so the write-back moves all of the tile). -/
theorem writeback4 (t : Fin cfg4.N) (X : Vec Ideal S2000x128 .f32) (G : FVec Ideal S50000x128 .f32)
    (h : ∀ (p : Fin 2000) (q : Fin 128), X (ix2 p q) = G (ix2 ⟨2000 * t.val + p.val, row_lt4 t p⟩ q)) :
    (cfg4.win 2).cut (grid4.coords t) X = ((cfg4.win 2).blk t).view.read (Elt Ideal) G := by
  funext j
  obtain ⟨p, q, rfl⟩ : ∃ (p : Fin 2000) (q : Fin 128), j = ix2 p q := ⟨j 0, j 1, eq_ix2 j⟩
  refine Eq.trans ?_ ((h p q).trans (read_out4 G t p q).symm)
  refine congrArg X (funext fun a => Fin.ext ?_)
  match a with
  | ⟨0, _⟩ => rfl
  | ⟨1, _⟩ => rfl

section
variable (V : (c : Dev nD) → (b : Ref sig .tc) → Buf (Elt Ideal) ((c : Thread nD τ).loc b)) (c : Dev nD)

/-- What point t writes back is block t of the row scaling of the two input arrays as the region finds them. -/
theorem flushed_scale4 (t : Fin cfg4.N) :
    (dat4 (F := Ideal) V c).flushed 2 t
      = ((cfg4.win 2).blk t).view.read (Elt Ideal) (Cert.Spec.scale (V c main_v50_0) (V c main_v11)) := by
  show (cfg4.win 2).cut (grid4.coords t) ((dat4 (F := Ideal) V c).after 2 t) = _
  rw [after4_2]
  unfold out4_2
  rw [View.canon_unit_zero zero_off2]
  simp only [View.ld_unit_zero (S := S2000x128) zero_off2, View.ld_unit_zero (S := S2000x1) zero_off2]
  refine writeback4 t _ _ fun p q => ?_
  refine (pay4_apply (iblk4 V c 0 t) (iblk4 V c 1 t) p q).trans ?_
  refine Eq.trans ?_ (scale_apply (V c main_v50_0) (V c main_v11) ⟨2000 * t.val + p.val, row_lt4 t p⟩ q).symm
  unfold iblk4
  exact congrArg₂ (· * ·) (read_features4 (V c main_v50_0) t p q) (read_column4 (V c main_v11) t p)

/-- An index of the output array is in point t's block iff each coordinate is in the block's range on its axis. -/
theorem mem_block4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v51).slice (win4_2.rect t)).set ↔ _
  rw [View.set_slice_whole, Rect.mem_set_unit]
  exact Iff.rfl

/-- The 25 blocks tile the output array: row r is in the block of point r / 2000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 2000, by rw [points4]; omega⟩
  have ht : t.val = (i 0).val / 2000 := rfl
  obtain ⟨-, -, -, -, e0, e1⟩ := index4 t
  refine ⟨t, flush4_2 t, ?_⟩
  rw [mem_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after the region: the row scaling of the region's two input arrays. -/
theorem scale4 :
    (dat4 (F := Ideal) V c).arrAt 2 cfg4.N = Cert.Spec.scale (V c main_v50_0) (V c main_v11) :=
  (dat4 (F := Ideal) V c).arrAt_eq_of_cover 2 (Cert.Spec.scale (V c main_v50_0) (V c main_v11))
    (fun t _ => flushed_scale4 V c t) (cover4)

end

end Cert.KValue

end
-- ==== Proof.Scale6.lean ====
/-
  Prescale region 6: the array its output window leaves is the row scaling of its two input arrays.

  The region's grid has 25 points; at point t each window's block is rows 2000·t … 2000·t + 1999 of its array (all
  columns). The body stores, into the output's tile, the feature tile times the column tile laid along the rows. So what
  point t writes back is block t of `scale A k` of the two input arrays as the region finds them, and the 25 blocks
  tile the output array: it ends holding `scale A k`.
-/
import proofs.«179694_j65103114272768_1_alg».proof.Proof.ScaleTile
import proofs.«179694_j65103114272768_1_alg».proof.Proof.Gen.KernelIdeal.Frame

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen

/-- The three windows' index maps, decided over the grid: at point t every window is at block (t, 0). -/
theorem index6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The grid has 25 points. -/
theorem points6 : cfg6.N = 25 := N_6

/-- Row p of block t is row 2000·t + p of the array. -/
theorem row_lt6 (t : Fin cfg6.N) (p : Fin 2000) : 2000 * t.val + p.val < 50000 := by
  have ht : t.val < 25 := points6 ▸ t.isLt
  have hp := p.isLt
  omega

/-- The feature window's block at point t, read off an arbitrary array: entry (p, q) is the array's (2000·t + p, q). -/
theorem read_features6 (A : FVec Ideal S50000x128 .f32) (t : Fin cfg6.N) (p : Fin 2000) (q : Fin 128) :
    (((cfg6.win 0).blk t).view.read (Elt Ideal) A : Vec Ideal S2000x128 .f32) (ix2 p q)
      = A (ix2 ⟨2000 * t.val + p.val, row_lt6 t p⟩ q) := by
  obtain ⟨e0, e1, -, -, -, -⟩ := index6 t
  rw [View.read_apply]
  show A _ = A _
  refine congrArg A (funext fun a => Fin.ext ?_)
  match a with
  | ⟨0, _⟩ => show win6_0.index t (0 : Fin 2) * 2000 + 1 * p.val = 2000 * t.val + p.val; omega
  | ⟨1, _⟩ => show win6_0.index t (1 : Fin 2) * 128 + 1 * q.val = q.val; omega

/-- The column window's block at point t, read off an arbitrary column: entry (p, 0) is the column's (2000·t + p, 0). -/
theorem read_column6 (k : FVec Ideal S50000x1 .f32) (t : Fin cfg6.N) (p : Fin 2000) :
    (((cfg6.win 1).blk t).view.read (Elt Ideal) k : Vec Ideal S2000x1 .f32) (ix2 p (0 : Fin 1))
      = k (ix2 ⟨2000 * t.val + p.val, row_lt6 t p⟩ (0 : Fin 1)) := by
  obtain ⟨-, -, e0, e1, -, -⟩ := index6 t
  rw [View.read_apply]
  show k _ = k _
  refine congrArg k (funext fun a => Fin.ext ?_)
  match a with
  | ⟨0, _⟩ => show win6_1.index t (0 : Fin 2) * 2000 + 1 * p.val = 2000 * t.val + p.val; omega
  | ⟨1, _⟩ => show win6_1.index t (1 : Fin 2) * 1 + 1 * (0 : Fin 1).val = (0 : Fin 1).val; omega

/-- The output window's block at point t, read off an arbitrary array. -/
theorem read_out6 (G : FVec Ideal S50000x128 .f32) (t : Fin cfg6.N) (p : Fin 2000) (q : Fin 128) :
    (((cfg6.win 2).blk t).view.read (Elt Ideal) G : Vec Ideal S2000x128 .f32) (ix2 p q)
      = G (ix2 ⟨2000 * t.val + p.val, row_lt6 t p⟩ q) := by
  obtain ⟨-, -, -, -, e0, e1⟩ := index6 t
  rw [View.read_apply]
  show G _ = G _
  refine congrArg G (funext fun a => Fin.ext ?_)
  match a with
  | ⟨0, _⟩ => show win6_2.index t (0 : Fin 2) * 2000 + 1 * p.val = 2000 * t.val + p.val; omega
  | ⟨1, _⟩ => show win6_2.index t (1 : Fin 2) * 128 + 1 * q.val = q.val; omega

/-- A tile X that agrees, entry by entry, with rows 2000·t … of an array G is, written back at point t, block t of G
    (the blocks lie inside the array, so the write-back moves all of the tile). -/
theorem writeback6 (t : Fin cfg6.N) (X : Vec Ideal S2000x128 .f32) (G : FVec Ideal S50000x128 .f32)
    (h : ∀ (p : Fin 2000) (q : Fin 128), X (ix2 p q) = G (ix2 ⟨2000 * t.val + p.val, row_lt6 t p⟩ q)) :
    (cfg6.win 2).cut (grid6.coords t) X = ((cfg6.win 2).blk t).view.read (Elt Ideal) G := by
  funext j
  obtain ⟨p, q, rfl⟩ : ∃ (p : Fin 2000) (q : Fin 128), j = ix2 p q := ⟨j 0, j 1, eq_ix2 j⟩
  refine Eq.trans ?_ ((h p q).trans (read_out6 G t p q).symm)
  refine congrArg X (funext fun a => Fin.ext ?_)
  match a with
  | ⟨0, _⟩ => rfl
  | ⟨1, _⟩ => rfl

section
variable (V : (c : Dev nD) → (b : Ref sig .tc) → Buf (Elt Ideal) ((c : Thread nD τ).loc b)) (c : Dev nD)

/-- What point t writes back is block t of the row scaling of the two input arrays as the region finds them. -/
theorem flushed_scale6 (t : Fin cfg6.N) :
    (dat6 (F := Ideal) V c).flushed 2 t
      = ((cfg6.win 2).blk t).view.read (Elt Ideal) (Cert.Spec.scale (V c main_v67_0) (V c main_v11)) := by
  show (cfg6.win 2).cut (grid6.coords t) ((dat6 (F := Ideal) V c).after 2 t) = _
  rw [after6_2]
  unfold out6_2
  rw [View.canon_unit_zero zero_off2]
  simp only [View.ld_unit_zero (S := S2000x128) zero_off2, View.ld_unit_zero (S := S2000x1) zero_off2]
  refine writeback6 t _ _ fun p q => ?_
  refine (pay6_apply (iblk6 V c 0 t) (iblk6 V c 1 t) p q).trans ?_
  refine Eq.trans ?_ (scale_apply (V c main_v67_0) (V c main_v11) ⟨2000 * t.val + p.val, row_lt6 t p⟩ q).symm
  unfold iblk6
  exact congrArg₂ (· * ·) (read_features6 (V c main_v67_0) t p q) (read_column6 (V c main_v11) t p)

/-- An index of the output array is in point t's block iff each coordinate is in the block's range on its axis. -/
theorem mem_block6 (t : Fin cfg6.N) (i : S50000x128.Idx) :
    i ∈ ((cfg6.win 2).blk t).view.set ↔ ∀ a : Fin 2, win6_2.index t a * S2000x128.size a ≤ (i a).val
      ∧ (i a).val < win6_2.index t a * S2000x128.size a + S2000x128.size a := by
  show i ∈ ((View.whole main_v68).slice (win6_2.rect t)).set ↔ _
  rw [View.set_slice_whole, Rect.mem_set_unit]
  exact Iff.rfl

/-- The 25 blocks tile the output array: row r is in the block of point r / 2000. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  let t : Fin cfg6.N := ⟨(i 0).val / 2000, by rw [points6]; omega⟩
  have ht : t.val = (i 0).val / 2000 := rfl
  obtain ⟨-, -, -, -, e0, e1⟩ := index6 t
  refine ⟨t, flush6_2 t, ?_⟩
  rw [mem_block6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- The output array after the region: the row scaling of the region's two input arrays. -/
theorem scale6 :
    (dat6 (F := Ideal) V c).arrAt 2 cfg6.N = Cert.Spec.scale (V c main_v67_0) (V c main_v11) :=
  (dat6 (F := Ideal) V c).arrAt_eq_of_cover 2 (Cert.Spec.scale (V c main_v67_0) (V c main_v11))
    (fun t _ => flushed_scale6 V c t) (cover6)

end

end Cert.KValue

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.DenseTile.lean ====
/-
  One tile of the dense layer, read entry by entry at the extended reals.

  The layer's pre-activation at row v, column j is  y = ∑ₖ (a v k · s v) · W k j + b j  (a the aggregated features,
  s the per-node scale, W the weights, b the bias), and its output is the leaky rectifier of y: y itself on one side
  of zero, slope · y on the other. A tile of 2000 rows computes the same sums row by row — a change of float format
  is the identity on extended reals, and a matrix product into a zero accumulator is the plain sum over the 128
  contracted coordinates. The tile tests y > 0 where the whole-array form tests y ≥ 0; the two agree on every
  extended real because at y = 0 both branches give 0 (slope · 0 = 0).
-/
import proofs.«179694_j65103114272768_1_alg».proof.Proof.Spec
import proofs.«179694_j65103114272768_1_alg».proof.Proof.Gen.KernelIdeal.Skeleton
import proofs.«179694_j65103114272768_1_alg».proof.Proof.LibTileMatmul
import Idealize.ShloMosaic.Lib.Pipeline.Value
import Idealize.ShloMosaic.Lib.ValueIdx

noncomputable section

open scoped BigOperators

namespace Cert.KValue

open Idealize.ShloMosaic Idealize.ShloMosaic.ValueIdx Idealize.ShloMosaic.TileMatmul

/-! ## The rectifier, in its two spellings -/

/-- The rectifier's slope on the negative side: the f32 nearest 1/100, as an extended real. -/
abbrev slope : EReal := Ideal.ofBits .f32 0x3C23D70A#32

/-- y where y > 0, slope · y elsewhere. -/
def leakyGt (y : EReal) : EReal := if 0 < y then y else slope * y

/-- y where y ≥ 0, slope · y elsewhere. -/
def leakyGe (y : EReal) : EReal := if 0 ≤ y then y else slope * y

/-- The two spellings agree: they differ only in the branch taken at y = 0, where both branches are 0. -/
theorem leakyGt_eq_leakyGe (y : EReal) : leakyGt y = leakyGe y := by
  unfold leakyGt leakyGe
  by_cases h : 0 < y
  · rw [if_pos h, if_pos h.le]
  · rw [if_neg h]
    by_cases h' : 0 ≤ y
    · have e : y = 0 := le_antisymm (not_lt.mp h) h'
      rw [if_pos h', e, mul_zero]
    · rw [if_neg h']

/-- A select on the bit of a decided proposition is the `if`. -/
theorem select_ofBool_decide {α : Type} (P : Prop) [Decidable P] (a b : α) :
    Scalar.select (BitVec.ofBool (decide P)) a b = if P then a else b := by
  by_cases h : P
  · rw [if_pos h, decide_eq_true h]; exact select_one a b
  · rw [if_neg h, decide_eq_false h]; exact select_zero a b

/-! ## The tile's payload at an entry -/

section Tile
open Cert.KernelIdeal Cert.KernelIdeal.Gen

/-- The tile's pre-activation: (x0 scaled row by row by x2) · x7, plus the bias row x11 on every row. -/
def preact (x0 : Vec Ideal S2000x128 .f32) (x2 : Vec Ideal S2000x1 .f32) (x7 : Vec Ideal S128x128 .f32)
    (x11 : Vec Ideal S1x128 .f32) : FVec Ideal S2000x128 .f32 :=
  addf (matmul dot_S2000x128_S128x128_S2000x128_1_0_0_1_n_n none
      (truncf .bf16 (mulf x0 (broadcastTo S2000x128 x2 broadcasts_S2000x1_S2000x128)) bitsLt_bf16_f32)
      (truncf .bf16 x7 bitsLt_bf16_f32) (constant S2000x128 .f32 0x00000000#32))
    (broadcastTo S2000x128 x11 broadcasts_S1x128_S2000x128)

/-- The scale column read on row p of the tile. -/
theorem bcast_col_apply (x2 : Vec Ideal S2000x1 .f32) (p : Fin 2000) (q : Fin 128) :
    broadcastTo S2000x128 x2 broadcasts_S2000x1_S2000x128 (ix2 p q) = x2 (ix2 p 0) :=
  broadcastTo_apply x2 broadcasts_S2000x1_S2000x128 (ix2 p q) (ix2 p 0) fun a => by
    match a with
    | ⟨0, _⟩ => rfl
    | ⟨1, _⟩ => rfl

/-- The bias row read on column q of the tile. -/
theorem bcast_row_apply (x11 : Vec Ideal S1x128 .f32) (p : Fin 2000) (q : Fin 128) :
    broadcastTo S2000x128 x11 broadcasts_S1x128_S2000x128 (ix2 p q) = x11 (ix2 0 q) :=
  broadcastTo_apply x11 broadcasts_S1x128_S2000x128 (ix2 p q) (ix2 0 q) fun a => by
    match a with
    | ⟨0, _⟩ => rfl
    | ⟨1, _⟩ => rfl

/-- The pre-activation at entry (p, q): the sum over the contracted coordinate, plus the bias. -/
theorem preact_apply (x0 : Vec Ideal S2000x128 .f32) (x2 : Vec Ideal S2000x1 .f32) (x7 : Vec Ideal S128x128 .f32)
    (x11 : Vec Ideal S1x128 .f32) (p : Fin 2000) (q : Fin 128) :
    preact x0 x2 x7 x11 (ix2 p q) = (∑ c : Fin 128, (x0 (ix2 p c) * x2 (ix2 p 0)) * x7 (ix2 c q)) + x11 (ix2 0 q) := by
  unfold preact
  rw [addf_apply, bcast_row_apply]
  refine congrArg (· + x11 (ix2 0 q)) ?_
  refine (matmul_zero_apply (m := 2000) (k := 128) (n := 128) dot_S2000x128_S128x128_S2000x128_1_0_0_1_n_n_wf none _ _ p q).trans ?_
  refine Finset.sum_congr rfl fun c _ => ?_
  rw [truncf_apply, truncf_apply, mulf_apply, bcast_col_apply]

/-- The payload stored into the layer's output window is the rectifier (tested with >) of the pre-activation. -/
theorem pay1_eq (x0 : Vec Ideal S2000x128 .f32) (x2 : Vec Ideal S2000x1 .f32) (x7 : Vec Ideal S128x128 .f32)
    (x11 : Vec Ideal S1x128 .f32) :
    k1_pay1 (F := Ideal) x0 x2 x7 x11 = select (cmpf .ogt (preact x0 x2 x7 x11) (broadcast S2000x128 (Scalar.ofBits .f32 0x00000000#32)))
      (preact x0 x2 x7 x11) (mulf (broadcast S2000x128 (Scalar.ofBits .f32 0x3C23D70A#32)) (preact x0 x2 x7 x11)) := by
  unfold k1_pay1 preact
  simp only [shapeCast_self]

/-- The payload at entry (p, q). -/
theorem densePay_apply (x0 : Vec Ideal S2000x128 .f32) (x2 : Vec Ideal S2000x1 .f32) (x7 : Vec Ideal S128x128 .f32)
    (x11 : Vec Ideal S1x128 .f32) (p : Fin 2000) (q : Fin 128) :
    k1_pay1 (F := Ideal) x0 x2 x7 x11 (ix2 p q)
      = leakyGt ((∑ c : Fin 128, (x0 (ix2 p c) * x2 (ix2 p 0)) * x7 (ix2 c q)) + x11 (ix2 0 q)) := by
  rw [pay1_eq, select_apply, cmpf_apply, mulf_apply, broadcast_apply, broadcast_apply, preact_apply]
  unfold leakyGt
  exact (select_ofBool_decide _ _ _).trans (if_congr (Iff.of_eq (congrArg (· < _) Ideal.ofBits_zero_f32)) rfl rfl)

/-- The payload stored into the running-maximum window at entry (p, q): the larger of the maximum so far and the
    layer's output there. -/
theorem rmaxPay_apply (x0 : Vec Ideal S2000x128 .f32) (x2 : Vec Ideal S2000x1 .f32) (x7 : Vec Ideal S128x128 .f32)
    (x11 : Vec Ideal S1x128 .f32) (x21 : Vec Ideal S2000x128 .f32) (p : Fin 2000) (q : Fin 128) :
    k1_pay2 (F := Ideal) x0 x2 x7 x11 x21 (ix2 p q) = max (x21 (ix2 p q)) (k1_pay1 (F := Ideal) x0 x2 x7 x11 (ix2 p q)) := by
  unfold k1_pay2
  exact maximumf_apply _ _ _

/-- The other three layers' payloads are the same functions of their tiles. -/
theorem k3_pay1_eq : @k3_pay1 Ideal _ = @k1_pay1 Ideal _ := rfl
theorem k3_pay2_eq : @k3_pay2 Ideal _ = @k1_pay2 Ideal _ := rfl
theorem k5_pay1_eq : @k5_pay1 Ideal _ = @k1_pay1 Ideal _ := rfl
theorem k5_pay2_eq : @k5_pay2 Ideal _ = @k1_pay2 Ideal _ := rfl
theorem k7_pay1_eq : @k7_pay1 Ideal _ = @k1_pay1 Ideal _ := rfl
theorem k7_pay2_eq : @k7_pay2 Ideal _ = @k1_pay2 Ideal _ := rfl

end Tile

/-! ## The whole-array layer at an entry -/

section Whole
open Cert.ReferenceIdeal Cert.ReferenceIdeal.Facts₀

/-- A scalar constant spread over the whole array reads that constant everywhere. -/
theorem splat_apply (b : BitVec 32) (i : S50000x128.Idx) :
    broadcastInDim S50000x128 ![] bcast_S_S50000x128 (constant (F := Ideal) S_ .f32 b) i = Ideal.ofBits .f32 b :=
  (broadcastInDim_apply ![] bcast_S_S50000x128 (constant (F := Ideal) S_ .f32 b) i ix0 fun a => a.elim0).trans (constant_apply _ _)

/-- The scale column spread along the rows reads the row's scalar. -/
theorem col_apply (k : Cert.Spec.Col) (v : Fin 50000) (j : Fin 128) :
    broadcastInDim S50000x128 ![0, 1] bcast_S50000x1_S50000x128_0_1 k (ix2 v j) = k (ix2 v 0) :=
  broadcastInDim_apply ![0, 1] bcast_S50000x1_S50000x128_0_1 k (ix2 v j) (ix2 v 0) fun a => by
    match a with
    | ⟨0, _⟩ => rfl
    | ⟨1, _⟩ => rfl

/-- The bias row spread down the columns reads the column's bias. -/
theorem row_apply (b : Cert.Spec.Row) (v : Fin 50000) (j : Fin 128) :
    broadcastInDim S50000x128 ![0, 1] bcast_S1x128_S50000x128_0_1 b (ix2 v j) = b (ix2 0 j) :=
  broadcastInDim_apply ![0, 1] bcast_S1x128_S50000x128_0_1 b (ix2 v j) (ix2 0 j) fun a => by
    match a with
    | ⟨0, _⟩ => rfl
    | ⟨1, _⟩ => rfl

/-- The layer at entry (v, j): the rectifier (tested with ≥) of the sum over the contracted coordinate plus the bias. -/
theorem dense_apply (a : Cert.Spec.Nodes) (k : Cert.Spec.Col) (W : Cert.Spec.Mat) (b : Cert.Spec.Row) (v : Fin 50000) (j : Fin 128) :
    Cert.Spec.dense a k W b (ix2 v j)
      = leakyGe ((∑ c : Fin 128, (a (ix2 v c) * k (ix2 v 0)) * W (ix2 c j)) + b (ix2 0 j)) := by
  unfold Cert.Spec.dense Cert.Spec.leaky
  rw [select_apply, cmpf_apply, mulf_apply, splat_apply, splat_apply, addf_apply, row_apply]
  have hsum : Host.dotGeneral (F := Ideal) dot_S50000x128_S128x128_S50000x128_1_0_0_1_n_n none (Cert.Spec.scale a k) W (ix2 v j)
      = ∑ c : Fin 128, (a (ix2 v c) * k (ix2 v 0)) * W (ix2 c j) := by
    refine (dotGeneral_apply (m := 50000) (k := 128) (n := 128) dot_S50000x128_S128x128_S50000x128_1_0_0_1_n_n_wf none _ _ v j).trans ?_
    refine Finset.sum_congr rfl fun c _ => ?_
    unfold Cert.Spec.scale
    rw [mulf_apply, col_apply]
  rw [hsum]
  unfold leakyGe
  exact (select_ofBool_decide _ _ _).trans (if_congr (Iff.of_eq (congrArg (· ≤ _) Ideal.ofBits_zero_f32)) rfl rfl)

/-- The running maximum at an entry. -/
theorem rmax_apply (r x : Cert.Spec.Nodes) (i : S50000x128.Idx) : Cert.Spec.rmax r x i = max (r i) (x i) := rfl

end Whole

/-! ## A tile against the whole array -/

/-- Row p of a tile that holds rows of the arrays (row p of the tile is row i of the array; the weights and the bias
    whole) computes the layer's entry (i, q). -/
theorem tile_dense (A : Cert.Spec.Nodes) (K : Cert.Spec.Col) (W : Cert.Spec.Mat) (B : Cert.Spec.Row)
    (x0 : Vec Ideal Cert.KernelIdeal.S2000x128 .f32) (x2 : Vec Ideal Cert.KernelIdeal.S2000x1 .f32)
    (x7 : Vec Ideal Cert.KernelIdeal.S128x128 .f32) (x11 : Vec Ideal Cert.KernelIdeal.S1x128 .f32)
    (p : Fin 2000) (q : Fin 128) (i : Fin 50000)
    (h0 : ∀ c : Fin 128, x0 (ix2 p c) = A (ix2 i c)) (h2 : x2 (ix2 p 0) = K (ix2 i 0))
    (h7 : ∀ c : Fin 128, x7 (ix2 c q) = W (ix2 c q)) (h11 : x11 (ix2 0 q) = B (ix2 0 q)) :
    Cert.KernelIdeal.Gen.k1_pay1 (F := Ideal) x0 x2 x7 x11 (ix2 p q) = Cert.Spec.dense A K W B (ix2 i q) := by
  rw [densePay_apply, dense_apply, leakyGt_eq_leakyGe, h2, h11]
  exact congrArg (fun s => leakyGe (s + B (ix2 0 q))) (Finset.sum_congr rfl fun c _ => by rw [h0 c, h7 c])

/-- The same row of the running-maximum tile (x21 holds rows of the maximum so far, R) computes the entry (i, q) of the
    entrywise maximum of R and the layer's output. -/
theorem tile_rmax (R A : Cert.Spec.Nodes) (K : Cert.Spec.Col) (W : Cert.Spec.Mat) (B : Cert.Spec.Row)
    (x0 : Vec Ideal Cert.KernelIdeal.S2000x128 .f32) (x2 : Vec Ideal Cert.KernelIdeal.S2000x1 .f32)
    (x7 : Vec Ideal Cert.KernelIdeal.S128x128 .f32) (x11 : Vec Ideal Cert.KernelIdeal.S1x128 .f32)
    (x21 : Vec Ideal Cert.KernelIdeal.S2000x128 .f32)
    (p : Fin 2000) (q : Fin 128) (i : Fin 50000)
    (h0 : ∀ c : Fin 128, x0 (ix2 p c) = A (ix2 i c)) (h2 : x2 (ix2 p 0) = K (ix2 i 0))
    (h7 : ∀ c : Fin 128, x7 (ix2 c q) = W (ix2 c q)) (h11 : x11 (ix2 0 q) = B (ix2 0 q))
    (h21 : x21 (ix2 p q) = R (ix2 i q)) :
    Cert.KernelIdeal.Gen.k1_pay2 (F := Ideal) x0 x2 x7 x11 x21 (ix2 p q)
      = Cert.Spec.rmax R (Cert.Spec.dense A K W B) (ix2 i q) := by
  rw [rmaxPay_apply, rmax_apply, h21, tile_dense A K W B x0 x2 x7 x11 p q i h0 h2 h7 h11]

end Cert.KValue

end
-- ==== Proof.Dense1.lean ====
/-
  The first dense layer's two output arrays, whole.

  The layer runs over 25 grid points; point t works on rows 2000·t … 2000·t + 1999 of the node arrays (the weights
  and the bias whole at every point), stores the layer's output for those rows into one window and the entrywise
  maximum of the running maximum so far and that output into the other. Row p of point t's tile is row 2000·t + p of
  the arrays, so each block written back is the block of one whole-array function, and the 25 blocks cover the
  50000 rows (row r is in point r / 2000's block).
-/
import proofs.«179694_j65103114272768_1_alg».proof.Proof.DenseTile
import proofs.«179694_j65103114272768_1_alg».proof.Proof.Gen.KernelIdeal.Frame
import Idealize.ShloMosaic.Lib.Pipeline.Value

noncomputable section

namespace Cert.KValue

open Idealize.ShloMosaic Idealize.ShloMosaic.TcCoe Idealize.ShloMosaic.ValueIdx Cert.KernelIdeal Cert.KernelIdeal.Gen
open Idealize.ShloMosaic.Pipeline (Dat)

namespace L1

/-! ## Where each window's block sits -/

/-- The block index of every window at every grid point: the row windows move with the point, the weights and the
    bias stay. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has 25 points. -/
theorem lt25 (t : Fin cfg1.N) : t.val < 25 := lt_of_lt_of_eq t.isLt N_1

/-- Window 0's block at point t, read off an array: entry (p, q) is the array's entry (2000·t + p, q). -/
theorem read0 (A : FVec Ideal S50000x128 .f32) (t : Fin cfg1.N) (p : Fin 2000) (q : Fin 128) (i : Fin 50000)
    (hi : i.val = 2000 * t.val + p.val) :
    ((cfg1.win 0).blk t).view.read (Elt Ideal) A (ix2 p q) = A (ix2 i q) := by
  obtain ⟨e0, e1, -⟩ := idx t
  rw [View.read_apply]
  show A _ = A _
  refine congrArg A (funext fun a => Fin.ext ?_)
  match a with
  | ⟨0, _⟩ => show win1_0.index t (0 : Fin 2) * 2000 + 1 * p.val = i.val; rw [e0, hi]; omega
  | ⟨1, _⟩ => show win1_0.index t (1 : Fin 2) * 128 + 1 * q.val = q.val; rw [e1]; omega

/-- Window 1's block (the scale column): entry (p, 0) is the column's entry (2000·t + p, 0). -/
theorem read1 (K : FVec Ideal S50000x1 .f32) (t : Fin cfg1.N) (p : Fin 2000) (i : Fin 50000)
    (hi : i.val = 2000 * t.val + p.val) :
    ((cfg1.win 1).blk t).view.read (Elt Ideal) K (ix2 p 0) = K (ix2 i 0) := by
  obtain ⟨-, -, e0, e1, -⟩ := idx t
  rw [View.read_apply]
  show K _ = K _
  refine congrArg K (funext fun a => Fin.ext ?_)
  match a with
  | ⟨0, _⟩ => show win1_1.index t (0 : Fin 2) * 2000 + 1 * p.val = i.val; rw [e0, hi]; omega
  | ⟨1, _⟩ => show win1_1.index t (1 : Fin 2) * 1 + 1 * 0 = 0; rw [e1]

/-- Window 2's block is the whole weight matrix at every point. -/
theorem read2 (W : FVec Ideal S128x128 .f32) (t : Fin cfg1.N) (r q : Fin 128) :
    ((cfg1.win 2).blk t).view.read (Elt Ideal) W (ix2 r q) = W (ix2 r q) := by
  obtain ⟨-, -, -, -, e0, e1, -⟩ := idx t
  rw [View.read_apply]
  show W _ = W _
  refine congrArg W (funext fun a => Fin.ext ?_)
  match a with
  | ⟨0, _⟩ => show win1_2.index t (0 : Fin 2) * 128 + 1 * r.val = r.val; rw [e0]; omega
  | ⟨1, _⟩ => show win1_2.index t (1 : Fin 2) * 128 + 1 * q.val = q.val; rw [e1]; omega

/-- Window 3's block is the whole bias row at every point. -/
theorem read3 (B : FVec Ideal S1x128 .f32) (t : Fin cfg1.N) (q : Fin 128) :
    ((cfg1.win 3).blk t).view.read (Elt Ideal) B (ix2 0 q) = B (ix2 0 q) := by
  obtain ⟨-, -, -, -, -, -, e0, e1, -⟩ := idx t
  rw [View.read_apply]
  show B _ = B _
  refine congrArg B (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- Window 4's block (the running maximum so far): entry (p, q) is the array's entry (2000·t + p, q). -/
theorem read4 (R : FVec Ideal S50000x128 .f32) (t : Fin cfg1.N) (p : Fin 2000) (q : Fin 128) (i : Fin 50000)
    (hi : i.val = 2000 * t.val + p.val) :
    ((cfg1.win 4).blk t).view.read (Elt Ideal) R (ix2 p q) = R (ix2 i q) := by
  obtain ⟨-, -, -, -, -, -, -, -, e0, e1, -⟩ := idx t
  rw [View.read_apply]
  show R _ = R _
  refine congrArg R (funext fun a => Fin.ext ?_)
  match a with
  | ⟨0, _⟩ => show win1_4.index t (0 : Fin 2) * 2000 + 1 * p.val = i.val; rw [e0, hi]; omega
  | ⟨1, _⟩ => show win1_4.index t (1 : Fin 2) * 128 + 1 * q.val = q.val; rw [e1]; omega

/-- Output window 5's block at point t of a whole-array function G: entry (p, q) is G (2000·t + p, q). -/
theorem read5 (G : FVec Ideal S50000x128 .f32) (t : Fin cfg1.N) (p : Fin 2000) (q : Fin 128) (i : Fin 50000)
    (hi : i.val = 2000 * t.val + p.val) :
    ((cfg1.win 5).blk t).view.read (Elt Ideal) G (ix2 p q) = G (ix2 i q) := by
  obtain ⟨-, -, -, -, -, -, -, -, -, -, e0, e1, -⟩ := idx t
  rw [View.read_apply]
  show G _ = G _
  refine congrArg G (funext fun a => Fin.ext ?_)
  match a with
  | ⟨0, _⟩ => show win1_5.index t (0 : Fin 2) * 2000 + 1 * p.val = i.val; rw [e0, hi]; omega
  | ⟨1, _⟩ => show win1_5.index t (1 : Fin 2) * 128 + 1 * q.val = q.val; rw [e1]; omega

/-- Output window 6's block likewise. -/
theorem read6 (G : FVec Ideal S50000x128 .f32) (t : Fin cfg1.N) (p : Fin 2000) (q : Fin 128) (i : Fin 50000)
    (hi : i.val = 2000 * t.val + p.val) :
    ((cfg1.win 6).blk t).view.read (Elt Ideal) G (ix2 p q) = G (ix2 i q) := by
  obtain ⟨-, -, -, -, -, -, -, -, -, -, -, -, e0, e1⟩ := idx t
  rw [View.read_apply]
  show G _ = G _
  refine congrArg G (funext fun a => Fin.ext ?_)
  match a with
  | ⟨0, _⟩ => show win1_6.index t (0 : Fin 2) * 2000 + 1 * p.val = i.val; rw [e0, hi]; omega
  | ⟨1, _⟩ => show win1_6.index t (1 : Fin 2) * 128 + 1 * q.val = q.val; rw [e1]; omega

/-! ## What the body leaves in the two output buffers -/

theorem hz : (![0, 0] : Fin 2 → Nat) = fun _ => 0 := funext fun a => by fin_cases a <;> rfl

/-- The body loads its whole buffers and stores whole buffers: window 5's buffer ends holding the first payload of
    the input blocks, -/
theorem out5_eq (x0 : Vec Ideal S2000x128 .f32) (x1 : Vec Ideal S2000x1 .f32) (x2 : Vec Ideal S128x128 .f32)
    (x3 : Vec Ideal S1x128 .f32) (x4 : Vec Ideal S2000x128 .f32) :
    out1_5 (F := Ideal) x0 x1 x2 x3 x4 = k1_pay1 (F := Ideal) x0 x1 x2 x3 := by
  unfold out1_5
  rw [View.canon_unit_zero hz]
  simp only [View.ld_unit_zero (S := S2000x128) hz, View.ld_unit_zero (S := S2000x1) hz,
    View.ld_unit_zero (S := S128x128) hz, View.ld_unit_zero (S := S1x128) hz]

/-- and window 6's the second. -/
theorem out6_eq (x0 : Vec Ideal S2000x128 .f32) (x1 : Vec Ideal S2000x1 .f32) (x2 : Vec Ideal S128x128 .f32)
    (x3 : Vec Ideal S1x128 .f32) (x4 : Vec Ideal S2000x128 .f32) :
    out1_6 (F := Ideal) x0 x1 x2 x3 x4 = k1_pay2 (F := Ideal) x0 x1 x2 x3 x4 := by
  unfold out1_6
  rw [View.canon_unit_zero hz]
  simp only [View.ld_unit_zero (S := S2000x128) hz, View.ld_unit_zero (S := S2000x1) hz,
    View.ld_unit_zero (S := S128x128) hz, View.ld_unit_zero (S := S1x128) hz]

/-! ## What each point writes back -/

section Flushed
variable (V : (c : Dev nD) → (b : Ref sig .tc) → Buf (Elt Ideal) ((c : Thread nD τ).loc b))

/-- Point t writes back, into the layer's output array, block t of the whole-array layer. -/
theorem flushed5 (c : Dev nD) (t : Fin cfg1.N) :
    (dat1 (F := Ideal) V c).flushed 5 t = ((cfg1.win 5).blk t).view.read (Elt Ideal)
      (Cert.Spec.dense (V c main_v27) (V c main_v16) (V c main_v29) (V c main_v32)) := by
  show (cfg1.win 5).cut (grid1.coords t) ((dat1 (F := Ideal) V c).after 5 t) = _
  rw [after1_5, out5_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read5 _ t p q ⟨2000 * t.val + p.val, hi⟩ rfl]
  exact tile_dense (V c main_v27) (V c main_v16) (V c main_v29) (V c main_v32)
    (iblk1 V c 0 t) (iblk1 V c 1 t) (iblk1 V c 2 t) (iblk1 V c 3 t) p q ⟨2000 * t.val + p.val, hi⟩
    (fun r => read0 (V c main_v27) t p r ⟨2000 * t.val + p.val, hi⟩ rfl)
    (read1 (V c main_v16) t p ⟨2000 * t.val + p.val, hi⟩ rfl)
    (fun r => read2 (V c main_v29) t r q)
    (read3 (V c main_v32) t q)

/-- Point t writes back, into the running-maximum array, block t of the entrywise maximum of the maximum so far and
    the whole-array layer. -/
theorem flushed6 (c : Dev nD) (t : Fin cfg1.N) :
    (dat1 (F := Ideal) V c).flushed 6 t = ((cfg1.win 6).blk t).view.read (Elt Ideal)
      (Cert.Spec.rmax (V c main_arg0) (Cert.Spec.dense (V c main_v27) (V c main_v16) (V c main_v29) (V c main_v32))) := by
  show (cfg1.win 6).cut (grid1.coords t) ((dat1 (F := Ideal) V c).after 6 t) = _
  rw [after1_6, out6_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read6 _ t p q ⟨2000 * t.val + p.val, hi⟩ rfl]
  exact tile_rmax (V c main_arg0) (V c main_v27) (V c main_v16) (V c main_v29) (V c main_v32)
    (iblk1 V c 0 t) (iblk1 V c 1 t) (iblk1 V c 2 t) (iblk1 V c 3 t) (iblk1 V c 4 t) p q ⟨2000 * t.val + p.val, hi⟩
    (fun r => read0 (V c main_v27) t p r ⟨2000 * t.val + p.val, hi⟩ rfl)
    (read1 (V c main_v16) t p ⟨2000 * t.val + p.val, hi⟩ rfl)
    (fun r => read2 (V c main_v29) t r q)
    (read3 (V c main_v32) t q)
    (read4 (V c main_arg0) t p q ⟨2000 * t.val + p.val, hi⟩ rfl)

end Flushed

/-! ## The blocks cover the arrays -/

/-- An index of the array is in point t's block of window 5 iff each coordinate is in the block's range. -/
theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v33_0).slice (win1_5.rect t)).set ↔ _
  rw [View.set_slice_whole, Rect.mem_set_unit]
  exact Iff.rfl

theorem mem_blk6 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v33_1).slice (win1_6.rect t)).set ↔ _
  rw [View.set_slice_whole, Rect.mem_set_unit]
  exact Iff.rfl

/-- Row r of the array is in point r / 2000's block. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, e0, e1, -⟩ := idx t
  refine ⟨t, flush1_5 t, ?_⟩
  rw [mem_blk5]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, -, e0, e1⟩ := idx t
  refine ⟨t, flush1_6 t, ?_⟩
  rw [mem_blk6]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

end L1

/-! ## The two arrays after the region -/

section Final
variable (V : (c : Dev nD) → (b : Ref sig .tc) → Buf (Elt Ideal) ((c : Thread nD τ).loc b))

/-- The layer's output array after the region: the whole-array layer of the region's input arrays. -/
theorem dense1_x (c : Dev nD) :
    (dat1 (F := Ideal) V c).arrAt 5 cfg1.N
      = Cert.Spec.dense (V c main_v27) (V c main_v16) (V c main_v29) (V c main_v32) :=
  (dat1 (F := Ideal) V c).arrAt_eq_of_cover 5 _ (fun t _ => L1.flushed5 V c t) L1.cover5

/-- The running-maximum array after the region: the entrywise maximum of the maximum so far and the layer. -/
theorem dense1_r (c : Dev nD) :
    (dat1 (F := Ideal) V c).arrAt 6 cfg1.N
      = Cert.Spec.rmax (V c main_arg0) (Cert.Spec.dense (V c main_v27) (V c main_v16) (V c main_v29) (V c main_v32)) :=
  (dat1 (F := Ideal) V c).arrAt_eq_of_cover 6 _ (fun t _ => L1.flushed6 V c t) L1.cover6

end Final

end Cert.KValue

end
-- ==== Proof.Dense3.lean ====
/-
  The second dense layer's two output arrays, whole.

  The layer runs over 25 grid points; point t works on rows 2000·t … 2000·t + 1999 of the node arrays (the weights
  and the bias whole at every point), stores the layer's output for those rows into one window and the entrywise
  maximum of the running maximum so far and that output into the other. Row p of point t's tile is row 2000·t + p of
  the arrays, so each block written back is the block of one whole-array function, and the 25 blocks cover the
  50000 rows (row r is in point r / 2000's block).
-/
import proofs.«179694_j65103114272768_1_alg».proof.Proof.DenseTile
import proofs.«179694_j65103114272768_1_alg».proof.Proof.Gen.KernelIdeal.Frame
import Idealize.ShloMosaic.Lib.Pipeline.Value

noncomputable section

namespace Cert.KValue

open Idealize.ShloMosaic Idealize.ShloMosaic.TcCoe Idealize.ShloMosaic.ValueIdx Cert.KernelIdeal Cert.KernelIdeal.Gen
open Idealize.ShloMosaic.Pipeline (Dat)

namespace L3

/-! ## Where each window's block sits -/

/-- The block index of every window at every grid point: the row windows move with the point, the weights and the
    bias stay. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The grid has 25 points. -/
theorem lt25 (t : Fin cfg3.N) : t.val < 25 := lt_of_lt_of_eq t.isLt N_3

/-- Window 0's block at point t, read off an array: entry (p, q) is the array's entry (2000·t + p, q). -/
theorem read0 (A : FVec Ideal S50000x128 .f32) (t : Fin cfg3.N) (p : Fin 2000) (q : Fin 128) (i : Fin 50000)
    (hi : i.val = 2000 * t.val + p.val) :
    ((cfg3.win 0).blk t).view.read (Elt Ideal) A (ix2 p q) = A (ix2 i q) := by
  obtain ⟨e0, e1, -⟩ := idx t
  rw [View.read_apply]
  show A _ = A _
  refine congrArg A (funext fun a => Fin.ext ?_)
  match a with
  | ⟨0, _⟩ => show win3_0.index t (0 : Fin 2) * 2000 + 1 * p.val = i.val; rw [e0, hi]; omega
  | ⟨1, _⟩ => show win3_0.index t (1 : Fin 2) * 128 + 1 * q.val = q.val; rw [e1]; omega

/-- Window 1's block (the scale column): entry (p, 0) is the column's entry (2000·t + p, 0). -/
theorem read1 (K : FVec Ideal S50000x1 .f32) (t : Fin cfg3.N) (p : Fin 2000) (i : Fin 50000)
    (hi : i.val = 2000 * t.val + p.val) :
    ((cfg3.win 1).blk t).view.read (Elt Ideal) K (ix2 p 0) = K (ix2 i 0) := by
  obtain ⟨-, -, e0, e1, -⟩ := idx t
  rw [View.read_apply]
  show K _ = K _
  refine congrArg K (funext fun a => Fin.ext ?_)
  match a with
  | ⟨0, _⟩ => show win3_1.index t (0 : Fin 2) * 2000 + 1 * p.val = i.val; rw [e0, hi]; omega
  | ⟨1, _⟩ => show win3_1.index t (1 : Fin 2) * 1 + 1 * 0 = 0; rw [e1]

/-- Window 2's block is the whole weight matrix at every point. -/
theorem read2 (W : FVec Ideal S128x128 .f32) (t : Fin cfg3.N) (r q : Fin 128) :
    ((cfg3.win 2).blk t).view.read (Elt Ideal) W (ix2 r q) = W (ix2 r q) := by
  obtain ⟨-, -, -, -, e0, e1, -⟩ := idx t
  rw [View.read_apply]
  show W _ = W _
  refine congrArg W (funext fun a => Fin.ext ?_)
  match a with
  | ⟨0, _⟩ => show win3_2.index t (0 : Fin 2) * 128 + 1 * r.val = r.val; rw [e0]; omega
  | ⟨1, _⟩ => show win3_2.index t (1 : Fin 2) * 128 + 1 * q.val = q.val; rw [e1]; omega

/-- Window 3's block is the whole bias row at every point. -/
theorem read3 (B : FVec Ideal S1x128 .f32) (t : Fin cfg3.N) (q : Fin 128) :
    ((cfg3.win 3).blk t).view.read (Elt Ideal) B (ix2 0 q) = B (ix2 0 q) := by
  obtain ⟨-, -, -, -, -, -, e0, e1, -⟩ := idx t
  rw [View.read_apply]
  show B _ = B _
  refine congrArg B (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

/-- Window 4's block (the running maximum so far): entry (p, q) is the array's entry (2000·t + p, q). -/
theorem read4 (R : FVec Ideal S50000x128 .f32) (t : Fin cfg3.N) (p : Fin 2000) (q : Fin 128) (i : Fin 50000)
    (hi : i.val = 2000 * t.val + p.val) :
    ((cfg3.win 4).blk t).view.read (Elt Ideal) R (ix2 p q) = R (ix2 i q) := by
  obtain ⟨-, -, -, -, -, -, -, -, e0, e1, -⟩ := idx t
  rw [View.read_apply]
  show R _ = R _
  refine congrArg R (funext fun a => Fin.ext ?_)
  match a with
  | ⟨0, _⟩ => show win3_4.index t (0 : Fin 2) * 2000 + 1 * p.val = i.val; rw [e0, hi]; omega
  | ⟨1, _⟩ => show win3_4.index t (1 : Fin 2) * 128 + 1 * q.val = q.val; rw [e1]; omega

/-- Output window 5's block at point t of a whole-array function G: entry (p, q) is G (2000·t + p, q). -/
theorem read5 (G : FVec Ideal S50000x128 .f32) (t : Fin cfg3.N) (p : Fin 2000) (q : Fin 128) (i : Fin 50000)
    (hi : i.val = 2000 * t.val + p.val) :
    ((cfg3.win 5).blk t).view.read (Elt Ideal) G (ix2 p q) = G (ix2 i q) := by
  obtain ⟨-, -, -, -, -, -, -, -, -, -, e0, e1, -⟩ := idx t
  rw [View.read_apply]
  show G _ = G _
  refine congrArg G (funext fun a => Fin.ext ?_)
  match a with
  | ⟨0, _⟩ => show win3_5.index t (0 : Fin 2) * 2000 + 1 * p.val = i.val; rw [e0, hi]; omega
  | ⟨1, _⟩ => show win3_5.index t (1 : Fin 2) * 128 + 1 * q.val = q.val; rw [e1]; omega

/-- Output window 6's block likewise. -/
theorem read6 (G : FVec Ideal S50000x128 .f32) (t : Fin cfg3.N) (p : Fin 2000) (q : Fin 128) (i : Fin 50000)
    (hi : i.val = 2000 * t.val + p.val) :
    ((cfg3.win 6).blk t).view.read (Elt Ideal) G (ix2 p q) = G (ix2 i q) := by
  obtain ⟨-, -, -, -, -, -, -, -, -, -, -, -, e0, e1⟩ := idx t
  rw [View.read_apply]
  show G _ = G _
  refine congrArg G (funext fun a => Fin.ext ?_)
  match a with
  | ⟨0, _⟩ => show win3_6.index t (0 : Fin 2) * 2000 + 1 * p.val = i.val; rw [e0, hi]; omega
  | ⟨1, _⟩ => show win3_6.index t (1 : Fin 2) * 128 + 1 * q.val = q.val; rw [e1]; omega

/-! ## What the body leaves in the two output buffers -/

theorem hz : (![0, 0] : Fin 2 → Nat) = fun _ => 0 := funext fun a => by fin_cases a <;> rfl

/-- The body loads its whole buffers and stores whole buffers: window 5's buffer ends holding the first payload of
    the input blocks, -/
theorem out5_eq (x0 : Vec Ideal S2000x128 .f32) (x1 : Vec Ideal S2000x1 .f32) (x2 : Vec Ideal S128x128 .f32)
    (x3 : Vec Ideal S1x128 .f32) (x4 : Vec Ideal S2000x128 .f32) :
    out3_5 (F := Ideal) x0 x1 x2 x3 x4 = k3_pay1 (F := Ideal) x0 x1 x2 x3 := by
  unfold out3_5
  rw [View.canon_unit_zero hz]
  simp only [View.ld_unit_zero (S := S2000x128) hz, View.ld_unit_zero (S := S2000x1) hz,
    View.ld_unit_zero (S := S128x128) hz, View.ld_unit_zero (S := S1x128) hz]

/-- and window 6's the second. -/
theorem out6_eq (x0 : Vec Ideal S2000x128 .f32) (x1 : Vec Ideal S2000x1 .f32) (x2 : Vec Ideal S128x128 .f32)
    (x3 : Vec Ideal S1x128 .f32) (x4 : Vec Ideal S2000x128 .f32) :
    out3_6 (F := Ideal) x0 x1 x2 x3 x4 = k3_pay2 (F := Ideal) x0 x1 x2 x3 x4 := by
  unfold out3_6
  rw [View.canon_unit_zero hz]
  simp only [View.ld_unit_zero (S := S2000x128) hz, View.ld_unit_zero (S := S2000x1) hz,
    View.ld_unit_zero (S := S128x128) hz, View.ld_unit_zero (S := S1x128) hz]

/-! ## What each point writes back -/

section Flushed
variable (V : (c : Dev nD) → (b : Ref sig .tc) → Buf (Elt Ideal) ((c : Thread nD τ).loc b))

/-- Point t writes back, into the layer's output array, block t of the whole-array layer. -/
theorem flushed5 (c : Dev nD) (t : Fin cfg3.N) :
    (dat3 (F := Ideal) V c).flushed 5 t = ((cfg3.win 5).blk t).view.read (Elt Ideal)
      (Cert.Spec.dense (V c main_v44) (V c main_v16) (V c main_v46) (V c main_v49)) := by
  show (cfg3.win 5).cut (grid3.coords t) ((dat3 (F := Ideal) V c).after 5 t) = _
  rw [after3_5, out5_eq, k3_pay1_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read5 _ t p q ⟨2000 * t.val + p.val, hi⟩ rfl]
  exact tile_dense (V c main_v44) (V c main_v16) (V c main_v46) (V c main_v49)
    (iblk3 V c 0 t) (iblk3 V c 1 t) (iblk3 V c 2 t) (iblk3 V c 3 t) p q ⟨2000 * t.val + p.val, hi⟩
    (fun r => read0 (V c main_v44) t p r ⟨2000 * t.val + p.val, hi⟩ rfl)
    (read1 (V c main_v16) t p ⟨2000 * t.val + p.val, hi⟩ rfl)
    (fun r => read2 (V c main_v46) t r q)
    (read3 (V c main_v49) t q)

/-- Point t writes back, into the running-maximum array, block t of the entrywise maximum of the maximum so far and
    the whole-array layer. -/
theorem flushed6 (c : Dev nD) (t : Fin cfg3.N) :
    (dat3 (F := Ideal) V c).flushed 6 t = ((cfg3.win 6).blk t).view.read (Elt Ideal)
      (Cert.Spec.rmax (V c main_v33_1) (Cert.Spec.dense (V c main_v44) (V c main_v16) (V c main_v46) (V c main_v49))) := by
  show (cfg3.win 6).cut (grid3.coords t) ((dat3 (F := Ideal) V c).after 6 t) = _
  rw [after3_6, out6_eq, k3_pay2_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read6 _ t p q ⟨2000 * t.val + p.val, hi⟩ rfl]
  exact tile_rmax (V c main_v33_1) (V c main_v44) (V c main_v16) (V c main_v46) (V c main_v49)
    (iblk3 V c 0 t) (iblk3 V c 1 t) (iblk3 V c 2 t) (iblk3 V c 3 t) (iblk3 V c 4 t) p q ⟨2000 * t.val + p.val, hi⟩
    (fun r => read0 (V c main_v44) t p r ⟨2000 * t.val + p.val, hi⟩ rfl)
    (read1 (V c main_v16) t p ⟨2000 * t.val + p.val, hi⟩ rfl)
    (fun r => read2 (V c main_v46) t r q)
    (read3 (V c main_v49) t q)
    (read4 (V c main_v33_1) t p q ⟨2000 * t.val + p.val, hi⟩ rfl)

end Flushed

/-! ## The blocks cover the arrays -/

/-- An index of the array is in point t's block of window 5 iff each coordinate is in the block's range. -/
theorem mem_blk5 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v50_0).slice (win3_5.rect t)).set ↔ _
  rw [View.set_slice_whole, Rect.mem_set_unit]
  exact Iff.rfl

theorem mem_blk6 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v50_1).slice (win3_6.rect t)).set ↔ _
  rw [View.set_slice_whole, Rect.mem_set_unit]
  exact Iff.rfl

/-- Row r of the array is in point r / 2000's block. -/
theorem cover5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, -, -, e0, e1, -⟩ := idx t
  refine ⟨t, flush3_5 t, ?_⟩
  rw [mem_blk5]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 128 ≤ (i 1).val ∧ (i 1).val < win3_5.index t (1 : Fin 2) * 128 + 128
    rw [e1]; omega

theorem cover6 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 25) N_3.symm⟩, rfl⟩
  obtain ⟨-, -, -, -, -, -, -, -, -, -, -, -, e0, e1⟩ := idx t
  refine ⟨t, flush3_6 t, ?_⟩
  rw [mem_blk6]
  intro a
  match a with
  | ⟨0, _⟩ =>
    show win3_6.index t (0 : Fin 2) * 2000 ≤ (i 0).val ∧ (i 0).val < win3_6.index t (0 : Fin 2) * 2000 + 2000
    rw [e0, ht]; omega
  | ⟨1, _⟩ =>
    show win3_6.index t (1 : Fin 2) * 128 ≤ (i 1).val ∧ (i 1).val < win3_6.index t (1 : Fin 2) * 128 + 128
    rw [e1]; omega

end L3

/-! ## The two arrays after the region -/

section Final
variable (V : (c : Dev nD) → (b : Ref sig .tc) → Buf (Elt Ideal) ((c : Thread nD τ).loc b))

/-- The layer's output array after the region: the whole-array layer of the region's input arrays. -/
theorem dense3_x (c : Dev nD) :
    (dat3 (F := Ideal) V c).arrAt 5 cfg3.N
      = Cert.Spec.dense (V c main_v44) (V c main_v16) (V c main_v46) (V c main_v49) :=
  (dat3 (F := Ideal) V c).arrAt_eq_of_cover 5 _ (fun t _ => L3.flushed5 V c t) L3.cover5

/-- The running-maximum array after the region: the entrywise maximum of the maximum so far and the layer. -/
theorem dense3_r (c : Dev nD) :
    (dat3 (F := Ideal) V c).arrAt 6 cfg3.N
      = Cert.Spec.rmax (V c main_v33_1) (Cert.Spec.dense (V c main_v44) (V c main_v16) (V c main_v46) (V c main_v49)) :=
  (dat3 (F := Ideal) V c).arrAt_eq_of_cover 6 _ (fun t _ => L3.flushed6 V c t) L3.cover6

end Final

end Cert.KValue

end
-- ==== Proof.Dense5.lean ====
/-
  The third dense layer's two output arrays, whole.

  The layer runs over 25 grid points; point t works on rows 2000·t … 2000·t + 1999 of the node arrays (the weights
  and the bias whole at every point), stores the layer's output for those rows into one window and the entrywise
  maximum of the running maximum so far and that output into the other. Row p of point t's tile is row 2000·t + p of
  the arrays, so each block written back is the block of one whole-array function, and the 25 blocks cover the
  50000 rows (row r is in point r / 2000's block).
-/
import proofs.«179694_j65103114272768_1_alg».proof.Proof.DenseTile
import proofs.«179694_j65103114272768_1_alg».proof.Proof.Gen.KernelIdeal.Frame
import Idealize.ShloMosaic.Lib.Pipeline.Value

noncomputable section

namespace Cert.KValue

open Idealize.ShloMosaic Idealize.ShloMosaic.TcCoe Idealize.ShloMosaic.ValueIdx Cert.KernelIdeal Cert.KernelIdeal.Gen
open Idealize.ShloMosaic.Pipeline (Dat)

namespace L5

/-! ## Where each window's block sits -/

/-- The block index of every window at every grid point: the row windows move with the point, the weights and the
    bias stay. -/
theorem idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The grid has 25 points. -/
theorem lt25 (t : Fin cfg5.N) : t.val < 25 := lt_of_lt_of_eq t.isLt N_5

/-- Window 0's block at point t, read off an array: entry (p, q) is the array's entry (2000·t + p, q). -/
theorem read0 (A : FVec Ideal S50000x128 .f32) (t : Fin cfg5.N) (p : Fin 2000) (q : Fin 128) (i : Fin 50000)
    (hi : i.val = 2000 * t.val + p.val) :
    ((cfg5.win 0).blk t).view.read (Elt Ideal) A (ix2 p q) = A (ix2 i q) := by
  obtain ⟨e0, e1, -⟩ := idx t
  rw [View.read_apply]
  show A _ = A _
  refine congrArg A (funext fun a => Fin.ext ?_)
  match a with
  | ⟨0, _⟩ => show win5_0.index t (0 : Fin 2) * 2000 + 1 * p.val = i.val; rw [e0, hi]; omega
  | ⟨1, _⟩ => show win5_0.index t (1 : Fin 2) * 128 + 1 * q.val = q.val; rw [e1]; omega

/-- Window 1's block (the scale column): entry (p, 0) is the column's entry (2000·t + p, 0). -/
theorem read1 (K : FVec Ideal S50000x1 .f32) (t : Fin cfg5.N) (p : Fin 2000) (i : Fin 50000)
    (hi : i.val = 2000 * t.val + p.val) :
    ((cfg5.win 1).blk t).view.read (Elt Ideal) K (ix2 p 0) = K (ix2 i 0) := by
  obtain ⟨-, -, e0, e1, -⟩ := idx t
  rw [View.read_apply]
  show K _ = K _
  refine congrArg K (funext fun a => Fin.ext ?_)
  match a with
  | ⟨0, _⟩ => show win5_1.index t (0 : Fin 2) * 2000 + 1 * p.val = i.val; rw [e0, hi]; omega
  | ⟨1, _⟩ => show win5_1.index t (1 : Fin 2) * 1 + 1 * 0 = 0; rw [e1]

/-- Window 2's block is the whole weight matrix at every point. -/
theorem read2 (W : FVec Ideal S128x128 .f32) (t : Fin cfg5.N) (r q : Fin 128) :
    ((cfg5.win 2).blk t).view.read (Elt Ideal) W (ix2 r q) = W (ix2 r q) := by
  obtain ⟨-, -, -, -, e0, e1, -⟩ := idx t
  rw [View.read_apply]
  show W _ = W _
  refine congrArg W (funext fun a => Fin.ext ?_)
  match a with
  | ⟨0, _⟩ => show win5_2.index t (0 : Fin 2) * 128 + 1 * r.val = r.val; rw [e0]; omega
  | ⟨1, _⟩ => show win5_2.index t (1 : Fin 2) * 128 + 1 * q.val = q.val; rw [e1]; omega

/-- Window 3's block is the whole bias row at every point. -/
theorem read3 (B : FVec Ideal S1x128 .f32) (t : Fin cfg5.N) (q : Fin 128) :
    ((cfg5.win 3).blk t).view.read (Elt Ideal) B (ix2 0 q) = B (ix2 0 q) := by
  obtain ⟨-, -, -, -, -, -, e0, e1, -⟩ := idx t
  rw [View.read_apply]
  show B _ = B _
  refine congrArg B (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- Window 4's block (the running maximum so far): entry (p, q) is the array's entry (2000·t + p, q). -/
theorem read4 (R : FVec Ideal S50000x128 .f32) (t : Fin cfg5.N) (p : Fin 2000) (q : Fin 128) (i : Fin 50000)
    (hi : i.val = 2000 * t.val + p.val) :
    ((cfg5.win 4).blk t).view.read (Elt Ideal) R (ix2 p q) = R (ix2 i q) := by
  obtain ⟨-, -, -, -, -, -, -, -, e0, e1, -⟩ := idx t
  rw [View.read_apply]
  show R _ = R _
  refine congrArg R (funext fun a => Fin.ext ?_)
  match a with
  | ⟨0, _⟩ => show win5_4.index t (0 : Fin 2) * 2000 + 1 * p.val = i.val; rw [e0, hi]; omega
  | ⟨1, _⟩ => show win5_4.index t (1 : Fin 2) * 128 + 1 * q.val = q.val; rw [e1]; omega

/-- Output window 5's block at point t of a whole-array function G: entry (p, q) is G (2000·t + p, q). -/
theorem read5 (G : FVec Ideal S50000x128 .f32) (t : Fin cfg5.N) (p : Fin 2000) (q : Fin 128) (i : Fin 50000)
    (hi : i.val = 2000 * t.val + p.val) :
    ((cfg5.win 5).blk t).view.read (Elt Ideal) G (ix2 p q) = G (ix2 i q) := by
  obtain ⟨-, -, -, -, -, -, -, -, -, -, e0, e1, -⟩ := idx t
  rw [View.read_apply]
  show G _ = G _
  refine congrArg G (funext fun a => Fin.ext ?_)
  match a with
  | ⟨0, _⟩ => show win5_5.index t (0 : Fin 2) * 2000 + 1 * p.val = i.val; rw [e0, hi]; omega
  | ⟨1, _⟩ => show win5_5.index t (1 : Fin 2) * 128 + 1 * q.val = q.val; rw [e1]; omega

/-- Output window 6's block likewise. -/
theorem read6 (G : FVec Ideal S50000x128 .f32) (t : Fin cfg5.N) (p : Fin 2000) (q : Fin 128) (i : Fin 50000)
    (hi : i.val = 2000 * t.val + p.val) :
    ((cfg5.win 6).blk t).view.read (Elt Ideal) G (ix2 p q) = G (ix2 i q) := by
  obtain ⟨-, -, -, -, -, -, -, -, -, -, -, -, e0, e1⟩ := idx t
  rw [View.read_apply]
  show G _ = G _
  refine congrArg G (funext fun a => Fin.ext ?_)
  match a with
  | ⟨0, _⟩ => show win5_6.index t (0 : Fin 2) * 2000 + 1 * p.val = i.val; rw [e0, hi]; omega
  | ⟨1, _⟩ => show win5_6.index t (1 : Fin 2) * 128 + 1 * q.val = q.val; rw [e1]; omega

/-! ## What the body leaves in the two output buffers -/

theorem hz : (![0, 0] : Fin 2 → Nat) = fun _ => 0 := funext fun a => by fin_cases a <;> rfl

/-- The body loads its whole buffers and stores whole buffers: window 5's buffer ends holding the first payload of
    the input blocks, -/
theorem out5_eq (x0 : Vec Ideal S2000x128 .f32) (x1 : Vec Ideal S2000x1 .f32) (x2 : Vec Ideal S128x128 .f32)
    (x3 : Vec Ideal S1x128 .f32) (x4 : Vec Ideal S2000x128 .f32) :
    out5_5 (F := Ideal) x0 x1 x2 x3 x4 = k5_pay1 (F := Ideal) x0 x1 x2 x3 := by
  unfold out5_5
  rw [View.canon_unit_zero hz]
  simp only [View.ld_unit_zero (S := S2000x128) hz, View.ld_unit_zero (S := S2000x1) hz,
    View.ld_unit_zero (S := S128x128) hz, View.ld_unit_zero (S := S1x128) hz]

/-- and window 6's the second. -/
theorem out6_eq (x0 : Vec Ideal S2000x128 .f32) (x1 : Vec Ideal S2000x1 .f32) (x2 : Vec Ideal S128x128 .f32)
    (x3 : Vec Ideal S1x128 .f32) (x4 : Vec Ideal S2000x128 .f32) :
    out5_6 (F := Ideal) x0 x1 x2 x3 x4 = k5_pay2 (F := Ideal) x0 x1 x2 x3 x4 := by
  unfold out5_6
  rw [View.canon_unit_zero hz]
  simp only [View.ld_unit_zero (S := S2000x128) hz, View.ld_unit_zero (S := S2000x1) hz,
    View.ld_unit_zero (S := S128x128) hz, View.ld_unit_zero (S := S1x128) hz]

/-! ## What each point writes back -/

section Flushed
variable (V : (c : Dev nD) → (b : Ref sig .tc) → Buf (Elt Ideal) ((c : Thread nD τ).loc b))

/-- Point t writes back, into the layer's output array, block t of the whole-array layer. -/
theorem flushed5 (c : Dev nD) (t : Fin cfg5.N) :
    (dat5 (F := Ideal) V c).flushed 5 t = ((cfg5.win 5).blk t).view.read (Elt Ideal)
      (Cert.Spec.dense (V c main_v61) (V c main_v16) (V c main_v63) (V c main_v66)) := by
  show (cfg5.win 5).cut (grid5.coords t) ((dat5 (F := Ideal) V c).after 5 t) = _
  rw [after5_5, out5_eq, k5_pay1_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read5 _ t p q ⟨2000 * t.val + p.val, hi⟩ rfl]
  exact tile_dense (V c main_v61) (V c main_v16) (V c main_v63) (V c main_v66)
    (iblk5 V c 0 t) (iblk5 V c 1 t) (iblk5 V c 2 t) (iblk5 V c 3 t) p q ⟨2000 * t.val + p.val, hi⟩
    (fun r => read0 (V c main_v61) t p r ⟨2000 * t.val + p.val, hi⟩ rfl)
    (read1 (V c main_v16) t p ⟨2000 * t.val + p.val, hi⟩ rfl)
    (fun r => read2 (V c main_v63) t r q)
    (read3 (V c main_v66) t q)

/-- Point t writes back, into the running-maximum array, block t of the entrywise maximum of the maximum so far and
    the whole-array layer. -/
theorem flushed6 (c : Dev nD) (t : Fin cfg5.N) :
    (dat5 (F := Ideal) V c).flushed 6 t = ((cfg5.win 6).blk t).view.read (Elt Ideal)
      (Cert.Spec.rmax (V c main_v50_1) (Cert.Spec.dense (V c main_v61) (V c main_v16) (V c main_v63) (V c main_v66))) := by
  show (cfg5.win 6).cut (grid5.coords t) ((dat5 (F := Ideal) V c).after 6 t) = _
  rw [after5_6, out6_eq, k5_pay2_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read6 _ t p q ⟨2000 * t.val + p.val, hi⟩ rfl]
  exact tile_rmax (V c main_v50_1) (V c main_v61) (V c main_v16) (V c main_v63) (V c main_v66)
    (iblk5 V c 0 t) (iblk5 V c 1 t) (iblk5 V c 2 t) (iblk5 V c 3 t) (iblk5 V c 4 t) p q ⟨2000 * t.val + p.val, hi⟩
    (fun r => read0 (V c main_v61) t p r ⟨2000 * t.val + p.val, hi⟩ rfl)
    (read1 (V c main_v16) t p ⟨2000 * t.val + p.val, hi⟩ rfl)
    (fun r => read2 (V c main_v63) t r q)
    (read3 (V c main_v66) t q)
    (read4 (V c main_v50_1) t p q ⟨2000 * t.val + p.val, hi⟩ rfl)

end Flushed

/-! ## The blocks cover the arrays -/

/-- An index of the array is in point t's block of window 5 iff each coordinate is in the block's range. -/
theorem mem_blk5 (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v67_0).slice (win5_5.rect t)).set ↔ _
  rw [View.set_slice_whole, Rect.mem_set_unit]
  exact Iff.rfl

theorem mem_blk6 (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v67_1).slice (win5_6.rect t)).set ↔ _
  rw [View.set_slice_whole, Rect.mem_set_unit]
  exact Iff.rfl

/-- Row r of the array is in point r / 2000's block. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨-, -, -, -, -, -, -, -, -, -, e0, e1, -⟩ := idx t
  refine ⟨t, flush5_5 t, ?_⟩
  rw [mem_blk5]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 128 ≤ (i 1).val ∧ (i 1).val < win5_5.index t (1 : Fin 2) * 128 + 128
    rw [e1]; omega

theorem cover6 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ : ∃ t : Fin cfg5.N, t.val = (i 0).val / 2000 :=
    ⟨⟨(i 0).val / 2000, lt_of_lt_of_eq (by omega : (i 0).val / 2000 < 25) N_5.symm⟩, rfl⟩
  obtain ⟨-, -, -, -, -, -, -, -, -, -, -, -, e0, e1⟩ := idx t
  refine ⟨t, flush5_6 t, ?_⟩
  rw [mem_blk6]
  intro a
  match a with
  | ⟨0, _⟩ =>
    show win5_6.index t (0 : Fin 2) * 2000 ≤ (i 0).val ∧ (i 0).val < win5_6.index t (0 : Fin 2) * 2000 + 2000
    rw [e0, ht]; omega
  | ⟨1, _⟩ =>
    show win5_6.index t (1 : Fin 2) * 128 ≤ (i 1).val ∧ (i 1).val < win5_6.index t (1 : Fin 2) * 128 + 128
    rw [e1]; omega

end L5

/-! ## The two arrays after the region -/

section Final
variable (V : (c : Dev nD) → (b : Ref sig .tc) → Buf (Elt Ideal) ((c : Thread nD τ).loc b))

/-- The layer's output array after the region: the whole-array layer of the region's input arrays. -/
theorem dense5_x (c : Dev nD) :
    (dat5 (F := Ideal) V c).arrAt 5 cfg5.N
      = Cert.Spec.dense (V c main_v61) (V c main_v16) (V c main_v63) (V c main_v66) :=
  (dat5 (F := Ideal) V c).arrAt_eq_of_cover 5 _ (fun t _ => L5.flushed5 V c t) L5.cover5

/-- The running-maximum array after the region: the entrywise maximum of the maximum so far and the layer. -/
theorem dense5_r (c : Dev nD) :
    (dat5 (F := Ideal) V c).arrAt 6 cfg5.N
      = Cert.Spec.rmax (V c main_v50_1) (Cert.Spec.dense (V c main_v61) (V c main_v16) (V c main_v63) (V c main_v66)) :=
  (dat5 (F := Ideal) V c).arrAt_eq_of_cover 6 _ (fun t _ => L5.flushed6 V c t) L5.cover6

end Final

end Cert.KValue

end
-- ==== Proof.Dense7.lean ====
/-
  The fourth dense layer's two output arrays, whole.

  The layer runs over 25 grid points; point t works on rows 2000·t … 2000·t + 1999 of the node arrays (the weights
  and the bias whole at every point), stores the layer's output for those rows into one window and the entrywise
  maximum of the running maximum so far and that output into the other. Row p of point t's tile is row 2000·t + p of
  the arrays, so each block written back is the block of one whole-array function, and the 25 blocks cover the
  50000 rows (row r is in point r / 2000's block).
-/
import proofs.«179694_j65103114272768_1_alg».proof.Proof.DenseTile
import proofs.«179694_j65103114272768_1_alg».proof.Proof.Gen.KernelIdeal.Frame
import Idealize.ShloMosaic.Lib.Pipeline.Value

noncomputable section

namespace Cert.KValue

open Idealize.ShloMosaic Idealize.ShloMosaic.TcCoe Idealize.ShloMosaic.ValueIdx Cert.KernelIdeal Cert.KernelIdeal.Gen
open Idealize.ShloMosaic.Pipeline (Dat)

namespace L7

/-! ## Where each window's block sits -/

/-- The block index of every window at every grid point: the row windows move with the point, the weights and the
    bias stay. -/
theorem idx : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- The grid has 25 points. -/
theorem lt25 (t : Fin cfg7.N) : t.val < 25 := lt_of_lt_of_eq t.isLt N_7

/-- Window 0's block at point t, read off an array: entry (p, q) is the array's entry (2000·t + p, q). -/
theorem read0 (A : FVec Ideal S50000x128 .f32) (t : Fin cfg7.N) (p : Fin 2000) (q : Fin 128) (i : Fin 50000)
    (hi : i.val = 2000 * t.val + p.val) :
    ((cfg7.win 0).blk t).view.read (Elt Ideal) A (ix2 p q) = A (ix2 i q) := by
  obtain ⟨e0, e1, -⟩ := idx t
  rw [View.read_apply]
  show A _ = A _
  refine congrArg A (funext fun a => Fin.ext ?_)
  match a with
  | ⟨0, _⟩ => show win7_0.index t (0 : Fin 2) * 2000 + 1 * p.val = i.val; rw [e0, hi]; omega
  | ⟨1, _⟩ => show win7_0.index t (1 : Fin 2) * 128 + 1 * q.val = q.val; rw [e1]; omega

/-- Window 1's block (the scale column): entry (p, 0) is the column's entry (2000·t + p, 0). -/
theorem read1 (K : FVec Ideal S50000x1 .f32) (t : Fin cfg7.N) (p : Fin 2000) (i : Fin 50000)
    (hi : i.val = 2000 * t.val + p.val) :
    ((cfg7.win 1).blk t).view.read (Elt Ideal) K (ix2 p 0) = K (ix2 i 0) := by
  obtain ⟨-, -, e0, e1, -⟩ := idx t
  rw [View.read_apply]
  show K _ = K _
  refine congrArg K (funext fun a => Fin.ext ?_)
  match a with
  | ⟨0, _⟩ => show win7_1.index t (0 : Fin 2) * 2000 + 1 * p.val = i.val; rw [e0, hi]; omega
  | ⟨1, _⟩ => show win7_1.index t (1 : Fin 2) * 1 + 1 * 0 = 0; rw [e1]

/-- Window 2's block is the whole weight matrix at every point. -/
theorem read2 (W : FVec Ideal S128x128 .f32) (t : Fin cfg7.N) (r q : Fin 128) :
    ((cfg7.win 2).blk t).view.read (Elt Ideal) W (ix2 r q) = W (ix2 r q) := by
  obtain ⟨-, -, -, -, e0, e1, -⟩ := idx t
  rw [View.read_apply]
  show W _ = W _
  refine congrArg W (funext fun a => Fin.ext ?_)
  match a with
  | ⟨0, _⟩ => show win7_2.index t (0 : Fin 2) * 128 + 1 * r.val = r.val; rw [e0]; omega
  | ⟨1, _⟩ => show win7_2.index t (1 : Fin 2) * 128 + 1 * q.val = q.val; rw [e1]; omega

/-- Window 3's block is the whole bias row at every point. -/
theorem read3 (B : FVec Ideal S1x128 .f32) (t : Fin cfg7.N) (q : Fin 128) :
    ((cfg7.win 3).blk t).view.read (Elt Ideal) B (ix2 0 q) = B (ix2 0 q) := by
  obtain ⟨-, -, -, -, -, -, e0, e1, -⟩ := idx t
  rw [View.read_apply]
  show B _ = B _
  refine congrArg B (funext fun a => Fin.ext ?_)
  match a with
  | ⟨0, _⟩ => show win7_3.index t (0 : Fin 2) * 1 + 1 * 0 = 0; rw [e0]
  | ⟨1, _⟩ => show win7_3.index t (1 : Fin 2) * 128 + 1 * q.val = q.val; rw [e1]; omega

/-- Window 4's block (the running maximum so far): entry (p, q) is the array's entry (2000·t + p, q). -/
theorem read4 (R : FVec Ideal S50000x128 .f32) (t : Fin cfg7.N) (p : Fin 2000) (q : Fin 128) (i : Fin 50000)
    (hi : i.val = 2000 * t.val + p.val) :
    ((cfg7.win 4).blk t).view.read (Elt Ideal) R (ix2 p q) = R (ix2 i q) := by
  obtain ⟨-, -, -, -, -, -, -, -, e0, e1, -⟩ := idx t
  rw [View.read_apply]
  show R _ = R _
  refine congrArg R (funext fun a => Fin.ext ?_)
  match a with
  | ⟨0, _⟩ => show win7_4.index t (0 : Fin 2) * 2000 + 1 * p.val = i.val; rw [e0, hi]; omega
  | ⟨1, _⟩ => show win7_4.index t (1 : Fin 2) * 128 + 1 * q.val = q.val; rw [e1]; omega

/-- Output window 5's block at point t of a whole-array function G: entry (p, q) is G (2000·t + p, q). -/
theorem read5 (G : FVec Ideal S50000x128 .f32) (t : Fin cfg7.N) (p : Fin 2000) (q : Fin 128) (i : Fin 50000)
    (hi : i.val = 2000 * t.val + p.val) :
    ((cfg7.win 5).blk t).view.read (Elt Ideal) G (ix2 p q) = G (ix2 i q) := by
  obtain ⟨-, -, -, -, -, -, -, -, -, -, e0, e1, -⟩ := idx t
  rw [View.read_apply]
  show G _ = G _
  refine congrArg G (funext fun a => Fin.ext ?_)
  match a with
  | ⟨0, _⟩ => show win7_5.index t (0 : Fin 2) * 2000 + 1 * p.val = i.val; rw [e0, hi]; omega
  | ⟨1, _⟩ => show win7_5.index t (1 : Fin 2) * 128 + 1 * q.val = q.val; rw [e1]; omega

/-- Output window 6's block likewise. -/
theorem read6 (G : FVec Ideal S50000x128 .f32) (t : Fin cfg7.N) (p : Fin 2000) (q : Fin 128) (i : Fin 50000)
    (hi : i.val = 2000 * t.val + p.val) :
    ((cfg7.win 6).blk t).view.read (Elt Ideal) G (ix2 p q) = G (ix2 i q) := by
  obtain ⟨-, -, -, -, -, -, -, -, -, -, -, -, e0, e1⟩ := idx t
  rw [View.read_apply]
  show G _ = G _
  refine congrArg G (funext fun a => Fin.ext ?_)
  match a with
  | ⟨0, _⟩ => show win7_6.index t (0 : Fin 2) * 2000 + 1 * p.val = i.val; rw [e0, hi]; omega
  | ⟨1, _⟩ => show win7_6.index t (1 : Fin 2) * 128 + 1 * q.val = q.val; rw [e1]; omega

/-! ## What the body leaves in the two output buffers -/

theorem hz : (![0, 0] : Fin 2 → Nat) = fun _ => 0 := funext fun a => by fin_cases a <;> rfl

/-- The body loads its whole buffers and stores whole buffers: window 5's buffer ends holding the first payload of
    the input blocks, -/
theorem out5_eq (x0 : Vec Ideal S2000x128 .f32) (x1 : Vec Ideal S2000x1 .f32) (x2 : Vec Ideal S128x128 .f32)
    (x3 : Vec Ideal S1x128 .f32) (x4 : Vec Ideal S2000x128 .f32) :
    out7_5 (F := Ideal) x0 x1 x2 x3 x4 = k7_pay1 (F := Ideal) x0 x1 x2 x3 := by
  unfold out7_5
  rw [View.canon_unit_zero hz]
  simp only [View.ld_unit_zero (S := S2000x128) hz, View.ld_unit_zero (S := S2000x1) hz,
    View.ld_unit_zero (S := S128x128) hz, View.ld_unit_zero (S := S1x128) hz]

/-- and window 6's the second. -/
theorem out6_eq (x0 : Vec Ideal S2000x128 .f32) (x1 : Vec Ideal S2000x1 .f32) (x2 : Vec Ideal S128x128 .f32)
    (x3 : Vec Ideal S1x128 .f32) (x4 : Vec Ideal S2000x128 .f32) :
    out7_6 (F := Ideal) x0 x1 x2 x3 x4 = k7_pay2 (F := Ideal) x0 x1 x2 x3 x4 := by
  unfold out7_6
  rw [View.canon_unit_zero hz]
  simp only [View.ld_unit_zero (S := S2000x128) hz, View.ld_unit_zero (S := S2000x1) hz,
    View.ld_unit_zero (S := S128x128) hz, View.ld_unit_zero (S := S1x128) hz]

/-! ## What each point writes back -/

section Flushed
variable (V : (c : Dev nD) → (b : Ref sig .tc) → Buf (Elt Ideal) ((c : Thread nD τ).loc b))

/-- Point t writes back, into the layer's output array, block t of the whole-array layer. -/
theorem flushed5 (c : Dev nD) (t : Fin cfg7.N) :
    (dat7 (F := Ideal) V c).flushed 5 t = ((cfg7.win 5).blk t).view.read (Elt Ideal)
      (Cert.Spec.dense (V c main_v78) (V c main_v16) (V c main_v80) (V c main_v83)) := by
  show (cfg7.win 5).cut (grid7.coords t) ((dat7 (F := Ideal) V c).after 5 t) = _
  rw [after7_5, out5_eq, k7_pay1_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read5 _ t p q ⟨2000 * t.val + p.val, hi⟩ rfl]
  exact tile_dense (V c main_v78) (V c main_v16) (V c main_v80) (V c main_v83)
    (iblk7 V c 0 t) (iblk7 V c 1 t) (iblk7 V c 2 t) (iblk7 V c 3 t) p q ⟨2000 * t.val + p.val, hi⟩
    (fun r => read0 (V c main_v78) t p r ⟨2000 * t.val + p.val, hi⟩ rfl)
    (read1 (V c main_v16) t p ⟨2000 * t.val + p.val, hi⟩ rfl)
    (fun r => read2 (V c main_v80) t r q)
    (read3 (V c main_v83) t q)

/-- Point t writes back, into the running-maximum array, block t of the entrywise maximum of the maximum so far and
    the whole-array layer. -/
theorem flushed6 (c : Dev nD) (t : Fin cfg7.N) :
    (dat7 (F := Ideal) V c).flushed 6 t = ((cfg7.win 6).blk t).view.read (Elt Ideal)
      (Cert.Spec.rmax (V c main_v67_1) (Cert.Spec.dense (V c main_v78) (V c main_v16) (V c main_v80) (V c main_v83))) := by
  show (cfg7.win 6).cut (grid7.coords t) ((dat7 (F := Ideal) V c).after 6 t) = _
  rw [after7_6, out6_eq, k7_pay2_eq]
  funext j
  obtain ⟨p, q, rfl⟩ : ∃ (p : Fin 2000) (q : Fin 128), j = ix2 p q := ⟨j 0, j 1, eq_ix2 j⟩
  have ht := lt25 t
  have hp := p.isLt
  have hi : 2000 * t.val + p.val < 50000 := by omega
  rw [read6 _ t p q ⟨2000 * t.val + p.val, hi⟩ rfl]
  exact tile_rmax (V c main_v67_1) (V c main_v78) (V c main_v16) (V c main_v80) (V c main_v83)
    (iblk7 V c 0 t) (iblk7 V c 1 t) (iblk7 V c 2 t) (iblk7 V c 3 t) (iblk7 V c 4 t) p q ⟨2000 * t.val + p.val, hi⟩
    (fun r => read0 (V c main_v78) t p r ⟨2000 * t.val + p.val, hi⟩ rfl)
    (read1 (V c main_v16) t p ⟨2000 * t.val + p.val, hi⟩ rfl)
    (fun r => read2 (V c main_v80) t r q)
    (read3 (V c main_v83) t q)
    (read4 (V c main_v67_1) t p q ⟨2000 * t.val + p.val, hi⟩ rfl)

end Flushed

/-! ## The blocks cover the arrays -/

/-- An index of the array is in point t's block of window 5 iff each coordinate is in the block's range. -/
theorem mem_blk5 (t : Fin cfg7.N) (i : S50000x128.Idx) :
    i ∈ ((cfg7.win 5).blk t).view.set ↔ ∀ a : Fin 2, win7_5.index t a * S2000x128.size a ≤ (i a).val
      ∧ (i a).val < win7_5.index t a * S2000x128.size a + S2000x128.size a := by
  show i ∈ ((View.whole main_v84_0).slice (win7_5.rect t)).set ↔ _
  rw [View.set_slice_whole, Rect.mem_set_unit]
  exact Iff.rfl

theorem mem_blk6 (t : Fin cfg7.N) (i : S50000x128.Idx) :
    i ∈ ((cfg7.win 6).blk t).view.set ↔ ∀ a : Fin 2, win7_6.index t a * S2000x128.size a ≤ (i a).val
      ∧ (i a).val < win7_6.index t a * S2000x128.size a + S2000x128.size a := by
  show i ∈ ((View.whole main_v84_1).slice (win7_6.rect t)).set ↔ _
  rw [View.set_slice_whole, Rect.mem_set_unit]
  exact Iff.rfl

/-- Row r of the array is in point r / 2000's block. -/
theorem cover5 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ : ∃ t : Fin cfg7.N, t.val = (i 0).val / 2000 :=
    ⟨⟨(i 0).val / 2000, lt_of_lt_of_eq (by omega : (i 0).val / 2000 < 25) N_7.symm⟩, rfl⟩
  obtain ⟨-, -, -, -, -, -, -, -, -, -, e0, e1, -⟩ := idx t
  refine ⟨t, flush7_5 t, ?_⟩
  rw [mem_blk5]
  intro a
  match a with
  | ⟨0, _⟩ =>
    show win7_5.index t (0 : Fin 2) * 2000 ≤ (i 0).val ∧ (i 0).val < win7_5.index t (0 : Fin 2) * 2000 + 2000
    rw [e0, ht]; omega
  | ⟨1, _⟩ =>
    show win7_5.index t (1 : Fin 2) * 128 ≤ (i 1).val ∧ (i 1).val < win7_5.index t (1 : Fin 2) * 128 + 128
    rw [e1]; omega

theorem cover6 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  obtain ⟨t, ht⟩ : ∃ t : Fin cfg7.N, t.val = (i 0).val / 2000 :=
    ⟨⟨(i 0).val / 2000, lt_of_lt_of_eq (by omega : (i 0).val / 2000 < 25) N_7.symm⟩, rfl⟩
  obtain ⟨-, -, -, -, -, -, -, -, -, -, -, -, e0, e1⟩ := idx t
  refine ⟨t, flush7_6 t, ?_⟩
  rw [mem_blk6]
  intro a
  match a with
  | ⟨0, _⟩ =>
    show win7_6.index t (0 : Fin 2) * 2000 ≤ (i 0).val ∧ (i 0).val < win7_6.index t (0 : Fin 2) * 2000 + 2000
    rw [e0, ht]; omega
  | ⟨1, _⟩ =>
    show win7_6.index t (1 : Fin 2) * 128 ≤ (i 1).val ∧ (i 1).val < win7_6.index t (1 : Fin 2) * 128 + 128
    rw [e1]; omega

end L7

/-! ## The two arrays after the region -/

section Final
variable (V : (c : Dev nD) → (b : Ref sig .tc) → Buf (Elt Ideal) ((c : Thread nD τ).loc b))

/-- The layer's output array after the region: the whole-array layer of the region's input arrays. -/
theorem dense7_x (c : Dev nD) :
    (dat7 (F := Ideal) V c).arrAt 5 cfg7.N
      = Cert.Spec.dense (V c main_v78) (V c main_v16) (V c main_v80) (V c main_v83) :=
  (dat7 (F := Ideal) V c).arrAt_eq_of_cover 5 _ (fun t _ => L7.flushed5 V c t) L7.cover5

/-- The running-maximum array after the region: the entrywise maximum of the maximum so far and the layer. -/
theorem dense7_r (c : Dev nD) :
    (dat7 (F := Ideal) V c).arrAt 6 cfg7.N
      = Cert.Spec.rmax (V c main_v67_1) (Cert.Spec.dense (V c main_v78) (V c main_v16) (V c main_v80) (V c main_v83)) :=
  (dat7 (F := Ideal) V c).arrAt_eq_of_cover 6 _ (fun t _ => L7.flushed6 V c t) L7.cover6

end Final

end Cert.KValue

end
-- ==== Proof.HostK0.lean ====
import proofs.«179694_j65103114272768_1_alg».proof.Proof.Gen.KernelIdeal.Launch
import proofs.«179694_j65103114272768_1_alg».proof.Proof.Spec
import Idealize.ShloMosaic.Lib.StableHlo.Run

noncomputable section

namespace Cert.KValue

open Idealize.ShloMosaic Idealize.ShloMosaic.TcCoe Cert.KernelIdeal Cert.KernelIdeal.Gen

variable (W : Valuation τ sig (Elt Ideal))

/-! Stretch 0 of the kernel program's host operations, read over a variable valuation `W` of the buffers:
    the two degree normalisations it writes (laid as columns), as functions of the edge arrays it reads,
    and that the program's arguments keep their contents. -/

/-- The source-side normalisation: per node, (max(number of edges whose source is the node, 1))^(-1/2), as a column. -/
theorem host0_ks :
    StableHlo.after (hostOps0 (F := Ideal)) W (Proc.devRef .tc main_v11)
      = shapeCast S50000x1 (Cert.Spec.nrm (W (Proc.devRef .tc main_arg3))) shapeCasts_S50000_S50000x1 := by
  after_results_simp
  rfl

/-- The destination-side normalisation: the same count over the edges' destinations, as a column. -/
theorem host0_kd :
    StableHlo.after (hostOps0 (F := Ideal)) W (Proc.devRef .tc main_v16)
      = shapeCast S50000x1 (Cert.Spec.nrm (W (Proc.devRef .tc main_arg4))) shapeCasts_S50000_S50000x1 := by
  after_results_simp
  rfl

/-- The stretch does not write `main_arg0`. -/
theorem host0_keep_arg0 :
    StableHlo.after (hostOps0 (F := Ideal)) W (Proc.devRef .tc main_arg0) = W (Proc.devRef .tc main_arg0) := by
  after_results_simp

/-- The stretch does not write `main_arg1`. -/
theorem host0_keep_arg1 :
    StableHlo.after (hostOps0 (F := Ideal)) W (Proc.devRef .tc main_arg1) = W (Proc.devRef .tc main_arg1) := by
  after_results_simp

/-- The stretch does not write `main_arg2`. -/
theorem host0_keep_arg2 :
    StableHlo.after (hostOps0 (F := Ideal)) W (Proc.devRef .tc main_arg2) = W (Proc.devRef .tc main_arg2) := by
  after_results_simp

/-- The stretch does not write `main_arg3`. -/
theorem host0_keep_arg3 :
    StableHlo.after (hostOps0 (F := Ideal)) W (Proc.devRef .tc main_arg3) = W (Proc.devRef .tc main_arg3) := by
  after_results_simp

/-- The stretch does not write `main_arg4`. -/
theorem host0_keep_arg4 :
    StableHlo.after (hostOps0 (F := Ideal)) W (Proc.devRef .tc main_arg4) = W (Proc.devRef .tc main_arg4) := by
  after_results_simp

/-! The same keep lemmas under the buffers' full names. -/
theorem host0_keep_main_arg0 :
    StableHlo.after (hostOps0 (F := Ideal)) W (Proc.devRef .tc main_arg0) = W (Proc.devRef .tc main_arg0) :=
  host0_keep_arg0 W
theorem host0_keep_main_arg1 :
    StableHlo.after (hostOps0 (F := Ideal)) W (Proc.devRef .tc main_arg1) = W (Proc.devRef .tc main_arg1) :=
  host0_keep_arg1 W
theorem host0_keep_main_arg2 :
    StableHlo.after (hostOps0 (F := Ideal)) W (Proc.devRef .tc main_arg2) = W (Proc.devRef .tc main_arg2) :=
  host0_keep_arg2 W
theorem host0_keep_main_arg3 :
    StableHlo.after (hostOps0 (F := Ideal)) W (Proc.devRef .tc main_arg3) = W (Proc.devRef .tc main_arg3) :=
  host0_keep_arg3 W
theorem host0_keep_main_arg4 :
    StableHlo.after (hostOps0 (F := Ideal)) W (Proc.devRef .tc main_arg4) = W (Proc.devRef .tc main_arg4) :=
  host0_keep_arg4 W

end Cert.KValue

end
-- ==== Proof.HostK1.lean ====
import proofs.«179694_j65103114272768_1_alg».proof.Proof.Gen.KernelIdeal.Launch
import proofs.«179694_j65103114272768_1_alg».proof.Proof.Spec
import Idealize.ShloMosaic.Lib.StableHlo.Run

noncomputable section

namespace Cert.KValue

open Idealize.ShloMosaic Idealize.ShloMosaic.TcCoe Cert.KernelIdeal Cert.KernelIdeal.Gen

variable (W : Valuation τ sig (Elt Ideal))

/-! Stretch 1 of the kernel program's host operations, read over a variable valuation `W` of the buffers:
    what each buffer the stretch writes holds afterwards, as a function of what the buffers it reads held before,
    and that the buffers it does not write keep their contents. -/

/-- The aggregation: row v is the sum over the edges into v of the source node's row. -/
theorem host1_agg :
    StableHlo.after (hostOps1 (F := Ideal)) W (Proc.devRef .tc main_v27)
      = Cert.Spec.aggr (W (Proc.devRef .tc main_v17)) (W (Proc.devRef .tc main_arg3)) (W (Proc.devRef .tc main_arg4)) := by
  after_results_simp
  rfl

/-- Layer 0's weight matrix, cut out of the stacked weights. -/
theorem host1_w :
    StableHlo.after (hostOps1 (F := Ideal)) W (Proc.devRef .tc main_v29) = Cert.Spec.wmat0 (W (Proc.devRef .tc main_arg1)) := by
  after_results_simp
  rfl

/-- Layer 0's bias, cut out of the stacked biases and laid as a row. -/
theorem host1_b :
    StableHlo.after (hostOps1 (F := Ideal)) W (Proc.devRef .tc main_v32)
      = shapeCast S1x128 (Cert.Spec.bvec0 (W (Proc.devRef .tc main_arg2))) shapeCasts_S128_S1x128 := by
  after_results_simp
  rfl

/-- A plain copy: `main_v33_1` holds afterwards what `main_arg0` held before. -/
theorem host1_copy :
    StableHlo.after (hostOps1 (F := Ideal)) W (Proc.devRef .tc main_v33_1) = W (Proc.devRef .tc main_arg0) := by
  after_results_simp
  rfl

/-- The stretch does not write `main_v11`. -/
theorem host1_keep_v11 :
    StableHlo.after (hostOps1 (F := Ideal)) W (Proc.devRef .tc main_v11) = W (Proc.devRef .tc main_v11) := by
  after_results_simp

/-- The stretch does not write `main_v16`. -/
theorem host1_keep_v16 :
    StableHlo.after (hostOps1 (F := Ideal)) W (Proc.devRef .tc main_v16) = W (Proc.devRef .tc main_v16) := by
  after_results_simp

/-- The stretch does not write `main_arg0`. -/
theorem host1_keep_arg0 :
    StableHlo.after (hostOps1 (F := Ideal)) W (Proc.devRef .tc main_arg0) = W (Proc.devRef .tc main_arg0) := by
  after_results_simp

/-- The stretch does not write `main_arg1`. -/
theorem host1_keep_arg1 :
    StableHlo.after (hostOps1 (F := Ideal)) W (Proc.devRef .tc main_arg1) = W (Proc.devRef .tc main_arg1) := by
  after_results_simp

/-- The stretch does not write `main_arg2`. -/
theorem host1_keep_arg2 :
    StableHlo.after (hostOps1 (F := Ideal)) W (Proc.devRef .tc main_arg2) = W (Proc.devRef .tc main_arg2) := by
  after_results_simp

/-- The stretch does not write `main_arg3`. -/
theorem host1_keep_arg3 :
    StableHlo.after (hostOps1 (F := Ideal)) W (Proc.devRef .tc main_arg3) = W (Proc.devRef .tc main_arg3) := by
  after_results_simp

/-- The stretch does not write `main_arg4`. -/
theorem host1_keep_arg4 :
    StableHlo.after (hostOps1 (F := Ideal)) W (Proc.devRef .tc main_arg4) = W (Proc.devRef .tc main_arg4) := by
  after_results_simp

/-! The same keep lemmas under the buffers' full names. -/
theorem host1_keep_main_v11 :
    StableHlo.after (hostOps1 (F := Ideal)) W (Proc.devRef .tc main_v11) = W (Proc.devRef .tc main_v11) :=
  host1_keep_v11 W
theorem host1_keep_main_v16 :
    StableHlo.after (hostOps1 (F := Ideal)) W (Proc.devRef .tc main_v16) = W (Proc.devRef .tc main_v16) :=
  host1_keep_v16 W
theorem host1_keep_main_arg0 :
    StableHlo.after (hostOps1 (F := Ideal)) W (Proc.devRef .tc main_arg0) = W (Proc.devRef .tc main_arg0) :=
  host1_keep_arg0 W
theorem host1_keep_main_arg1 :
    StableHlo.after (hostOps1 (F := Ideal)) W (Proc.devRef .tc main_arg1) = W (Proc.devRef .tc main_arg1) :=
  host1_keep_arg1 W
theorem host1_keep_main_arg2 :
    StableHlo.after (hostOps1 (F := Ideal)) W (Proc.devRef .tc main_arg2) = W (Proc.devRef .tc main_arg2) :=
  host1_keep_arg2 W
theorem host1_keep_main_arg3 :
    StableHlo.after (hostOps1 (F := Ideal)) W (Proc.devRef .tc main_arg3) = W (Proc.devRef .tc main_arg3) :=
  host1_keep_arg3 W
theorem host1_keep_main_arg4 :
    StableHlo.after (hostOps1 (F := Ideal)) W (Proc.devRef .tc main_arg4) = W (Proc.devRef .tc main_arg4) :=
  host1_keep_arg4 W

end Cert.KValue

end
-- ==== Proof.HostK3.lean ====
import proofs.«179694_j65103114272768_1_alg».proof.Proof.Gen.KernelIdeal.Launch
import proofs.«179694_j65103114272768_1_alg».proof.Proof.Spec
import Idealize.ShloMosaic.Lib.StableHlo.Run

noncomputable section

namespace Cert.KValue

open Idealize.ShloMosaic Idealize.ShloMosaic.TcCoe Cert.KernelIdeal Cert.KernelIdeal.Gen

variable (W : Valuation τ sig (Elt Ideal))

/-! Stretch 3 of the kernel program's host operations, read over a variable valuation `W` of the buffers:
    what each buffer the stretch writes holds afterwards, as a function of what the buffers it reads held before,
    and that the buffers it does not write keep their contents. -/

/-- The aggregation: row v is the sum over the edges into v of the source node's row. -/
theorem host3_agg :
    StableHlo.after (hostOps3 (F := Ideal)) W (Proc.devRef .tc main_v44)
      = Cert.Spec.aggr (W (Proc.devRef .tc main_v34)) (W (Proc.devRef .tc main_arg3)) (W (Proc.devRef .tc main_arg4)) := by
  after_results_simp
  rfl

/-- Layer 1's weight matrix, cut out of the stacked weights. -/
theorem host3_w :
    StableHlo.after (hostOps3 (F := Ideal)) W (Proc.devRef .tc main_v46) = Cert.Spec.wmat1 (W (Proc.devRef .tc main_arg1)) := by
  after_results_simp
  rfl

/-- Layer 1's bias, cut out of the stacked biases and laid as a row. -/
theorem host3_b :
    StableHlo.after (hostOps3 (F := Ideal)) W (Proc.devRef .tc main_v49)
      = shapeCast S1x128 (Cert.Spec.bvec1 (W (Proc.devRef .tc main_arg2))) shapeCasts_S128_S1x128 := by
  after_results_simp
  rfl

/-- A plain copy: `main_v50_1` holds afterwards what `main_v33_1` held before. -/
theorem host3_copy :
    StableHlo.after (hostOps3 (F := Ideal)) W (Proc.devRef .tc main_v50_1) = W (Proc.devRef .tc main_v33_1) := by
  after_results_simp
  rfl

/-- The stretch does not write `main_v11`. -/
theorem host3_keep_v11 :
    StableHlo.after (hostOps3 (F := Ideal)) W (Proc.devRef .tc main_v11) = W (Proc.devRef .tc main_v11) := by
  after_results_simp

/-- The stretch does not write `main_v16`. -/
theorem host3_keep_v16 :
    StableHlo.after (hostOps3 (F := Ideal)) W (Proc.devRef .tc main_v16) = W (Proc.devRef .tc main_v16) := by
  after_results_simp

/-- The stretch does not write `main_v33_1`. -/
theorem host3_keep_v33_1 :
    StableHlo.after (hostOps3 (F := Ideal)) W (Proc.devRef .tc main_v33_1) = W (Proc.devRef .tc main_v33_1) := by
  after_results_simp

/-- The stretch does not write `main_arg0`. -/
theorem host3_keep_arg0 :
    StableHlo.after (hostOps3 (F := Ideal)) W (Proc.devRef .tc main_arg0) = W (Proc.devRef .tc main_arg0) := by
  after_results_simp

/-- The stretch does not write `main_arg1`. -/
theorem host3_keep_arg1 :
    StableHlo.after (hostOps3 (F := Ideal)) W (Proc.devRef .tc main_arg1) = W (Proc.devRef .tc main_arg1) := by
  after_results_simp

/-- The stretch does not write `main_arg2`. -/
theorem host3_keep_arg2 :
    StableHlo.after (hostOps3 (F := Ideal)) W (Proc.devRef .tc main_arg2) = W (Proc.devRef .tc main_arg2) := by
  after_results_simp

/-- The stretch does not write `main_arg3`. -/
theorem host3_keep_arg3 :
    StableHlo.after (hostOps3 (F := Ideal)) W (Proc.devRef .tc main_arg3) = W (Proc.devRef .tc main_arg3) := by
  after_results_simp

/-- The stretch does not write `main_arg4`. -/
theorem host3_keep_arg4 :
    StableHlo.after (hostOps3 (F := Ideal)) W (Proc.devRef .tc main_arg4) = W (Proc.devRef .tc main_arg4) := by
  after_results_simp

/-! The same keep lemmas under the buffers' full names. -/
theorem host3_keep_main_v11 :
    StableHlo.after (hostOps3 (F := Ideal)) W (Proc.devRef .tc main_v11) = W (Proc.devRef .tc main_v11) :=
  host3_keep_v11 W
theorem host3_keep_main_v16 :
    StableHlo.after (hostOps3 (F := Ideal)) W (Proc.devRef .tc main_v16) = W (Proc.devRef .tc main_v16) :=
  host3_keep_v16 W
theorem host3_keep_main_v33_1 :
    StableHlo.after (hostOps3 (F := Ideal)) W (Proc.devRef .tc main_v33_1) = W (Proc.devRef .tc main_v33_1) :=
  host3_keep_v33_1 W
theorem host3_keep_main_arg0 :
    StableHlo.after (hostOps3 (F := Ideal)) W (Proc.devRef .tc main_arg0) = W (Proc.devRef .tc main_arg0) :=
  host3_keep_arg0 W
theorem host3_keep_main_arg1 :
    StableHlo.after (hostOps3 (F := Ideal)) W (Proc.devRef .tc main_arg1) = W (Proc.devRef .tc main_arg1) :=
  host3_keep_arg1 W
theorem host3_keep_main_arg2 :
    StableHlo.after (hostOps3 (F := Ideal)) W (Proc.devRef .tc main_arg2) = W (Proc.devRef .tc main_arg2) :=
  host3_keep_arg2 W
theorem host3_keep_main_arg3 :
    StableHlo.after (hostOps3 (F := Ideal)) W (Proc.devRef .tc main_arg3) = W (Proc.devRef .tc main_arg3) :=
  host3_keep_arg3 W
theorem host3_keep_main_arg4 :
    StableHlo.after (hostOps3 (F := Ideal)) W (Proc.devRef .tc main_arg4) = W (Proc.devRef .tc main_arg4) :=
  host3_keep_arg4 W

end Cert.KValue

end
-- ==== Proof.HostK5.lean ====
import proofs.«179694_j65103114272768_1_alg».proof.Proof.Gen.KernelIdeal.Launch
import proofs.«179694_j65103114272768_1_alg».proof.Proof.Spec
import Idealize.ShloMosaic.Lib.StableHlo.Run

noncomputable section

namespace Cert.KValue

open Idealize.ShloMosaic Idealize.ShloMosaic.TcCoe Cert.KernelIdeal Cert.KernelIdeal.Gen

variable (W : Valuation τ sig (Elt Ideal))

/-! Stretch 5 of the kernel program's host operations, read over a variable valuation `W` of the buffers:
    what each buffer the stretch writes holds afterwards, as a function of what the buffers it reads held before,
    and that the buffers it does not write keep their contents. -/

/-- The aggregation: row v is the sum over the edges into v of the source node's row. -/
theorem host5_agg :
    StableHlo.after (hostOps5 (F := Ideal)) W (Proc.devRef .tc main_v61)
      = Cert.Spec.aggr (W (Proc.devRef .tc main_v51)) (W (Proc.devRef .tc main_arg3)) (W (Proc.devRef .tc main_arg4)) := by
  after_results_simp
  rfl

/-- Layer 2's weight matrix, cut out of the stacked weights. -/
theorem host5_w :
    StableHlo.after (hostOps5 (F := Ideal)) W (Proc.devRef .tc main_v63) = Cert.Spec.wmat2 (W (Proc.devRef .tc main_arg1)) := by
  after_results_simp
  rfl

/-- Layer 2's bias, cut out of the stacked biases and laid as a row. -/
theorem host5_b :
    StableHlo.after (hostOps5 (F := Ideal)) W (Proc.devRef .tc main_v66)
      = shapeCast S1x128 (Cert.Spec.bvec2 (W (Proc.devRef .tc main_arg2))) shapeCasts_S128_S1x128 := by
  after_results_simp
  rfl

/-- A plain copy: `main_v67_1` holds afterwards what `main_v50_1` held before. -/
theorem host5_copy :
    StableHlo.after (hostOps5 (F := Ideal)) W (Proc.devRef .tc main_v67_1) = W (Proc.devRef .tc main_v50_1) := by
  after_results_simp
  rfl

/-- The stretch does not write `main_v11`. -/
theorem host5_keep_v11 :
    StableHlo.after (hostOps5 (F := Ideal)) W (Proc.devRef .tc main_v11) = W (Proc.devRef .tc main_v11) := by
  after_results_simp

/-- The stretch does not write `main_v16`. -/
theorem host5_keep_v16 :
    StableHlo.after (hostOps5 (F := Ideal)) W (Proc.devRef .tc main_v16) = W (Proc.devRef .tc main_v16) := by
  after_results_simp

/-- The stretch does not write `main_v50_1`. -/
theorem host5_keep_v50_1 :
    StableHlo.after (hostOps5 (F := Ideal)) W (Proc.devRef .tc main_v50_1) = W (Proc.devRef .tc main_v50_1) := by
  after_results_simp

/-- The stretch does not write `main_arg0`. -/
theorem host5_keep_arg0 :
    StableHlo.after (hostOps5 (F := Ideal)) W (Proc.devRef .tc main_arg0) = W (Proc.devRef .tc main_arg0) := by
  after_results_simp

/-- The stretch does not write `main_arg1`. -/
theorem host5_keep_arg1 :
    StableHlo.after (hostOps5 (F := Ideal)) W (Proc.devRef .tc main_arg1) = W (Proc.devRef .tc main_arg1) := by
  after_results_simp

/-- The stretch does not write `main_arg2`. -/
theorem host5_keep_arg2 :
    StableHlo.after (hostOps5 (F := Ideal)) W (Proc.devRef .tc main_arg2) = W (Proc.devRef .tc main_arg2) := by
  after_results_simp

/-- The stretch does not write `main_arg3`. -/
theorem host5_keep_arg3 :
    StableHlo.after (hostOps5 (F := Ideal)) W (Proc.devRef .tc main_arg3) = W (Proc.devRef .tc main_arg3) := by
  after_results_simp

/-- The stretch does not write `main_arg4`. -/
theorem host5_keep_arg4 :
    StableHlo.after (hostOps5 (F := Ideal)) W (Proc.devRef .tc main_arg4) = W (Proc.devRef .tc main_arg4) := by
  after_results_simp

/-! The same keep lemmas under the buffers' full names. -/
theorem host5_keep_main_v11 :
    StableHlo.after (hostOps5 (F := Ideal)) W (Proc.devRef .tc main_v11) = W (Proc.devRef .tc main_v11) :=
  host5_keep_v11 W
theorem host5_keep_main_v16 :
    StableHlo.after (hostOps5 (F := Ideal)) W (Proc.devRef .tc main_v16) = W (Proc.devRef .tc main_v16) :=
  host5_keep_v16 W
theorem host5_keep_main_v50_1 :
    StableHlo.after (hostOps5 (F := Ideal)) W (Proc.devRef .tc main_v50_1) = W (Proc.devRef .tc main_v50_1) :=
  host5_keep_v50_1 W
theorem host5_keep_main_arg0 :
    StableHlo.after (hostOps5 (F := Ideal)) W (Proc.devRef .tc main_arg0) = W (Proc.devRef .tc main_arg0) :=
  host5_keep_arg0 W
theorem host5_keep_main_arg1 :
    StableHlo.after (hostOps5 (F := Ideal)) W (Proc.devRef .tc main_arg1) = W (Proc.devRef .tc main_arg1) :=
  host5_keep_arg1 W
theorem host5_keep_main_arg2 :
    StableHlo.after (hostOps5 (F := Ideal)) W (Proc.devRef .tc main_arg2) = W (Proc.devRef .tc main_arg2) :=
  host5_keep_arg2 W
theorem host5_keep_main_arg3 :
    StableHlo.after (hostOps5 (F := Ideal)) W (Proc.devRef .tc main_arg3) = W (Proc.devRef .tc main_arg3) :=
  host5_keep_arg3 W
theorem host5_keep_main_arg4 :
    StableHlo.after (hostOps5 (F := Ideal)) W (Proc.devRef .tc main_arg4) = W (Proc.devRef .tc main_arg4) :=
  host5_keep_arg4 W

end Cert.KValue

end
-- ==== Proof.HostK7.lean ====
import proofs.«179694_j65103114272768_1_alg».proof.Proof.Gen.KernelIdeal.Launch
import proofs.«179694_j65103114272768_1_alg».proof.Proof.Spec
import Idealize.ShloMosaic.Lib.StableHlo.Run

noncomputable section

namespace Cert.KValue

open Idealize.ShloMosaic Idealize.ShloMosaic.TcCoe Cert.KernelIdeal Cert.KernelIdeal.Gen

variable (W : Valuation τ sig (Elt Ideal))

/-! Stretch 7 of the kernel program's host operations, read over a variable valuation `W` of the buffers:
    what each buffer the stretch writes holds afterwards, as a function of what the buffers it reads held before,
    and that the buffers it does not write keep their contents. -/

/-- The aggregation: row v is the sum over the edges into v of the source node's row. -/
theorem host7_agg :
    StableHlo.after (hostOps7 (F := Ideal)) W (Proc.devRef .tc main_v78)
      = Cert.Spec.aggr (W (Proc.devRef .tc main_v68)) (W (Proc.devRef .tc main_arg3)) (W (Proc.devRef .tc main_arg4)) := by
  after_results_simp
  rfl

/-- Layer 3's weight matrix, cut out of the stacked weights. -/
theorem host7_w :
    StableHlo.after (hostOps7 (F := Ideal)) W (Proc.devRef .tc main_v80) = Cert.Spec.wmat3 (W (Proc.devRef .tc main_arg1)) := by
  after_results_simp
  rfl

/-- Layer 3's bias, cut out of the stacked biases and laid as a row. -/
theorem host7_b :
    StableHlo.after (hostOps7 (F := Ideal)) W (Proc.devRef .tc main_v83)
      = shapeCast S1x128 (Cert.Spec.bvec3 (W (Proc.devRef .tc main_arg2))) shapeCasts_S128_S1x128 := by
  after_results_simp
  rfl

/-- A plain copy: `main_v84_1` holds afterwards what `main_v67_1` held before. -/
theorem host7_copy :
    StableHlo.after (hostOps7 (F := Ideal)) W (Proc.devRef .tc main_v84_1) = W (Proc.devRef .tc main_v67_1) := by
  after_results_simp
  rfl

/-- The stretch does not write `main_v11`. -/
theorem host7_keep_v11 :
    StableHlo.after (hostOps7 (F := Ideal)) W (Proc.devRef .tc main_v11) = W (Proc.devRef .tc main_v11) := by
  after_results_simp

/-- The stretch does not write `main_v16`. -/
theorem host7_keep_v16 :
    StableHlo.after (hostOps7 (F := Ideal)) W (Proc.devRef .tc main_v16) = W (Proc.devRef .tc main_v16) := by
  after_results_simp

/-- The stretch does not write `main_v67_1`. -/
theorem host7_keep_v67_1 :
    StableHlo.after (hostOps7 (F := Ideal)) W (Proc.devRef .tc main_v67_1) = W (Proc.devRef .tc main_v67_1) := by
  after_results_simp

/-- The stretch does not write `main_arg0`. -/
theorem host7_keep_arg0 :
    StableHlo.after (hostOps7 (F := Ideal)) W (Proc.devRef .tc main_arg0) = W (Proc.devRef .tc main_arg0) := by
  after_results_simp

/-- The stretch does not write `main_arg1`. -/
theorem host7_keep_arg1 :
    StableHlo.after (hostOps7 (F := Ideal)) W (Proc.devRef .tc main_arg1) = W (Proc.devRef .tc main_arg1) := by
  after_results_simp

/-- The stretch does not write `main_arg2`. -/
theorem host7_keep_arg2 :
    StableHlo.after (hostOps7 (F := Ideal)) W (Proc.devRef .tc main_arg2) = W (Proc.devRef .tc main_arg2) := by
  after_results_simp

/-- The stretch does not write `main_arg3`. -/
theorem host7_keep_arg3 :
    StableHlo.after (hostOps7 (F := Ideal)) W (Proc.devRef .tc main_arg3) = W (Proc.devRef .tc main_arg3) := by
  after_results_simp

/-- The stretch does not write `main_arg4`. -/
theorem host7_keep_arg4 :
    StableHlo.after (hostOps7 (F := Ideal)) W (Proc.devRef .tc main_arg4) = W (Proc.devRef .tc main_arg4) := by
  after_results_simp

/-! The same keep lemmas under the buffers' full names. -/
theorem host7_keep_main_v11 :
    StableHlo.after (hostOps7 (F := Ideal)) W (Proc.devRef .tc main_v11) = W (Proc.devRef .tc main_v11) :=
  host7_keep_v11 W
theorem host7_keep_main_v16 :
    StableHlo.after (hostOps7 (F := Ideal)) W (Proc.devRef .tc main_v16) = W (Proc.devRef .tc main_v16) :=
  host7_keep_v16 W
theorem host7_keep_main_v67_1 :
    StableHlo.after (hostOps7 (F := Ideal)) W (Proc.devRef .tc main_v67_1) = W (Proc.devRef .tc main_v67_1) :=
  host7_keep_v67_1 W
theorem host7_keep_main_arg0 :
    StableHlo.after (hostOps7 (F := Ideal)) W (Proc.devRef .tc main_arg0) = W (Proc.devRef .tc main_arg0) :=
  host7_keep_arg0 W
theorem host7_keep_main_arg1 :
    StableHlo.after (hostOps7 (F := Ideal)) W (Proc.devRef .tc main_arg1) = W (Proc.devRef .tc main_arg1) :=
  host7_keep_arg1 W
theorem host7_keep_main_arg2 :
    StableHlo.after (hostOps7 (F := Ideal)) W (Proc.devRef .tc main_arg2) = W (Proc.devRef .tc main_arg2) :=
  host7_keep_arg2 W
theorem host7_keep_main_arg3 :
    StableHlo.after (hostOps7 (F := Ideal)) W (Proc.devRef .tc main_arg3) = W (Proc.devRef .tc main_arg3) :=
  host7_keep_arg3 W
theorem host7_keep_main_arg4 :
    StableHlo.after (hostOps7 (F := Ideal)) W (Proc.devRef .tc main_arg4) = W (Proc.devRef .tc main_arg4) :=
  host7_keep_arg4 W

end Cert.KValue

end
-- ==== Proof.Walk.lean ====
/-
  What the idealized kernel program's result buffer holds when its run ends, as one function of the launch arguments.

  The program's run is a fold through thirteen boundaries: a stretch of host operations or a region at a time. At every
  boundary each buffer still to be read holds a known function of the five argument arrays x, W, b, src, dst:
  * after the first stretch, the two degree normalisations ks = nrm src and kd = nrm dst, each laid as a column;
  * after a scaling region, scale y ks for the current features y (x, then each layer's output);
  * after a gather / scatter-add stretch, aggr (scale y ks) src dst, beside the layer's weight matrix and its bias laid as
    a row;
  * after a dense region, the layer's output dense (aggr (scale y ks) src dst) kd W_l b_l, and the entrywise maximum of x
    and the layers' outputs so far.
  A buffer no operation of a stretch writes, or that a region only reads or does not touch, holds at the next boundary
  what it held before. After the last region the result buffer holds the maximum of x and the four layers' outputs, which
  is the maximum from -inf along a stacking axis of the five arrays (`Spec.jk_eq_max`).
-/
import proofs.«179694_j65103114272768_1_alg».proof.Proof.Gen.KernelIdeal.Frame
import proofs.«179694_j65103114272768_1_alg».proof.Proof.Spec
import proofs.«179694_j65103114272768_1_alg».proof.Proof.SpecLaws
import proofs.«179694_j65103114272768_1_alg».proof.Proof.Scale0
import proofs.«179694_j65103114272768_1_alg».proof.Proof.Scale2
import proofs.«179694_j65103114272768_1_alg».proof.Proof.Scale4
import proofs.«179694_j65103114272768_1_alg».proof.Proof.Scale6
import proofs.«179694_j65103114272768_1_alg».proof.Proof.Dense1
import proofs.«179694_j65103114272768_1_alg».proof.Proof.Dense3
import proofs.«179694_j65103114272768_1_alg».proof.Proof.Dense5
import proofs.«179694_j65103114272768_1_alg».proof.Proof.Dense7
import proofs.«179694_j65103114272768_1_alg».proof.Proof.HostK0
import proofs.«179694_j65103114272768_1_alg».proof.Proof.HostK1
import proofs.«179694_j65103114272768_1_alg».proof.Proof.HostK3
import proofs.«179694_j65103114272768_1_alg».proof.Proof.HostK5
import proofs.«179694_j65103114272768_1_alg».proof.Proof.HostK7

noncomputable section

namespace Cert.KValue

open Idealize.ShloMosaic Idealize.ShloMosaic.TcCoe Idealize.SL.Sem Cert.KernelIdeal Cert.KernelIdeal.Gen

/-! ## Equal inputs give equal outputs -/

theorem scale_congr {x x' : Spec.Nodes} {k k' : Spec.Col} (hx : x = x') (hk : k = k') : Spec.scale x k = Spec.scale x' k' := by
  rw [hx, hk]
theorem aggr_congr {h h' : Spec.Nodes} {s s' d d' : Spec.Edges} (hh : h = h') (hs : s = s') (hd : d = d') :
    Spec.aggr h s d = Spec.aggr h' s' d' := by rw [hh, hs, hd]
theorem dense_congr {a a' : Spec.Nodes} {k k' : Spec.Col} {W W' : Spec.Mat} {b b' : Spec.Row}
    (ha : a = a') (hk : k = k') (hW : W = W') (hb : b = b') : Spec.dense a k W b = Spec.dense a' k' W' b' := by
  rw [ha, hk, hW, hb]
theorem rmax_congr {r r' x x' : Spec.Nodes} (hr : r = r') (hx : x = x') : Spec.rmax r x = Spec.rmax r' x' := by rw [hr, hx]

/-! ## The launch arguments on one core, the four layers' outputs and the running maxima, as functions of them -/

variable (m : (ℓ : Loc nD τ sig) → Buf (Elt Ideal) ℓ) (ρ : Dev nD → PrngReg) (c : Dev nD)

/-- The node features, the stacked weights and biases, and the edges' source and destination nodes, as launched. -/
abbrev aX : Spec.Nodes := m ((c : Thread nD τ).loc main_arg0)
abbrev aW : Spec.Wts := m ((c : Thread nD τ).loc main_arg1)
abbrev aB : Spec.Biases := m ((c : Thread nD τ).loc main_arg2)
abbrev aS : Spec.Edges := m ((c : Thread nD τ).loc main_arg3)
abbrev aD : Spec.Edges := m ((c : Thread nD τ).loc main_arg4)
/-- Layer l's output. -/
abbrev Y1 : Spec.Nodes := Spec.x1 (aX m c) (aW m c) (aB m c) (aS m c) (aD m c)
abbrev Y2 : Spec.Nodes := Spec.x2 (aX m c) (aW m c) (aB m c) (aS m c) (aD m c)
abbrev Y3 : Spec.Nodes := Spec.x3 (aX m c) (aW m c) (aB m c) (aS m c) (aD m c)
abbrev Y4 : Spec.Nodes := Spec.x4 (aX m c) (aW m c) (aB m c) (aS m c) (aD m c)
/-- The entrywise maximum of the input features and the first l layers' outputs. -/
abbrev R1 : Spec.Nodes := Spec.rmax (aX m c) (Y1 m c)
abbrev R2 : Spec.Nodes := Spec.rmax (R1 m c) (Y2 m c)
abbrev R3 : Spec.Nodes := Spec.rmax (R2 m c) (Y3 m c)
abbrev R4 : Spec.Nodes := Spec.rmax (R3 m c) (Y4 m c)

/-! ## What each live buffer holds at each boundary of the run -/

theorem W0_arg0 : W0 m ρ c (Proc.devRef .tc main_arg0) = aX m c := rfl
theorem W0_arg1 : W0 m ρ c (Proc.devRef .tc main_arg1) = aW m c := rfl
theorem W0_arg2 : W0 m ρ c (Proc.devRef .tc main_arg2) = aB m c := rfl
theorem W0_arg3 : W0 m ρ c (Proc.devRef .tc main_arg3) = aS m c := rfl
theorem W0_arg4 : W0 m ρ c (Proc.devRef .tc main_arg4) = aD m c := rfl

/-! ### boundary 1 -/
theorem W1_arg0 : W1 m ρ c (Proc.devRef .tc main_arg0) = aX m c := (host0_keep_arg0 (W0 m ρ c)).trans (W0_arg0 m ρ c)
theorem W1_arg1 : W1 m ρ c (Proc.devRef .tc main_arg1) = aW m c := (host0_keep_arg1 (W0 m ρ c)).trans (W0_arg1 m ρ c)
theorem W1_arg2 : W1 m ρ c (Proc.devRef .tc main_arg2) = aB m c := (host0_keep_arg2 (W0 m ρ c)).trans (W0_arg2 m ρ c)
theorem W1_arg3 : W1 m ρ c (Proc.devRef .tc main_arg3) = aS m c := (host0_keep_arg3 (W0 m ρ c)).trans (W0_arg3 m ρ c)
theorem W1_arg4 : W1 m ρ c (Proc.devRef .tc main_arg4) = aD m c := (host0_keep_arg4 (W0 m ρ c)).trans (W0_arg4 m ρ c)
theorem W1_v11 : W1 m ρ c (Proc.devRef .tc main_v11) = Spec.col (Spec.nrm (aS m c)) := ((host0_ks (W0 m ρ c)).trans (congrArg (fun s => shapeCast S50000x1 (Spec.nrm s) Gen.shapeCasts_S50000_S50000x1) (W0_arg3 m ρ c))).trans (Spec.col_eq_reshape _ _).symm
theorem W1_v16 : W1 m ρ c (Proc.devRef .tc main_v16) = Spec.col (Spec.nrm (aD m c)) := ((host0_kd (W0 m ρ c)).trans (congrArg (fun s => shapeCast S50000x1 (Spec.nrm s) Gen.shapeCasts_S50000_S50000x1) (W0_arg4 m ρ c))).trans (Spec.col_eq_reshape _ _).symm

/-! ### boundary 2 -/
theorem W2_arg0 : W2 m ρ c (Proc.devRef .tc main_arg0) = aX m c := ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = aW m c := (W2_of_ne m ρ c main_arg1 (by decide)).trans (W1_arg1 m ρ c)
theorem W2_arg2 : W2 m ρ c (Proc.devRef .tc main_arg2) = aB m c := (W2_of_ne m ρ c main_arg2 (by decide)).trans (W1_arg2 m ρ c)
theorem W2_arg3 : W2 m ρ c (Proc.devRef .tc main_arg3) = aS m c := (W2_of_ne m ρ c main_arg3 (by decide)).trans (W1_arg3 m ρ c)
theorem W2_arg4 : W2 m ρ c (Proc.devRef .tc main_arg4) = aD m c := (W2_of_ne m ρ c main_arg4 (by decide)).trans (W1_arg4 m ρ c)
theorem W2_v11 : W2 m ρ c (Proc.devRef .tc main_v11) = Spec.col (Spec.nrm (aS m c)) := ((W2_arr m ρ c 1).trans (((dat0 (V1 m ρ) c).arrAt_in 1 rfl _).trans (A_eq0 (V1 m ρ) c 1))).trans (W1_v11 m ρ c)
theorem W2_v16 : W2 m ρ c (Proc.devRef .tc main_v16) = Spec.col (Spec.nrm (aD m c)) := (W2_of_ne m ρ c main_v16 (by decide)).trans (W1_v16 m ρ c)
theorem W2_v17 : W2 m ρ c (Proc.devRef .tc main_v17) = Spec.scale (aX m c) (Spec.col (Spec.nrm (aS m c))) :=
  (W2_arr m ρ c 2).trans ((scale0 (V1 m ρ) c).trans (scale_congr (W1_arg0 m ρ c) (W1_v11 m ρ c)))

/-! ### boundary 3 -/
theorem W3_arg0 : W3 m ρ c (Proc.devRef .tc main_arg0) = aX m c := (host1_keep_main_arg0 (W2 m ρ c)).trans (W2_arg0 m ρ c)
theorem W3_arg1 : W3 m ρ c (Proc.devRef .tc main_arg1) = aW m c := (host1_keep_main_arg1 (W2 m ρ c)).trans (W2_arg1 m ρ c)
theorem W3_arg2 : W3 m ρ c (Proc.devRef .tc main_arg2) = aB m c := (host1_keep_main_arg2 (W2 m ρ c)).trans (W2_arg2 m ρ c)
theorem W3_arg3 : W3 m ρ c (Proc.devRef .tc main_arg3) = aS m c := (host1_keep_main_arg3 (W2 m ρ c)).trans (W2_arg3 m ρ c)
theorem W3_arg4 : W3 m ρ c (Proc.devRef .tc main_arg4) = aD m c := (host1_keep_main_arg4 (W2 m ρ c)).trans (W2_arg4 m ρ c)
theorem W3_v11 : W3 m ρ c (Proc.devRef .tc main_v11) = Spec.col (Spec.nrm (aS m c)) := (host1_keep_main_v11 (W2 m ρ c)).trans (W2_v11 m ρ c)
theorem W3_v16 : W3 m ρ c (Proc.devRef .tc main_v16) = Spec.col (Spec.nrm (aD m c)) := (host1_keep_main_v16 (W2 m ρ c)).trans (W2_v16 m ρ c)
theorem W3_v27 : W3 m ρ c (Proc.devRef .tc main_v27) = Spec.aggr (Spec.scale (aX m c) (Spec.col (Spec.nrm (aS m c)))) (aS m c) (aD m c) :=
  (host1_agg (W2 m ρ c)).trans (aggr_congr (W2_v17 m ρ c) (W2_arg3 m ρ c) (W2_arg4 m ρ c))
theorem W3_v29 : W3 m ρ c (Proc.devRef .tc main_v29) = Spec.wmat0 (aW m c) := (host1_w (W2 m ρ c)).trans (congrArg Spec.wmat0 (W2_arg1 m ρ c))
theorem W3_v32 : W3 m ρ c (Proc.devRef .tc main_v32) = Spec.brow (Spec.bvec0 (aB m c)) :=
  ((host1_b (W2 m ρ c)).trans (congrArg (fun s => shapeCast S1x128 (Spec.bvec0 s) Gen.shapeCasts_S128_S1x128) (W2_arg2 m ρ c))).trans (Spec.brow_eq_reshape _ _).symm

/-! ### boundary 4 -/
theorem W4_arg1 : W4 m ρ c (Proc.devRef .tc main_arg1) = aW m c := (W4_of_ne m ρ c main_arg1 (by decide)).trans (W3_arg1 m ρ c)
theorem W4_arg2 : W4 m ρ c (Proc.devRef .tc main_arg2) = aB m c := (W4_of_ne m ρ c main_arg2 (by decide)).trans (W3_arg2 m ρ c)
theorem W4_arg3 : W4 m ρ c (Proc.devRef .tc main_arg3) = aS m c := (W4_of_ne m ρ c main_arg3 (by decide)).trans (W3_arg3 m ρ c)
theorem W4_arg4 : W4 m ρ c (Proc.devRef .tc main_arg4) = aD m c := (W4_of_ne m ρ c main_arg4 (by decide)).trans (W3_arg4 m ρ c)
theorem W4_v11 : W4 m ρ c (Proc.devRef .tc main_v11) = Spec.col (Spec.nrm (aS m c)) := (W4_of_ne m ρ c main_v11 (by decide)).trans (W3_v11 m ρ c)
theorem W4_v16 : W4 m ρ c (Proc.devRef .tc main_v16) = Spec.col (Spec.nrm (aD m c)) := ((W4_arr m ρ c 1).trans (((dat1 (V3 m ρ) c).arrAt_in 1 rfl _).trans (A_eq1 (V3 m ρ) c 1))).trans (W3_v16 m ρ c)
theorem W4_v33_0 : W4 m ρ c (Proc.devRef .tc main_v33_0) = Y1 m c :=
  calc W4 m ρ c (Proc.devRef .tc main_v33_0)
    _ = (dat1 (V3 m ρ) c).arrAt 5 cfg1.N := W4_arr m ρ c 5
    _ = Spec.dense (V3 m ρ c main_v27) (V3 m ρ c main_v16) (V3 m ρ c main_v29) (V3 m ρ c main_v32) := dense1_x (V3 m ρ) c
    _ = Spec.dense (Spec.aggr (Spec.scale (aX m c) (Spec.col (Spec.nrm (aS m c)))) (aS m c) (aD m c)) (Spec.col (Spec.nrm (aD m c))) (Spec.wmat0 (aW m c)) (Spec.brow (Spec.bvec0 (aB m c))) := dense_congr (W3_v27 m ρ c) (W3_v16 m ρ c) (W3_v29 m ρ c) (W3_v32 m ρ c)
    _ = Y1 m c := rfl
theorem W4_v33_1 : W4 m ρ c (Proc.devRef .tc main_v33_1) = R1 m c :=
  calc W4 m ρ c (Proc.devRef .tc main_v33_1)
    _ = (dat1 (V3 m ρ) c).arrAt 6 cfg1.N := W4_arr m ρ c 6
    _ = Spec.rmax (V3 m ρ c main_arg0) (Spec.dense (V3 m ρ c main_v27) (V3 m ρ c main_v16) (V3 m ρ c main_v29) (V3 m ρ c main_v32)) := dense1_r (V3 m ρ) c
    _ = Spec.rmax (aX m c) (Spec.dense (Spec.aggr (Spec.scale (aX m c) (Spec.col (Spec.nrm (aS m c)))) (aS m c) (aD m c)) (Spec.col (Spec.nrm (aD m c))) (Spec.wmat0 (aW m c)) (Spec.brow (Spec.bvec0 (aB m c)))) := rmax_congr (W3_arg0 m ρ c) (dense_congr (W3_v27 m ρ c) (W3_v16 m ρ c) (W3_v29 m ρ c) (W3_v32 m ρ c))
    _ = R1 m c := rfl

/-! ### boundary 5 -/
theorem W5_arg1 : W5 m ρ c (Proc.devRef .tc main_arg1) = aW m c := (W5_of_ne m ρ c main_arg1 (by decide)).trans (W4_arg1 m ρ c)
theorem W5_arg2 : W5 m ρ c (Proc.devRef .tc main_arg2) = aB m c := (W5_of_ne m ρ c main_arg2 (by decide)).trans (W4_arg2 m ρ c)
theorem W5_arg3 : W5 m ρ c (Proc.devRef .tc main_arg3) = aS m c := (W5_of_ne m ρ c main_arg3 (by decide)).trans (W4_arg3 m ρ c)
theorem W5_arg4 : W5 m ρ c (Proc.devRef .tc main_arg4) = aD m c := (W5_of_ne m ρ c main_arg4 (by decide)).trans (W4_arg4 m ρ c)
theorem W5_v11 : W5 m ρ c (Proc.devRef .tc main_v11) = Spec.col (Spec.nrm (aS m c)) := ((W5_arr m ρ c 1).trans (((dat2 (V4 m ρ) c).arrAt_in 1 rfl _).trans (A_eq2 (V4 m ρ) c 1))).trans (W4_v11 m ρ c)
theorem W5_v16 : W5 m ρ c (Proc.devRef .tc main_v16) = Spec.col (Spec.nrm (aD m c)) := (W5_of_ne m ρ c main_v16 (by decide)).trans (W4_v16 m ρ c)
theorem W5_v33_1 : W5 m ρ c (Proc.devRef .tc main_v33_1) = R1 m c := (W5_of_ne m ρ c main_v33_1 (by decide)).trans (W4_v33_1 m ρ c)
theorem W5_v34 : W5 m ρ c (Proc.devRef .tc main_v34) = Spec.scale (Y1 m c) (Spec.col (Spec.nrm (aS m c))) :=
  (W5_arr m ρ c 2).trans ((scale2 (V4 m ρ) c).trans (scale_congr (W4_v33_0 m ρ c) (W4_v11 m ρ c)))

/-! ### boundary 6 -/
theorem W6_arg1 : W6 m ρ c (Proc.devRef .tc main_arg1) = aW m c := (host3_keep_main_arg1 (W5 m ρ c)).trans (W5_arg1 m ρ c)
theorem W6_arg2 : W6 m ρ c (Proc.devRef .tc main_arg2) = aB m c := (host3_keep_main_arg2 (W5 m ρ c)).trans (W5_arg2 m ρ c)
theorem W6_arg3 : W6 m ρ c (Proc.devRef .tc main_arg3) = aS m c := (host3_keep_main_arg3 (W5 m ρ c)).trans (W5_arg3 m ρ c)
theorem W6_arg4 : W6 m ρ c (Proc.devRef .tc main_arg4) = aD m c := (host3_keep_main_arg4 (W5 m ρ c)).trans (W5_arg4 m ρ c)
theorem W6_v11 : W6 m ρ c (Proc.devRef .tc main_v11) = Spec.col (Spec.nrm (aS m c)) := (host3_keep_main_v11 (W5 m ρ c)).trans (W5_v11 m ρ c)
theorem W6_v16 : W6 m ρ c (Proc.devRef .tc main_v16) = Spec.col (Spec.nrm (aD m c)) := (host3_keep_main_v16 (W5 m ρ c)).trans (W5_v16 m ρ c)
theorem W6_v33_1 : W6 m ρ c (Proc.devRef .tc main_v33_1) = R1 m c := (host3_keep_main_v33_1 (W5 m ρ c)).trans (W5_v33_1 m ρ c)
theorem W6_v44 : W6 m ρ c (Proc.devRef .tc main_v44) = Spec.aggr (Spec.scale (Y1 m c) (Spec.col (Spec.nrm (aS m c)))) (aS m c) (aD m c) :=
  (host3_agg (W5 m ρ c)).trans (aggr_congr (W5_v34 m ρ c) (W5_arg3 m ρ c) (W5_arg4 m ρ c))
theorem W6_v46 : W6 m ρ c (Proc.devRef .tc main_v46) = Spec.wmat1 (aW m c) := (host3_w (W5 m ρ c)).trans (congrArg Spec.wmat1 (W5_arg1 m ρ c))
theorem W6_v49 : W6 m ρ c (Proc.devRef .tc main_v49) = Spec.brow (Spec.bvec1 (aB m c)) :=
  ((host3_b (W5 m ρ c)).trans (congrArg (fun s => shapeCast S1x128 (Spec.bvec1 s) Gen.shapeCasts_S128_S1x128) (W5_arg2 m ρ c))).trans (Spec.brow_eq_reshape _ _).symm

/-! ### boundary 7 -/
theorem W7_arg1 : W7 m ρ c (Proc.devRef .tc main_arg1) = aW m c := (W7_of_ne m ρ c main_arg1 (by decide)).trans (W6_arg1 m ρ c)
theorem W7_arg2 : W7 m ρ c (Proc.devRef .tc main_arg2) = aB m c := (W7_of_ne m ρ c main_arg2 (by decide)).trans (W6_arg2 m ρ c)
theorem W7_arg3 : W7 m ρ c (Proc.devRef .tc main_arg3) = aS m c := (W7_of_ne m ρ c main_arg3 (by decide)).trans (W6_arg3 m ρ c)
theorem W7_arg4 : W7 m ρ c (Proc.devRef .tc main_arg4) = aD m c := (W7_of_ne m ρ c main_arg4 (by decide)).trans (W6_arg4 m ρ c)
theorem W7_v11 : W7 m ρ c (Proc.devRef .tc main_v11) = Spec.col (Spec.nrm (aS m c)) := (W7_of_ne m ρ c main_v11 (by decide)).trans (W6_v11 m ρ c)
theorem W7_v16 : W7 m ρ c (Proc.devRef .tc main_v16) = Spec.col (Spec.nrm (aD m c)) := ((W7_arr m ρ c 1).trans (((dat3 (V6 m ρ) c).arrAt_in 1 rfl _).trans (A_eq3 (V6 m ρ) c 1))).trans (W6_v16 m ρ c)
theorem W7_v50_0 : W7 m ρ c (Proc.devRef .tc main_v50_0) = Y2 m c :=
  calc W7 m ρ c (Proc.devRef .tc main_v50_0)
    _ = (dat3 (V6 m ρ) c).arrAt 5 cfg3.N := W7_arr m ρ c 5
    _ = Spec.dense (V6 m ρ c main_v44) (V6 m ρ c main_v16) (V6 m ρ c main_v46) (V6 m ρ c main_v49) := dense3_x (V6 m ρ) c
    _ = Spec.dense (Spec.aggr (Spec.scale (Y1 m c) (Spec.col (Spec.nrm (aS m c)))) (aS m c) (aD m c)) (Spec.col (Spec.nrm (aD m c))) (Spec.wmat1 (aW m c)) (Spec.brow (Spec.bvec1 (aB m c))) := dense_congr (W6_v44 m ρ c) (W6_v16 m ρ c) (W6_v46 m ρ c) (W6_v49 m ρ c)
    _ = Y2 m c := rfl
theorem W7_v50_1 : W7 m ρ c (Proc.devRef .tc main_v50_1) = R2 m c :=
  calc W7 m ρ c (Proc.devRef .tc main_v50_1)
    _ = (dat3 (V6 m ρ) c).arrAt 6 cfg3.N := W7_arr m ρ c 6
    _ = Spec.rmax (V6 m ρ c main_v33_1) (Spec.dense (V6 m ρ c main_v44) (V6 m ρ c main_v16) (V6 m ρ c main_v46) (V6 m ρ c main_v49)) := dense3_r (V6 m ρ) c
    _ = Spec.rmax (R1 m c) (Spec.dense (Spec.aggr (Spec.scale (Y1 m c) (Spec.col (Spec.nrm (aS m c)))) (aS m c) (aD m c)) (Spec.col (Spec.nrm (aD m c))) (Spec.wmat1 (aW m c)) (Spec.brow (Spec.bvec1 (aB m c)))) := rmax_congr (W6_v33_1 m ρ c) (dense_congr (W6_v44 m ρ c) (W6_v16 m ρ c) (W6_v46 m ρ c) (W6_v49 m ρ c))
    _ = R2 m c := rfl

/-! ### boundary 8 -/
theorem W8_arg1 : W8 m ρ c (Proc.devRef .tc main_arg1) = aW m c := (W8_of_ne m ρ c main_arg1 (by decide)).trans (W7_arg1 m ρ c)
theorem W8_arg2 : W8 m ρ c (Proc.devRef .tc main_arg2) = aB m c := (W8_of_ne m ρ c main_arg2 (by decide)).trans (W7_arg2 m ρ c)
theorem W8_arg3 : W8 m ρ c (Proc.devRef .tc main_arg3) = aS m c := (W8_of_ne m ρ c main_arg3 (by decide)).trans (W7_arg3 m ρ c)
theorem W8_arg4 : W8 m ρ c (Proc.devRef .tc main_arg4) = aD m c := (W8_of_ne m ρ c main_arg4 (by decide)).trans (W7_arg4 m ρ c)
theorem W8_v11 : W8 m ρ c (Proc.devRef .tc main_v11) = Spec.col (Spec.nrm (aS m c)) := ((W8_arr m ρ c 1).trans (((dat4 (V7 m ρ) c).arrAt_in 1 rfl _).trans (A_eq4 (V7 m ρ) c 1))).trans (W7_v11 m ρ c)
theorem W8_v16 : W8 m ρ c (Proc.devRef .tc main_v16) = Spec.col (Spec.nrm (aD m c)) := (W8_of_ne m ρ c main_v16 (by decide)).trans (W7_v16 m ρ c)
theorem W8_v50_1 : W8 m ρ c (Proc.devRef .tc main_v50_1) = R2 m c := (W8_of_ne m ρ c main_v50_1 (by decide)).trans (W7_v50_1 m ρ c)
theorem W8_v51 : W8 m ρ c (Proc.devRef .tc main_v51) = Spec.scale (Y2 m c) (Spec.col (Spec.nrm (aS m c))) :=
  (W8_arr m ρ c 2).trans ((scale4 (V7 m ρ) c).trans (scale_congr (W7_v50_0 m ρ c) (W7_v11 m ρ c)))

/-! ### boundary 9 -/
theorem W9_arg1 : W9 m ρ c (Proc.devRef .tc main_arg1) = aW m c := (host5_keep_main_arg1 (W8 m ρ c)).trans (W8_arg1 m ρ c)
theorem W9_arg2 : W9 m ρ c (Proc.devRef .tc main_arg2) = aB m c := (host5_keep_main_arg2 (W8 m ρ c)).trans (W8_arg2 m ρ c)
theorem W9_arg3 : W9 m ρ c (Proc.devRef .tc main_arg3) = aS m c := (host5_keep_main_arg3 (W8 m ρ c)).trans (W8_arg3 m ρ c)
theorem W9_arg4 : W9 m ρ c (Proc.devRef .tc main_arg4) = aD m c := (host5_keep_main_arg4 (W8 m ρ c)).trans (W8_arg4 m ρ c)
theorem W9_v11 : W9 m ρ c (Proc.devRef .tc main_v11) = Spec.col (Spec.nrm (aS m c)) := (host5_keep_main_v11 (W8 m ρ c)).trans (W8_v11 m ρ c)
theorem W9_v16 : W9 m ρ c (Proc.devRef .tc main_v16) = Spec.col (Spec.nrm (aD m c)) := (host5_keep_main_v16 (W8 m ρ c)).trans (W8_v16 m ρ c)
theorem W9_v50_1 : W9 m ρ c (Proc.devRef .tc main_v50_1) = R2 m c := (host5_keep_main_v50_1 (W8 m ρ c)).trans (W8_v50_1 m ρ c)
theorem W9_v61 : W9 m ρ c (Proc.devRef .tc main_v61) = Spec.aggr (Spec.scale (Y2 m c) (Spec.col (Spec.nrm (aS m c)))) (aS m c) (aD m c) :=
  (host5_agg (W8 m ρ c)).trans (aggr_congr (W8_v51 m ρ c) (W8_arg3 m ρ c) (W8_arg4 m ρ c))
theorem W9_v63 : W9 m ρ c (Proc.devRef .tc main_v63) = Spec.wmat2 (aW m c) := (host5_w (W8 m ρ c)).trans (congrArg Spec.wmat2 (W8_arg1 m ρ c))
theorem W9_v66 : W9 m ρ c (Proc.devRef .tc main_v66) = Spec.brow (Spec.bvec2 (aB m c)) :=
  ((host5_b (W8 m ρ c)).trans (congrArg (fun s => shapeCast S1x128 (Spec.bvec2 s) Gen.shapeCasts_S128_S1x128) (W8_arg2 m ρ c))).trans (Spec.brow_eq_reshape _ _).symm

/-! ### boundary 10 -/
theorem W10_arg1 : W10 m ρ c (Proc.devRef .tc main_arg1) = aW m c := (W10_of_ne m ρ c main_arg1 (by decide)).trans (W9_arg1 m ρ c)
theorem W10_arg2 : W10 m ρ c (Proc.devRef .tc main_arg2) = aB m c := (W10_of_ne m ρ c main_arg2 (by decide)).trans (W9_arg2 m ρ c)
theorem W10_arg3 : W10 m ρ c (Proc.devRef .tc main_arg3) = aS m c := (W10_of_ne m ρ c main_arg3 (by decide)).trans (W9_arg3 m ρ c)
theorem W10_arg4 : W10 m ρ c (Proc.devRef .tc main_arg4) = aD m c := (W10_of_ne m ρ c main_arg4 (by decide)).trans (W9_arg4 m ρ c)
theorem W10_v11 : W10 m ρ c (Proc.devRef .tc main_v11) = Spec.col (Spec.nrm (aS m c)) := (W10_of_ne m ρ c main_v11 (by decide)).trans (W9_v11 m ρ c)
theorem W10_v16 : W10 m ρ c (Proc.devRef .tc main_v16) = Spec.col (Spec.nrm (aD m c)) := ((W10_arr m ρ c 1).trans (((dat5 (V9 m ρ) c).arrAt_in 1 rfl _).trans (A_eq5 (V9 m ρ) c 1))).trans (W9_v16 m ρ c)
theorem W10_v67_0 : W10 m ρ c (Proc.devRef .tc main_v67_0) = Y3 m c :=
  calc W10 m ρ c (Proc.devRef .tc main_v67_0)
    _ = (dat5 (V9 m ρ) c).arrAt 5 cfg5.N := W10_arr m ρ c 5
    _ = Spec.dense (V9 m ρ c main_v61) (V9 m ρ c main_v16) (V9 m ρ c main_v63) (V9 m ρ c main_v66) := dense5_x (V9 m ρ) c
    _ = Spec.dense (Spec.aggr (Spec.scale (Y2 m c) (Spec.col (Spec.nrm (aS m c)))) (aS m c) (aD m c)) (Spec.col (Spec.nrm (aD m c))) (Spec.wmat2 (aW m c)) (Spec.brow (Spec.bvec2 (aB m c))) := dense_congr (W9_v61 m ρ c) (W9_v16 m ρ c) (W9_v63 m ρ c) (W9_v66 m ρ c)
    _ = Y3 m c := rfl
theorem W10_v67_1 : W10 m ρ c (Proc.devRef .tc main_v67_1) = R3 m c :=
  calc W10 m ρ c (Proc.devRef .tc main_v67_1)
    _ = (dat5 (V9 m ρ) c).arrAt 6 cfg5.N := W10_arr m ρ c 6
    _ = Spec.rmax (V9 m ρ c main_v50_1) (Spec.dense (V9 m ρ c main_v61) (V9 m ρ c main_v16) (V9 m ρ c main_v63) (V9 m ρ c main_v66)) := dense5_r (V9 m ρ) c
    _ = Spec.rmax (R2 m c) (Spec.dense (Spec.aggr (Spec.scale (Y2 m c) (Spec.col (Spec.nrm (aS m c)))) (aS m c) (aD m c)) (Spec.col (Spec.nrm (aD m c))) (Spec.wmat2 (aW m c)) (Spec.brow (Spec.bvec2 (aB m c)))) := rmax_congr (W9_v50_1 m ρ c) (dense_congr (W9_v61 m ρ c) (W9_v16 m ρ c) (W9_v63 m ρ c) (W9_v66 m ρ c))
    _ = R3 m c := rfl

/-! ### boundary 11 -/
theorem W11_arg1 : W11 m ρ c (Proc.devRef .tc main_arg1) = aW m c := (W11_of_ne m ρ c main_arg1 (by decide)).trans (W10_arg1 m ρ c)
theorem W11_arg2 : W11 m ρ c (Proc.devRef .tc main_arg2) = aB m c := (W11_of_ne m ρ c main_arg2 (by decide)).trans (W10_arg2 m ρ c)
theorem W11_arg3 : W11 m ρ c (Proc.devRef .tc main_arg3) = aS m c := (W11_of_ne m ρ c main_arg3 (by decide)).trans (W10_arg3 m ρ c)
theorem W11_arg4 : W11 m ρ c (Proc.devRef .tc main_arg4) = aD m c := (W11_of_ne m ρ c main_arg4 (by decide)).trans (W10_arg4 m ρ c)
theorem W11_v16 : W11 m ρ c (Proc.devRef .tc main_v16) = Spec.col (Spec.nrm (aD m c)) := (W11_of_ne m ρ c main_v16 (by decide)).trans (W10_v16 m ρ c)
theorem W11_v67_1 : W11 m ρ c (Proc.devRef .tc main_v67_1) = R3 m c := (W11_of_ne m ρ c main_v67_1 (by decide)).trans (W10_v67_1 m ρ c)
theorem W11_v68 : W11 m ρ c (Proc.devRef .tc main_v68) = Spec.scale (Y3 m c) (Spec.col (Spec.nrm (aS m c))) :=
  (W11_arr m ρ c 2).trans ((scale6 (V10 m ρ) c).trans (scale_congr (W10_v67_0 m ρ c) (W10_v11 m ρ c)))

/-! ### boundary 12 -/
theorem W12_v16 : W12 m ρ c (Proc.devRef .tc main_v16) = Spec.col (Spec.nrm (aD m c)) := (host7_keep_main_v16 (W11 m ρ c)).trans (W11_v16 m ρ c)
theorem W12_v67_1 : W12 m ρ c (Proc.devRef .tc main_v67_1) = R3 m c := (host7_keep_main_v67_1 (W11 m ρ c)).trans (W11_v67_1 m ρ c)
theorem W12_v78 : W12 m ρ c (Proc.devRef .tc main_v78) = Spec.aggr (Spec.scale (Y3 m c) (Spec.col (Spec.nrm (aS m c)))) (aS m c) (aD m c) :=
  (host7_agg (W11 m ρ c)).trans (aggr_congr (W11_v68 m ρ c) (W11_arg3 m ρ c) (W11_arg4 m ρ c))
theorem W12_v80 : W12 m ρ c (Proc.devRef .tc main_v80) = Spec.wmat3 (aW m c) := (host7_w (W11 m ρ c)).trans (congrArg Spec.wmat3 (W11_arg1 m ρ c))
theorem W12_v83 : W12 m ρ c (Proc.devRef .tc main_v83) = Spec.brow (Spec.bvec3 (aB m c)) :=
  ((host7_b (W11 m ρ c)).trans (congrArg (fun s => shapeCast S1x128 (Spec.bvec3 s) Gen.shapeCasts_S128_S1x128) (W11_arg2 m ρ c))).trans (Spec.brow_eq_reshape _ _).symm

/-! ### boundary 13 -/
theorem W13_v84_0 : W13 m ρ c (Proc.devRef .tc main_v84_0) = Y4 m c :=
  calc W13 m ρ c (Proc.devRef .tc main_v84_0)
    _ = (dat7 (V12 m ρ) c).arrAt 5 cfg7.N := W13_arr m ρ c 5
    _ = Spec.dense (V12 m ρ c main_v78) (V12 m ρ c main_v16) (V12 m ρ c main_v80) (V12 m ρ c main_v83) := dense7_x (V12 m ρ) c
    _ = Spec.dense (Spec.aggr (Spec.scale (Y3 m c) (Spec.col (Spec.nrm (aS m c)))) (aS m c) (aD m c)) (Spec.col (Spec.nrm (aD m c))) (Spec.wmat3 (aW m c)) (Spec.brow (Spec.bvec3 (aB m c))) := dense_congr (W12_v78 m ρ c) (W12_v16 m ρ c) (W12_v80 m ρ c) (W12_v83 m ρ c)
    _ = Y4 m c := rfl
theorem W13_v84_1 : W13 m ρ c (Proc.devRef .tc main_v84_1) = R4 m c :=
  calc W13 m ρ c (Proc.devRef .tc main_v84_1)
    _ = (dat7 (V12 m ρ) c).arrAt 6 cfg7.N := W13_arr m ρ c 6
    _ = Spec.rmax (V12 m ρ c main_v67_1) (Spec.dense (V12 m ρ c main_v78) (V12 m ρ c main_v16) (V12 m ρ c main_v80) (V12 m ρ c main_v83)) := dense7_r (V12 m ρ) c
    _ = Spec.rmax (R3 m c) (Spec.dense (Spec.aggr (Spec.scale (Y3 m c) (Spec.col (Spec.nrm (aS m c)))) (aS m c) (aD m c)) (Spec.col (Spec.nrm (aD m c))) (Spec.wmat3 (aW m c)) (Spec.brow (Spec.bvec3 (aB m c)))) := rmax_congr (W12_v67_1 m ρ c) (dense_congr (W12_v78 m ρ c) (W12_v16 m ρ c) (W12_v80 m ρ c) (W12_v83 m ρ c))
    _ = R4 m c := rfl

/-- The result buffer after the last region: the maximum of the input features and the four layers' outputs. -/
theorem kernel_value :
    W13 m ρ c (Proc.devRef .tc main_v84_1) = Spec.G (aX m c) (aW m c) (aB m c) (aS m c) (aD m c) :=
  (W13_v84_1 m ρ c).trans (Spec.jk_eq_max _ _ _ _ _).symm

end Cert.KValue

end
-- ==== Proof.RefOps.lean ====
/-
  The reference program's @main as a list of its 170 host operations (the four calls of the leaky
  rectifier and of the select inside it written out at their call sites over each call's own buffers),
  cut into consecutive stretches: the two degree normalisations (NA, NB), for each of the four layers
  the scaled gather (P), the scatter-add and its scaling (Q), the dense map with bias and leaky
  rectifier (R), and the final stacking (F1) and maximum along the stacking axis (F2).
  Per stretch: every operation touches TensorCore references only, determines its results, and
  writes only the listed references, so every other reference keeps its contents across the stretch.
-/
import proofs.«179694_j65103114272768_1_alg».proof.ReferenceIdeal
import proofs.«179694_j65103114272768_1_alg».proof.Proof.Gen.ReferenceIdeal
import Idealize.ShloMosaic.Lib.StableHlo.Run

noncomputable section

namespace Cert.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- An operation that writes the one reference `y`, a member of the list `W`, writes inside `W`. -/
theorem writes_sub {W : List (Ref sig .tc)} {y : Ref sig .tc} {op : HloOp τ sig (Elt F)}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Operations 1 … 10 of 170. -/
def NA : List (HloOp τ sig (Elt F)) :=
  [ StableHlo.nullary main_cst (constant S_ .f32 0x3F800000#32),
    StableHlo.unary main_cst main_v0 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg3 main_v2 (broadcastInDim S850000x1 ![0] bcast_S850000_S850000x1_0 : (⟨S850000, .i32⟩ : BufTy).Contents (Elt F) → (⟨S850000x1, .i32⟩ : BufTy).Contents (Elt F)),
    StableHlo.ternary main_v1 main_v2 main_v0 main_v3 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg4 main_v5 (broadcastInDim S850000x1 ![0] bcast_S850000_S850000x1_0 : (⟨S850000, .i32⟩ : BufTy).Contents (Elt F) → (⟨S850000x1, .i32⟩ : BufTy).Contents (Elt F)),
    StableHlo.ternary main_v4 main_v5 main_v0 main_v6 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ]
/-- The references NA writes, in order. -/
def NAw : List (Ref sig .tc) := [main_cst, main_v0, main_cst_0, main_v1, main_v2, main_v3, main_cst_1, main_v4, main_v5, main_v6]
theorem NA_sub : ∀ op ∈ (NA : List (HloOp τ sig (Elt F))), op.bufs ⊆ tcRefs τ sig :=
  List.forall_iff_forall_mem.1 (by unfold NA; exact ⟨nullary_bufs_sub .., unary_bufs_sub .., nullary_bufs_sub .., unary_bufs_sub .., unary_bufs_sub .., ternary_bufs_sub .., nullary_bufs_sub .., unary_bufs_sub .., unary_bufs_sub .., ternary_bufs_sub ..⟩)
theorem NA_fresh : ∀ op ∈ (NA : List (HloOp τ sig (Elt F))), op.fresh = ∅ :=
  List.forall_iff_forall_mem.1 (by unfold NA; exact ⟨rfl, rfl, rfl, rfl, rfl, rfl, rfl, rfl, rfl, rfl⟩)
theorem NA_writes : (NA : List (HloOp τ sig (Elt F))).Forall fun op => op.writes ⊆ (NAw.map (Proc.devRef (τ := τ) .tc)).toFinset := by
  unfold NA; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference NA does not write keeps its contents. -/
theorem NA_frame (V : Valuation τ sig (Elt F)) {r : Ref sig .tc} (hr : r ∉ NAw) :
    after NA V (Proc.devRef .tc r) = V (Proc.devRef .tc r) := after_of_writes_sub NA V NA_writes hr

/-- Operations 11 … 22 of 170. -/
def NB : List (HloOp τ sig (Elt F)) :=
  [ StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v3 main_v7 main_v8 (maximumf : (⟨S50000, .f32⟩ : BufTy).Contents (Elt F) → (⟨S50000, .f32⟩ : BufTy).Contents (Elt F) → (⟨S50000, .f32⟩ : BufTy).Contents (Elt F)),
    StableHlo.nullary main_cst_3 (constant S_ .f32 0xBF000000#32),
    StableHlo.unary main_cst_3 main_v9 (broadcastInDim S50000 ![] bcast_S_S50000 : (⟨S_, .f32⟩ : BufTy).Contents (Elt F) → (⟨S50000, .f32⟩ : BufTy).Contents (Elt F)),
    StableHlo.binary main_v8 main_v9 main_v10 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x3F800000#32),
    StableHlo.unary main_cst_4 main_v11 (broadcastInDim S50000 ![] bcast_S_S50000 : (⟨S_, .f32⟩ : BufTy).Contents (Elt F) → (⟨S50000, .f32⟩ : BufTy).Contents (Elt F)),
    StableHlo.binary main_v6 main_v11 main_v12 (maximumf : (⟨S50000, .f32⟩ : BufTy).Contents (Elt F) → (⟨S50000, .f32⟩ : BufTy).Contents (Elt F) → (⟨S50000, .f32⟩ : BufTy).Contents (Elt F)),
    StableHlo.nullary main_cst_5 (constant S_ .f32 0xBF000000#32),
    StableHlo.unary main_cst_5 main_v13 (broadcastInDim S50000 ![] bcast_S_S50000 : (⟨S_, .f32⟩ : BufTy).Contents (Elt F) → (⟨S50000, .f32⟩ : BufTy).Contents (Elt F)),
    StableHlo.binary main_v12 main_v13 main_v14 (Host.powf : (⟨S50000, .f32⟩ : BufTy).Contents (Elt F) → (⟨S50000, .f32⟩ : BufTy).Contents (Elt F) → (⟨S50000, .f32⟩ : BufTy).Contents (Elt F)) ]
/-- The references NB writes, in order. -/
def NBw : List (Ref sig .tc) := [main_cst_2, main_v7, main_v8, main_cst_3, main_v9, main_v10, main_cst_4, main_v11, main_v12, main_cst_5, main_v13, main_v14]
theorem NB_sub : ∀ op ∈ (NB : List (HloOp τ sig (Elt F))), op.bufs ⊆ tcRefs τ sig :=
  List.forall_iff_forall_mem.1 (by unfold NB; exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩)
theorem NB_fresh : ∀ op ∈ (NB : List (HloOp τ sig (Elt F))), op.fresh = ∅ :=
  List.forall_iff_forall_mem.1 (by unfold NB; exact ⟨rfl, rfl, rfl, rfl, rfl, rfl, rfl, rfl, rfl, rfl, rfl, rfl⟩)
theorem NB_writes : (NB : List (HloOp τ sig (Elt F))).Forall fun op => op.writes ⊆ (NBw.map (Proc.devRef (τ := τ) .tc)).toFinset := by
  unfold NB; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference NB does not write keeps its contents. -/
theorem NB_frame (V : Valuation τ sig (Elt F)) {r : Ref sig .tc} (hr : r ∉ NBw) :
    after NB V (Proc.devRef .tc r) = V (Proc.devRef .tc r) := after_of_writes_sub NB V NB_writes hr

/-- Operations 23 … 34 of 170. -/
def P1 : List (HloOp τ sig (Elt F)) :=
  [ StableHlo.unary main_v10 main_v15 (broadcastInDim S50000x1 ![0] bcast_S50000_S50000x1_0 : (⟨S50000, .f32⟩ : BufTy).Contents (Elt F) → (⟨S50000x1, .f32⟩ : BufTy).Contents (Elt F)),
    StableHlo.unary main_v15 main_v16 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v16 main_v17 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v18 (broadcastInDim S850000 ![] bcast_S_S850000 : (⟨S_, .i32⟩ : BufTy).Contents (Elt F) → (⟨S850000, .i32⟩ : BufTy).Contents (Elt F)),
    StableHlo.binary main_arg3 main_v18 main_v19 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v20 (broadcastInDim S850000 ![] bcast_S_S850000 : (⟨S_, .i32⟩ : BufTy).Contents (Elt F) → (⟨S850000, .i32⟩ : BufTy).Contents (Elt F)),
    StableHlo.binary main_arg3 main_v20 main_v21 (addi : (⟨S850000, .i32⟩ : BufTy).Contents (Elt F) → (⟨S850000, .i32⟩ : BufTy).Contents (Elt F) → (⟨S850000, .i32⟩ : BufTy).Contents (Elt F)),
    StableHlo.ternary main_v19 main_v21 main_arg3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v22 main_v23 (broadcastInDim S850000x1 ![0] bcast_S850000_S850000x1_0 : (⟨S850000, .i32⟩ : BufTy).Contents (Elt F) → (⟨S850000x1, .i32⟩ : BufTy).Contents (Elt F)),
    StableHlo.binary main_v17 main_v23 main_v24 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]
/-- The references P1 writes, in order. -/
def P1w : List (Ref sig .tc) := [main_v15, main_v16, main_v17, main_c, main_v18, main_v19, main_c_6, main_v20, main_v21, main_v22, main_v23, main_v24]
theorem P1_sub : ∀ op ∈ (P1 : List (HloOp τ sig (Elt F))), op.bufs ⊆ tcRefs τ sig :=
  List.forall_iff_forall_mem.1 (by unfold P1; exact ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩)
theorem P1_fresh : ∀ op ∈ (P1 : List (HloOp τ sig (Elt F))), op.fresh = ∅ :=
  List.forall_iff_forall_mem.1 (by unfold P1; exact ⟨rfl, rfl, rfl, rfl, rfl, rfl, rfl, rfl, rfl, rfl, rfl, rfl⟩)
theorem P1_writes : (P1 : List (HloOp τ sig (Elt F))).Forall fun op => op.writes ⊆ (P1w.map (Proc.devRef (τ := τ) .tc)).toFinset := by
  unfold P1; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference P1 does not write keeps its contents. -/
theorem P1_frame (V : Valuation τ sig (Elt F)) {r : Ref sig .tc} (hr : r ∉ P1w) :
    after P1 V (Proc.devRef .tc r) = V (Proc.devRef .tc r) := after_of_writes_sub P1 V P1_writes hr

/-- Operations 35 … 41 of 170. -/
def Q1 : List (HloOp τ sig (Elt F)) :=
  [ StableHlo.nullary main_cst_7 (constant S_ .f32 0x00000000#32),
    StableHlo.unary main_cst_7 main_v25 (broadcastInDim S50000x128 ![] bcast_S_S50000x128 : (⟨S_, .f32⟩ : BufTy).Contents (Elt F) → (⟨S50000x128, .f32⟩ : BufTy).Contents (Elt F)),
    StableHlo.unary main_arg4 main_v26 (broadcastInDim S850000x1 ![0] bcast_S850000_S850000x1_0 : (⟨S850000, .i32⟩ : BufTy).Contents (Elt F) → (⟨S850000x1, .i32⟩ : BufTy).Contents (Elt F)),
    StableHlo.ternary main_v25 main_v26 main_v24 main_v27 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v14 main_v28 (broadcastInDim S50000x1 ![0] bcast_S50000_S50000x1_0 : (⟨S50000, .f32⟩ : BufTy).Contents (Elt F) → (⟨S50000x1, .f32⟩ : BufTy).Contents (Elt F)),
    StableHlo.unary main_v28 main_v29 (broadcastInDim S50000x128 ![0, 1] bcast_S50000x1_S50000x128_0_1 : (⟨S50000x1, .f32⟩ : BufTy).Contents (Elt F) → (⟨S50000x128, .f32⟩ : BufTy).Contents (Elt F)),
    StableHlo.binary main_v27 main_v29 main_v30 (mulf : (⟨S50000x128, .f32⟩ : BufTy).Contents (Elt F) → (⟨S50000x128, .f32⟩ : BufTy).Contents (Elt F) → (⟨S50000x128, .f32⟩ : BufTy).Contents (Elt F)) ]
/-- The references Q1 writes, in order. -/
def Q1w : List (Ref sig .tc) := [main_cst_7, main_v25, main_v26, main_v27, main_v28, main_v29, main_v30]
theorem Q1_sub : ∀ op ∈ (Q1 : List (HloOp τ sig (Elt F))), op.bufs ⊆ tcRefs τ sig :=
  List.forall_iff_forall_mem.1 (by unfold Q1; exact ⟨nullary_bufs_sub .., unary_bufs_sub .., unary_bufs_sub .., ternary_bufs_sub .., unary_bufs_sub .., unary_bufs_sub .., binary_bufs_sub ..⟩)
theorem Q1_fresh : ∀ op ∈ (Q1 : List (HloOp τ sig (Elt F))), op.fresh = ∅ :=
  List.forall_iff_forall_mem.1 (by unfold Q1; exact ⟨rfl, rfl, rfl, rfl, rfl, rfl, rfl⟩)
theorem Q1_writes : (Q1 : List (HloOp τ sig (Elt F))).Forall fun op => op.writes ⊆ (Q1w.map (Proc.devRef (τ := τ) .tc)).toFinset := by
  unfold Q1; exact ⟨writes_sub rfl (by decide), writes_sub rfl (by decide), writes_sub rfl (by decide), writes_sub rfl (by decide), writes_sub rfl (by decide), writes_sub rfl (by decide), writes_sub rfl (by decide)⟩
/-- A reference Q1 does not write keeps its contents. -/
theorem Q1_frame (V : Valuation τ sig (Elt F)) {r : Ref sig .tc} (hr : r ∉ Q1w) :
    after Q1 V (Proc.devRef .tc r) = V (Proc.devRef .tc r) := after_of_writes_sub Q1 V Q1_writes hr

/-- Operations 42 … 57 of 170. -/
def R1 : List (HloOp τ sig (Elt F)) :=
  [ StableHlo.unary main_arg1 main_v31 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v31 main_v32 rfl shapeCasts_S1x128x128_S128x128,
    StableHlo.binary main_v30 main_v32 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v34 ((extractStridedSlice S1x128 ![0, 0] · slices_S4x128_S1x128_0_0) : (⟨S4x128, .f32⟩ : BufTy).Contents (Elt F) → (⟨S1x128, .f32⟩ : BufTy).Contents (Elt F)),
    StableHlo.reshape main_v34 main_v35 rfl shapeCasts_S1x128_S128,
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v37 main_v38 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3C23D70A#32),
    TRef.nullary main_call0.cst (constant S_ .f32 0x00000000#32),
    TRef.unary main_call0.cst main_call0.v0 (broadcastInDim S50000x128 ![] bcast_S_S50000x128),
    TRef.binary (.of main_v38) main_call0.v0 main_call0.v1 (cmpf .oge),
    TRef.unary (.of main_cst_8) main_call0.v2 id,
    TRef.unary main_call0.v2 main_call0.v3 (broadcastInDim S50000x128 ![] bcast_S_S50000x128),
    TRef.binary main_call0.v3 (.of main_v38) main_call0.v4 mulf,
    TRef.ternary main_call0.v1 (.of main_v38) main_call0.v4 main_call0.call0.v0 select ]
/-- The references R1 writes, in order. -/
def R1w : List (Ref sig .tc) := [main_v31, main_v32, main_v33, main_v34, main_v35, main_v36, main_v37, main_v38, main_cst_8, main_call0_cst, main_call0_v0, main_call0_v1, main_call0_v2, main_call0_v3, main_call0_v4, main_v39]
theorem R1_sub : ∀ op ∈ (R1 : List (HloOp τ sig (Elt F))), op.bufs ⊆ tcRefs τ sig :=
  List.forall_iff_forall_mem.1 (by unfold R1; exact ⟨unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩)
theorem R1_fresh : ∀ op ∈ (R1 : List (HloOp τ sig (Elt F))), op.fresh = ∅ :=
  List.forall_iff_forall_mem.1 (by unfold R1; exact ⟨rfl, rfl, rfl, rfl, rfl, rfl, rfl, rfl, rfl, rfl, rfl, rfl, rfl, rfl, rfl, rfl⟩)
theorem R1_writes : (R1 : List (HloOp τ sig (Elt F))).Forall fun op => op.writes ⊆ (R1w.map (Proc.devRef (τ := τ) .tc)).toFinset := by
  unfold R1; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference R1 does not write keeps its contents. -/
theorem R1_frame (V : Valuation τ sig (Elt F)) {r : Ref sig .tc} (hr : r ∉ R1w) :
    after R1 V (Proc.devRef .tc r) = V (Proc.devRef .tc r) := after_of_writes_sub R1 V R1_writes hr

/-- Operations 58 … 66 of 170. -/
def P2a : List (HloOp τ sig (Elt F)) :=
  [ StableHlo.unary main_v10 main_v40 (broadcastInDim S50000x1 ![0] bcast_S50000_S50000x1_0 : (⟨S50000, .f32⟩ : BufTy).Contents (Elt F) → (⟨S50000x1, .f32⟩ : BufTy).Contents (Elt F)),
    StableHlo.unary main_v40 main_v41 (broadcastInDim S50000x128 ![0, 1] bcast_S50000x1_S50000x128_0_1 : (⟨S50000x1, .f32⟩ : BufTy).Contents (Elt F) → (⟨S50000x128, .f32⟩ : BufTy).Contents (Elt F)),
    StableHlo.binary main_v39 main_v41 main_v42 (mulf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v43 (broadcastInDim S850000 ![] bcast_S_S850000 : (⟨S_, .i32⟩ : BufTy).Contents (Elt F) → (⟨S850000, .i32⟩ : BufTy).Contents (Elt F)),
    StableHlo.binary main_arg3 main_v43 main_v44 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v45 (broadcastInDim S850000 ![] bcast_S_S850000 : (⟨S_, .i32⟩ : BufTy).Contents (Elt F) → (⟨S850000, .i32⟩ : BufTy).Contents (Elt F)),
    StableHlo.binary main_arg3 main_v45 main_v46 (addi : (⟨S850000, .i32⟩ : BufTy).Contents (Elt F) → (⟨S850000, .i32⟩ : BufTy).Contents (Elt F) → (⟨S850000, .i32⟩ : BufTy).Contents (Elt F)) ]
/-- The references P2a writes, in order. -/
def P2aw : List (Ref sig .tc) := [main_v40, main_v41, main_v42, main_c_9, main_v43, main_v44, main_c_10, main_v45, main_v46]
theorem P2a_sub : ∀ op ∈ (P2a : List (HloOp τ sig (Elt F))), op.bufs ⊆ tcRefs τ sig :=
  List.forall_iff_forall_mem.1 (by unfold P2a; exact ⟨unary_bufs_sub .., unary_bufs_sub .., binary_bufs_sub .., nullary_bufs_sub .., unary_bufs_sub .., binary_bufs_sub .., nullary_bufs_sub .., unary_bufs_sub .., binary_bufs_sub ..⟩)
theorem P2a_fresh : ∀ op ∈ (P2a : List (HloOp τ sig (Elt F))), op.fresh = ∅ :=
  List.forall_iff_forall_mem.1 (by unfold P2a; exact ⟨rfl, rfl, rfl, rfl, rfl, rfl, rfl, rfl, rfl⟩)
theorem P2a_writes : (P2a : List (HloOp τ sig (Elt F))).Forall fun op => op.writes ⊆ (P2aw.map (Proc.devRef (τ := τ) .tc)).toFinset := by
  unfold P2a; exact ⟨writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference P2a does not write keeps its contents. -/
theorem P2a_frame (V : Valuation τ sig (Elt F)) {r : Ref sig .tc} (hr : r ∉ P2aw) :
    after P2a V (Proc.devRef .tc r) = V (Proc.devRef .tc r) := after_of_writes_sub P2a V P2a_writes hr

/-- Operations 67 … 69 of 170. -/
def P2b : List (HloOp τ sig (Elt F)) :=
  [ StableHlo.ternary main_v44 main_v46 main_arg3 main_v47 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v47 main_v48 (broadcastInDim S850000x1 ![0] bcast_S850000_S850000x1_0 : (⟨S850000, .i32⟩ : BufTy).Contents (Elt F) → (⟨S850000x1, .i32⟩ : BufTy).Contents (Elt F)),
    StableHlo.binary main_v42 main_v48 main_v49 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]
/-- The references P2b writes, in order. -/
def P2bw : List (Ref sig .tc) := [main_v47, main_v48, main_v49]
theorem P2b_sub : ∀ op ∈ (P2b : List (HloOp τ sig (Elt F))), op.bufs ⊆ tcRefs τ sig :=
  List.forall_iff_forall_mem.1 (by unfold P2b; exact ⟨ternary_bufs_sub .., unary_bufs_sub .., binary_bufs_sub ..⟩)
theorem P2b_fresh : ∀ op ∈ (P2b : List (HloOp τ sig (Elt F))), op.fresh = ∅ :=
  List.forall_iff_forall_mem.1 (by unfold P2b; exact ⟨rfl, rfl, rfl⟩)
theorem P2b_writes : (P2b : List (HloOp τ sig (Elt F))).Forall fun op => op.writes ⊆ (P2bw.map (Proc.devRef (τ := τ) .tc)).toFinset := by
  unfold P2b; exact ⟨writes_sub rfl (by decide), writes_sub rfl (by decide), writes_sub rfl (by decide)⟩
/-- A reference P2b does not write keeps its contents. -/
theorem P2b_frame (V : Valuation τ sig (Elt F)) {r : Ref sig .tc} (hr : r ∉ P2bw) :
    after P2b V (Proc.devRef .tc r) = V (Proc.devRef .tc r) := after_of_writes_sub P2b V P2b_writes hr

/-- Operations 70 … 76 of 170. -/
def Q2 : List (HloOp τ sig (Elt F)) :=
  [ StableHlo.nullary main_cst_11 (constant S_ .f32 0x00000000#32),
    StableHlo.unary main_cst_11 main_v50 (broadcastInDim S50000x128 ![] bcast_S_S50000x128 : (⟨S_, .f32⟩ : BufTy).Contents (Elt F) → (⟨S50000x128, .f32⟩ : BufTy).Contents (Elt F)),
    StableHlo.unary main_arg4 main_v51 (broadcastInDim S850000x1 ![0] bcast_S850000_S850000x1_0 : (⟨S850000, .i32⟩ : BufTy).Contents (Elt F) → (⟨S850000x1, .i32⟩ : BufTy).Contents (Elt F)),
    StableHlo.ternary main_v50 main_v51 main_v49 main_v52 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v14 main_v53 (broadcastInDim S50000x1 ![0] bcast_S50000_S50000x1_0 : (⟨S50000, .f32⟩ : BufTy).Contents (Elt F) → (⟨S50000x1, .f32⟩ : BufTy).Contents (Elt F)),
    StableHlo.unary main_v53 main_v54 (broadcastInDim S50000x128 ![0, 1] bcast_S50000x1_S50000x128_0_1 : (⟨S50000x1, .f32⟩ : BufTy).Contents (Elt F) → (⟨S50000x128, .f32⟩ : BufTy).Contents (Elt F)),
    StableHlo.binary main_v52 main_v54 main_v55 (mulf : (⟨S50000x128, .f32⟩ : BufTy).Contents (Elt F) → (⟨S50000x128, .f32⟩ : BufTy).Contents (Elt F) → (⟨S50000x128, .f32⟩ : BufTy).Contents (Elt F)) ]
/-- The references Q2 writes, in order. -/
def Q2w : List (Ref sig .tc) := [main_cst_11, main_v50, main_v51, main_v52, main_v53, main_v54, main_v55]
theorem Q2_sub : ∀ op ∈ (Q2 : List (HloOp τ sig (Elt F))), op.bufs ⊆ tcRefs τ sig :=
  List.forall_iff_forall_mem.1 (by unfold Q2; exact ⟨nullary_bufs_sub .., unary_bufs_sub .., unary_bufs_sub .., ternary_bufs_sub .., unary_bufs_sub .., unary_bufs_sub .., binary_bufs_sub ..⟩)
theorem Q2_fresh : ∀ op ∈ (Q2 : List (HloOp τ sig (Elt F))), op.fresh = ∅ :=
  List.forall_iff_forall_mem.1 (by unfold Q2; exact ⟨rfl, rfl, rfl, rfl, rfl, rfl, rfl⟩)
theorem Q2_writes : (Q2 : List (HloOp τ sig (Elt F))).Forall fun op => op.writes ⊆ (Q2w.map (Proc.devRef (τ := τ) .tc)).toFinset := by
  unfold Q2; exact ⟨writes_sub rfl (by decide), writes_sub rfl (by decide), writes_sub rfl (by decide), writes_sub rfl (by decide), writes_sub rfl (by decide), writes_sub rfl (by decide), writes_sub rfl (by decide)⟩
/-- A reference Q2 does not write keeps its contents. -/
theorem Q2_frame (V : Valuation τ sig (Elt F)) {r : Ref sig .tc} (hr : r ∉ Q2w) :
    after Q2 V (Proc.devRef .tc r) = V (Proc.devRef .tc r) := after_of_writes_sub Q2 V Q2_writes hr

/-- Operations 77 … 92 of 170. -/
def R2 : List (HloOp τ sig (Elt F)) :=
  [ StableHlo.unary main_arg1 main_v56 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v59 ((extractStridedSlice S1x128 ![1, 0] · slices_S4x128_S1x128_1_0) : (⟨S4x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3C23D70A#32),
    TRef.nullary main_call1.cst (constant S_ .f32 0x00000000#32),
    TRef.unary main_call1.cst main_call1.v0 (broadcastInDim S50000x128 ![] bcast_S_S50000x128),
    TRef.binary (.of main_v63) main_call1.v0 main_call1.v1 (cmpf .oge),
    TRef.unary (.of main_cst_12) main_call1.v2 id,
    TRef.unary main_call1.v2 main_call1.v3 (broadcastInDim S50000x128 ![] bcast_S_S50000x128),
    TRef.binary main_call1.v3 (.of main_v63) main_call1.v4 mulf,
    TRef.ternary main_call1.v1 (.of main_v63) main_call1.v4 main_call1.call0.v0 select ]
/-- The references R2 writes, in order. -/
def R2w : List (Ref sig .tc) := [main_v56, main_v57, main_v58, main_v59, main_v60, main_v61, main_v62, main_v63, main_cst_12, main_call1_cst, main_call1_v0, main_call1_v1, main_call1_v2, main_call1_v3, main_call1_v4, main_v64]
theorem R2_sub : ∀ op ∈ (R2 : List (HloOp τ sig (Elt F))), op.bufs ⊆ tcRefs τ sig :=
  List.forall_iff_forall_mem.1 (by unfold R2; exact ⟨unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩)
theorem R2_fresh : ∀ op ∈ (R2 : List (HloOp τ sig (Elt F))), op.fresh = ∅ :=
  List.forall_iff_forall_mem.1 (by unfold R2; exact ⟨rfl, rfl, rfl, rfl, rfl, rfl, rfl, rfl, rfl, rfl, rfl, rfl, rfl, rfl, rfl, rfl⟩)
theorem R2_writes : (R2 : List (HloOp τ sig (Elt F))).Forall fun op => op.writes ⊆ (R2w.map (Proc.devRef (τ := τ) .tc)).toFinset := by
  unfold R2; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference R2 does not write keeps its contents. -/
theorem R2_frame (V : Valuation τ sig (Elt F)) {r : Ref sig .tc} (hr : r ∉ R2w) :
    after R2 V (Proc.devRef .tc r) = V (Proc.devRef .tc r) := after_of_writes_sub R2 V R2_writes hr

/-- Operations 93 … 104 of 170. -/
def P3 : List (HloOp τ sig (Elt F)) :=
  [ StableHlo.unary main_v10 main_v65 (broadcastInDim S50000x1 ![0] bcast_S50000_S50000x1_0 : (⟨S50000, .f32⟩ : BufTy).Contents (Elt F) → (⟨S50000x1, .f32⟩ : BufTy).Contents (Elt F)),
    StableHlo.unary main_v65 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.nullary main_c_13 (constantI S_ 32 0#32),
    StableHlo.unary main_c_13 main_v68 (broadcastInDim S850000 ![] bcast_S_S850000 : (⟨S_, .i32⟩ : BufTy).Contents (Elt F) → (⟨S850000, .i32⟩ : BufTy).Contents (Elt F)),
    StableHlo.binary main_arg3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v70 (broadcastInDim S850000 ![] bcast_S_S850000 : (⟨S_, .i32⟩ : BufTy).Contents (Elt F) → (⟨S850000, .i32⟩ : BufTy).Contents (Elt F)),
    StableHlo.binary main_arg3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_arg3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v67 main_v73 main_v74 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]
/-- The references P3 writes, in order. -/
def P3w : List (Ref sig .tc) := [main_v65, main_v66, main_v67, main_c_13, main_v68, main_v69, main_c_14, main_v70, main_v71, main_v72, main_v73, main_v74]
theorem P3_sub : ∀ op ∈ (P3 : List (HloOp τ sig (Elt F))), op.bufs ⊆ tcRefs τ sig :=
  List.forall_iff_forall_mem.1 (by unfold P3; exact ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩)
theorem P3_fresh : ∀ op ∈ (P3 : List (HloOp τ sig (Elt F))), op.fresh = ∅ :=
  List.forall_iff_forall_mem.1 (by unfold P3; exact ⟨rfl, rfl, rfl, rfl, rfl, rfl, rfl, rfl, rfl, rfl, rfl, rfl⟩)
theorem P3_writes : (P3 : List (HloOp τ sig (Elt F))).Forall fun op => op.writes ⊆ (P3w.map (Proc.devRef (τ := τ) .tc)).toFinset := by
  unfold P3; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference P3 does not write keeps its contents. -/
theorem P3_frame (V : Valuation τ sig (Elt F)) {r : Ref sig .tc} (hr : r ∉ P3w) :
    after P3 V (Proc.devRef .tc r) = V (Proc.devRef .tc r) := after_of_writes_sub P3 V P3_writes hr

/-- Operations 105 … 111 of 170. -/
def Q3 : List (HloOp τ sig (Elt F)) :=
  [ StableHlo.nullary main_cst_15 (constant S_ .f32 0x00000000#32),
    StableHlo.unary main_cst_15 main_v75 (broadcastInDim S50000x128 ![] bcast_S_S50000x128 : (⟨S_, .f32⟩ : BufTy).Contents (Elt F) → (⟨S50000x128, .f32⟩ : BufTy).Contents (Elt F)),
    StableHlo.unary main_arg4 main_v76 (broadcastInDim S850000x1 ![0] bcast_S850000_S850000x1_0 : (⟨S850000, .i32⟩ : BufTy).Contents (Elt F) → (⟨S850000x1, .i32⟩ : BufTy).Contents (Elt F)),
    StableHlo.ternary main_v75 main_v76 main_v74 main_v77 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v14 main_v78 (broadcastInDim S50000x1 ![0] bcast_S50000_S50000x1_0 : (⟨S50000, .f32⟩ : BufTy).Contents (Elt F) → (⟨S50000x1, .f32⟩ : BufTy).Contents (Elt F)),
    StableHlo.unary main_v78 main_v79 (broadcastInDim S50000x128 ![0, 1] bcast_S50000x1_S50000x128_0_1 : (⟨S50000x1, .f32⟩ : BufTy).Contents (Elt F) → (⟨S50000x128, .f32⟩ : BufTy).Contents (Elt F)),
    StableHlo.binary main_v77 main_v79 main_v80 (mulf : (⟨S50000x128, .f32⟩ : BufTy).Contents (Elt F) → (⟨S50000x128, .f32⟩ : BufTy).Contents (Elt F) → (⟨S50000x128, .f32⟩ : BufTy).Contents (Elt F)) ]
/-- The references Q3 writes, in order. -/
def Q3w : List (Ref sig .tc) := [main_cst_15, main_v75, main_v76, main_v77, main_v78, main_v79, main_v80]
theorem Q3_sub : ∀ op ∈ (Q3 : List (HloOp τ sig (Elt F))), op.bufs ⊆ tcRefs τ sig :=
  List.forall_iff_forall_mem.1 (by unfold Q3; exact ⟨nullary_bufs_sub .., unary_bufs_sub .., unary_bufs_sub .., ternary_bufs_sub .., unary_bufs_sub .., unary_bufs_sub .., binary_bufs_sub ..⟩)
theorem Q3_fresh : ∀ op ∈ (Q3 : List (HloOp τ sig (Elt F))), op.fresh = ∅ :=
  List.forall_iff_forall_mem.1 (by unfold Q3; exact ⟨rfl, rfl, rfl, rfl, rfl, rfl, rfl⟩)
theorem Q3_writes : (Q3 : List (HloOp τ sig (Elt F))).Forall fun op => op.writes ⊆ (Q3w.map (Proc.devRef (τ := τ) .tc)).toFinset := by
  unfold Q3; exact ⟨writes_sub rfl (by decide), writes_sub rfl (by decide), writes_sub rfl (by decide), writes_sub rfl (by decide), writes_sub rfl (by decide), writes_sub rfl (by decide), writes_sub rfl (by decide)⟩
/-- A reference Q3 does not write keeps its contents. -/
theorem Q3_frame (V : Valuation τ sig (Elt F)) {r : Ref sig .tc} (hr : r ∉ Q3w) :
    after Q3 V (Proc.devRef .tc r) = V (Proc.devRef .tc r) := after_of_writes_sub Q3 V Q3_writes hr

/-- Operations 112 … 127 of 170. -/
def R3 : List (HloOp τ sig (Elt F)) :=
  [ StableHlo.unary main_arg1 main_v81 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v81 main_v82 rfl shapeCasts_S1x128x128_S128x128,
    StableHlo.binary main_v80 main_v82 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v84 ((extractStridedSlice S1x128 ![2, 0] · slices_S4x128_S1x128_2_0) : (⟨S4x128, .f32⟩ : BufTy).Contents (Elt F) → (⟨S1x128, .f32⟩ : BufTy).Contents (Elt F)),
    StableHlo.reshape main_v84 main_v85 rfl shapeCasts_S1x128_S128,
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v87 main_v88 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3C23D70A#32),
    TRef.nullary main_call2.cst (constant S_ .f32 0x00000000#32),
    TRef.unary main_call2.cst main_call2.v0 (broadcastInDim S50000x128 ![] bcast_S_S50000x128),
    TRef.binary (.of main_v88) main_call2.v0 main_call2.v1 (cmpf .oge),
    TRef.unary (.of main_cst_16) main_call2.v2 id,
    TRef.unary main_call2.v2 main_call2.v3 (broadcastInDim S50000x128 ![] bcast_S_S50000x128),
    TRef.binary main_call2.v3 (.of main_v88) main_call2.v4 mulf,
    TRef.ternary main_call2.v1 (.of main_v88) main_call2.v4 main_call2.call0.v0 select ]
/-- The references R3 writes, in order. -/
def R3w : List (Ref sig .tc) := [main_v81, main_v82, main_v83, main_v84, main_v85, main_v86, main_v87, main_v88, main_cst_16, main_call2_cst, main_call2_v0, main_call2_v1, main_call2_v2, main_call2_v3, main_call2_v4, main_v89]
theorem R3_sub : ∀ op ∈ (R3 : List (HloOp τ sig (Elt F))), op.bufs ⊆ tcRefs τ sig :=
  List.forall_iff_forall_mem.1 (by unfold R3; exact ⟨unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩)
theorem R3_fresh : ∀ op ∈ (R3 : List (HloOp τ sig (Elt F))), op.fresh = ∅ :=
  List.forall_iff_forall_mem.1 (by unfold R3; exact ⟨rfl, rfl, rfl, rfl, rfl, rfl, rfl, rfl, rfl, rfl, rfl, rfl, rfl, rfl, rfl, rfl⟩)
theorem R3_writes : (R3 : List (HloOp τ sig (Elt F))).Forall fun op => op.writes ⊆ (R3w.map (Proc.devRef (τ := τ) .tc)).toFinset := by
  unfold R3; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference R3 does not write keeps its contents. -/
theorem R3_frame (V : Valuation τ sig (Elt F)) {r : Ref sig .tc} (hr : r ∉ R3w) :
    after R3 V (Proc.devRef .tc r) = V (Proc.devRef .tc r) := after_of_writes_sub R3 V R3_writes hr

/-- Operations 128 … 138 of 170. -/
def P4a : List (HloOp τ sig (Elt F)) :=
  [ StableHlo.unary main_v10 main_v90 (broadcastInDim S50000x1 ![0] bcast_S50000_S50000x1_0 : (⟨S50000, .f32⟩ : BufTy).Contents (Elt F) → (⟨S50000x1, .f32⟩ : BufTy).Contents (Elt F)),
    StableHlo.unary main_v90 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.nullary main_c_17 (constantI S_ 32 0#32),
    StableHlo.unary main_c_17 main_v93 (broadcastInDim S850000 ![] bcast_S_S850000 : (⟨S_, .i32⟩ : BufTy).Contents (Elt F) → (⟨S850000, .i32⟩ : BufTy).Contents (Elt F)),
    StableHlo.binary main_arg3 main_v93 main_v94 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v95 (broadcastInDim S850000 ![] bcast_S_S850000 : (⟨S_, .i32⟩ : BufTy).Contents (Elt F) → (⟨S850000, .i32⟩ : BufTy).Contents (Elt F)),
    StableHlo.binary main_arg3 main_v95 main_v96 (addi : (⟨S850000, .i32⟩ : BufTy).Contents (Elt F) → (⟨S850000, .i32⟩ : BufTy).Contents (Elt F) → (⟨S850000, .i32⟩ : BufTy).Contents (Elt F)),
    StableHlo.ternary main_v94 main_v96 main_arg3 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v97 main_v98 (broadcastInDim S850000x1 ![0] bcast_S850000_S850000x1_0 : (⟨S850000, .i32⟩ : BufTy).Contents (Elt F) → (⟨S850000x1, .i32⟩ : BufTy).Contents (Elt F)) ]
/-- The references P4a writes, in order. -/
def P4aw : List (Ref sig .tc) := [main_v90, main_v91, main_v92, main_c_17, main_v93, main_v94, main_c_18, main_v95, main_v96, main_v97, main_v98]
theorem P4a_sub : ∀ op ∈ (P4a : List (HloOp τ sig (Elt F))), op.bufs ⊆ tcRefs τ sig :=
  List.forall_iff_forall_mem.1 (by unfold P4a; exact ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩)
theorem P4a_fresh : ∀ op ∈ (P4a : List (HloOp τ sig (Elt F))), op.fresh = ∅ :=
  List.forall_iff_forall_mem.1 (by unfold P4a; exact ⟨rfl, rfl, rfl, rfl, rfl, rfl, rfl, rfl, rfl, rfl, rfl⟩)
theorem P4a_writes : (P4a : List (HloOp τ sig (Elt F))).Forall fun op => op.writes ⊆ (P4aw.map (Proc.devRef (τ := τ) .tc)).toFinset := by
  unfold P4a; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference P4a does not write keeps its contents. -/
theorem P4a_frame (V : Valuation τ sig (Elt F)) {r : Ref sig .tc} (hr : r ∉ P4aw) :
    after P4a V (Proc.devRef .tc r) = V (Proc.devRef .tc r) := after_of_writes_sub P4a V P4a_writes hr

/-- Operations 139 … 139 of 170. -/
def P4b : List (HloOp τ sig (Elt F)) :=
  [ StableHlo.binary main_v92 main_v98 main_v99 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) ]
/-- The references P4b writes, in order. -/
def P4bw : List (Ref sig .tc) := [main_v99]
theorem P4b_sub : ∀ op ∈ (P4b : List (HloOp τ sig (Elt F))), op.bufs ⊆ tcRefs τ sig :=
  List.forall_iff_forall_mem.1 (by unfold P4b; exact binary_bufs_sub ..)
theorem P4b_fresh : ∀ op ∈ (P4b : List (HloOp τ sig (Elt F))), op.fresh = ∅ :=
  List.forall_iff_forall_mem.1 (by unfold P4b; exact rfl)
theorem P4b_writes : (P4b : List (HloOp τ sig (Elt F))).Forall fun op => op.writes ⊆ (P4bw.map (Proc.devRef (τ := τ) .tc)).toFinset := by
  unfold P4b; exact writes_sub rfl (by decide)
/-- A reference P4b does not write keeps its contents. -/
theorem P4b_frame (V : Valuation τ sig (Elt F)) {r : Ref sig .tc} (hr : r ∉ P4bw) :
    after P4b V (Proc.devRef .tc r) = V (Proc.devRef .tc r) := after_of_writes_sub P4b V P4b_writes hr

/-- Operations 140 … 146 of 170. -/
def Q4 : List (HloOp τ sig (Elt F)) :=
  [ StableHlo.nullary main_cst_19 (constant S_ .f32 0x00000000#32),
    StableHlo.unary main_cst_19 main_v100 (broadcastInDim S50000x128 ![] bcast_S_S50000x128 : (⟨S_, .f32⟩ : BufTy).Contents (Elt F) → (⟨S50000x128, .f32⟩ : BufTy).Contents (Elt F)),
    StableHlo.unary main_arg4 main_v101 (broadcastInDim S850000x1 ![0] bcast_S850000_S850000x1_0 : (⟨S850000, .i32⟩ : BufTy).Contents (Elt F) → (⟨S850000x1, .i32⟩ : BufTy).Contents (Elt F)),
    StableHlo.ternary main_v100 main_v101 main_v99 main_v102 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_v14 main_v103 (broadcastInDim S50000x1 ![0] bcast_S50000_S50000x1_0 : (⟨S50000, .f32⟩ : BufTy).Contents (Elt F) → (⟨S50000x1, .f32⟩ : BufTy).Contents (Elt F)),
    StableHlo.unary main_v103 main_v104 (broadcastInDim S50000x128 ![0, 1] bcast_S50000x1_S50000x128_0_1 : (⟨S50000x1, .f32⟩ : BufTy).Contents (Elt F) → (⟨S50000x128, .f32⟩ : BufTy).Contents (Elt F)),
    StableHlo.binary main_v102 main_v104 main_v105 (mulf : (⟨S50000x128, .f32⟩ : BufTy).Contents (Elt F) → (⟨S50000x128, .f32⟩ : BufTy).Contents (Elt F) → (⟨S50000x128, .f32⟩ : BufTy).Contents (Elt F)) ]
/-- The references Q4 writes, in order. -/
def Q4w : List (Ref sig .tc) := [main_cst_19, main_v100, main_v101, main_v102, main_v103, main_v104, main_v105]
theorem Q4_sub : ∀ op ∈ (Q4 : List (HloOp τ sig (Elt F))), op.bufs ⊆ tcRefs τ sig :=
  List.forall_iff_forall_mem.1 (by unfold Q4; exact ⟨nullary_bufs_sub .., unary_bufs_sub .., unary_bufs_sub .., ternary_bufs_sub .., unary_bufs_sub .., unary_bufs_sub .., binary_bufs_sub ..⟩)
theorem Q4_fresh : ∀ op ∈ (Q4 : List (HloOp τ sig (Elt F))), op.fresh = ∅ :=
  List.forall_iff_forall_mem.1 (by unfold Q4; exact ⟨rfl, rfl, rfl, rfl, rfl, rfl, rfl⟩)
theorem Q4_writes : (Q4 : List (HloOp τ sig (Elt F))).Forall fun op => op.writes ⊆ (Q4w.map (Proc.devRef (τ := τ) .tc)).toFinset := by
  unfold Q4; exact ⟨writes_sub rfl (by decide), writes_sub rfl (by decide), writes_sub rfl (by decide), writes_sub rfl (by decide), writes_sub rfl (by decide), writes_sub rfl (by decide), writes_sub rfl (by decide)⟩
/-- A reference Q4 does not write keeps its contents. -/
theorem Q4_frame (V : Valuation τ sig (Elt F)) {r : Ref sig .tc} (hr : r ∉ Q4w) :
    after Q4 V (Proc.devRef .tc r) = V (Proc.devRef .tc r) := after_of_writes_sub Q4 V Q4_writes hr

/-- Operations 147 … 162 of 170. -/
def R4 : List (HloOp τ sig (Elt F)) :=
  [ StableHlo.unary main_arg1 main_v106 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v106 main_v107 rfl shapeCasts_S1x128x128_S128x128,
    StableHlo.binary main_v105 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v109 ((extractStridedSlice S1x128 ![3, 0] · slices_S4x128_S1x128_3_0) : (⟨S4x128, .f32⟩ : BufTy).Contents (Elt F) → (⟨S1x128, .f32⟩ : BufTy).Contents (Elt F)),
    StableHlo.reshape main_v109 main_v110 rfl shapeCasts_S1x128_S128,
    StableHlo.unary main_v110 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v112 main_v113 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x3C23D70A#32),
    TRef.nullary main_call3.cst (constant S_ .f32 0x00000000#32),
    TRef.unary main_call3.cst main_call3.v0 (broadcastInDim S50000x128 ![] bcast_S_S50000x128),
    TRef.binary (.of main_v113) main_call3.v0 main_call3.v1 (cmpf .oge),
    TRef.unary (.of main_cst_20) main_call3.v2 id,
    TRef.unary main_call3.v2 main_call3.v3 (broadcastInDim S50000x128 ![] bcast_S_S50000x128),
    TRef.binary main_call3.v3 (.of main_v113) main_call3.v4 mulf,
    TRef.ternary main_call3.v1 (.of main_v113) main_call3.v4 main_call3.call0.v0 select ]
/-- The references R4 writes, in order. -/
def R4w : List (Ref sig .tc) := [main_v106, main_v107, main_v108, main_v109, main_v110, main_v111, main_v112, main_v113, main_cst_20, main_call3_cst, main_call3_v0, main_call3_v1, main_call3_v2, main_call3_v3, main_call3_v4, main_v114]
theorem R4_sub : ∀ op ∈ (R4 : List (HloOp τ sig (Elt F))), op.bufs ⊆ tcRefs τ sig :=
  List.forall_iff_forall_mem.1 (by unfold R4; exact ⟨unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩)
theorem R4_fresh : ∀ op ∈ (R4 : List (HloOp τ sig (Elt F))), op.fresh = ∅ :=
  List.forall_iff_forall_mem.1 (by unfold R4; exact ⟨rfl, rfl, rfl, rfl, rfl, rfl, rfl, rfl, rfl, rfl, rfl, rfl, rfl, rfl, rfl, rfl⟩)
theorem R4_writes : (R4 : List (HloOp τ sig (Elt F))).Forall fun op => op.writes ⊆ (R4w.map (Proc.devRef (τ := τ) .tc)).toFinset := by
  unfold R4; exact ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩
/-- A reference R4 does not write keeps its contents. -/
theorem R4_frame (V : Valuation τ sig (Elt F)) {r : Ref sig .tc} (hr : r ∉ R4w) :
    after R4 V (Proc.devRef .tc r) = V (Proc.devRef .tc r) := after_of_writes_sub R4 V R4_writes hr

/-- Operations 163 … 167 of 170. -/
def F1 : List (HloOp τ sig (Elt F)) :=
  [ StableHlo.unary main_arg0 main_v115 (broadcastInDim S50000x128x1 ![0, 1] bcast_S50000x128_S50000x128x1_0_1 : (⟨S50000x128, .f32⟩ : BufTy).Contents (Elt F) → (⟨S50000x128x1, .f32⟩ : BufTy).Contents (Elt F)),
    StableHlo.unary main_v39 main_v116 (broadcastInDim S50000x128x1 ![0, 1] bcast_S50000x128_S50000x128x1_0_1 : (⟨S50000x128, .f32⟩ : BufTy).Contents (Elt F) → (⟨S50000x128x1, .f32⟩ : BufTy).Contents (Elt F)),
    StableHlo.unary main_v64 main_v117 (broadcastInDim S50000x128x1 ![0, 1] bcast_S50000x128_S50000x128x1_0_1 : (⟨S50000x128, .f32⟩ : BufTy).Contents (Elt F) → (⟨S50000x128x1, .f32⟩ : BufTy).Contents (Elt F)),
    StableHlo.unary main_v89 main_v118 (broadcastInDim S50000x128x1 ![0, 1] bcast_S50000x128_S50000x128x1_0_1 : (⟨S50000x128, .f32⟩ : BufTy).Contents (Elt F) → (⟨S50000x128x1, .f32⟩ : BufTy).Contents (Elt F)),
    StableHlo.unary main_v114 main_v119 (broadcastInDim S50000x128x1 ![0, 1] bcast_S50000x128_S50000x128x1_0_1 : (⟨S50000x128, .f32⟩ : BufTy).Contents (Elt F) → (⟨S50000x128x1, .f32⟩ : BufTy).Contents (Elt F)) ]
/-- The references F1 writes, in order. -/
def F1w : List (Ref sig .tc) := [main_v115, main_v116, main_v117, main_v118, main_v119]
theorem F1_sub : ∀ op ∈ (F1 : List (HloOp τ sig (Elt F))), op.bufs ⊆ tcRefs τ sig :=
  List.forall_iff_forall_mem.1 (by unfold F1; exact ⟨unary_bufs_sub .., unary_bufs_sub .., unary_bufs_sub .., unary_bufs_sub .., unary_bufs_sub ..⟩)
theorem F1_fresh : ∀ op ∈ (F1 : List (HloOp τ sig (Elt F))), op.fresh = ∅ :=
  List.forall_iff_forall_mem.1 (by unfold F1; exact ⟨rfl, rfl, rfl, rfl, rfl⟩)
theorem F1_writes : (F1 : List (HloOp τ sig (Elt F))).Forall fun op => op.writes ⊆ (F1w.map (Proc.devRef (τ := τ) .tc)).toFinset := by
  unfold F1; exact ⟨writes_sub rfl (by decide), writes_sub rfl (by decide), writes_sub rfl (by decide), writes_sub rfl (by decide), writes_sub rfl (by decide)⟩
/-- A reference F1 does not write keeps its contents. -/
theorem F1_frame (V : Valuation τ sig (Elt F)) {r : Ref sig .tc} (hr : r ∉ F1w) :
    after F1 V (Proc.devRef .tc r) = V (Proc.devRef .tc r) := after_of_writes_sub F1 V F1_writes hr

/-- Operations 168 … 170 of 170. -/
def F2 : List (HloOp τ sig (Elt F)) :=
  [ StableHlo.nary ![main_v115, main_v116, main_v117, main_v118, main_v119] main_v120 (fun u => concatenate S50000x128x5 2 [⟨S50000x128x1, u 0⟩, ⟨S50000x128x1, u 1⟩, ⟨S50000x128x1, u 2⟩, ⟨S50000x128x1, u 3⟩, ⟨S50000x128x1, u 4⟩] concatenates_S50000x128x1_S50000x128x1_S50000x128x1_S50000x128x1_S50000x128x1_S50000x128x5_d2),
    StableHlo.nullary main_cst_21 (constant S_ .f32 0xFF800000#32),
    StableHlo.binary main_v120 main_cst_21 main_v121 ((fun x v => Host.reduce FloatOps.maximumf x v reducesTo_S50000x128x5_S50000x128_d2 h_S_) : (⟨S50000x128x5, .f32⟩ : BufTy).Contents (Elt F) → (⟨S_, .f32⟩ : BufTy).Contents (Elt F) → (⟨S50000x128, .f32⟩ : BufTy).Contents (Elt F)) ]
/-- The references F2 writes, in order. -/
def F2w : List (Ref sig .tc) := [main_v120, main_cst_21, main_v121]
theorem F2_sub : ∀ op ∈ (F2 : List (HloOp τ sig (Elt F))), op.bufs ⊆ tcRefs τ sig :=
  List.forall_iff_forall_mem.1 (by unfold F2; exact ⟨nary_bufs_sub .., nullary_bufs_sub .., binary_bufs_sub ..⟩)
theorem F2_fresh : ∀ op ∈ (F2 : List (HloOp τ sig (Elt F))), op.fresh = ∅ :=
  List.forall_iff_forall_mem.1 (by unfold F2; exact ⟨rfl, rfl, rfl⟩)
theorem F2_writes : (F2 : List (HloOp τ sig (Elt F))).Forall fun op => op.writes ⊆ (F2w.map (Proc.devRef (τ := τ) .tc)).toFinset := by
  unfold F2; exact ⟨writes_sub rfl (by decide), writes_sub rfl (by decide), writes_sub rfl (by decide)⟩
/-- A reference F2 does not write keeps its contents. -/
theorem F2_frame (V : Valuation τ sig (Elt F)) {r : Ref sig .tc} (hr : r ∉ F2w) :
    after F2 V (Proc.devRef .tc r) = V (Proc.devRef .tc r) := after_of_writes_sub F2 V F2_writes hr

/-- @main's three windows, as lists. -/
def part0 : List (HloOp τ sig (Elt F)) := NA ++ (NB ++ (P1 ++ (Q1 ++ (R1 ++ P2a))))
def part1 : List (HloOp τ sig (Elt F)) := P2b ++ (Q2 ++ (R2 ++ (P3 ++ (Q3 ++ (R3 ++ P4a)))))
def part2 : List (HloOp τ sig (Elt F)) := P4b ++ (Q4 ++ (R4 ++ (F1 ++ F2)))
/-- @main's 170 operations, in order. -/
def ops : List (HloOp τ sig (Elt F)) := part0 ++ (part1 ++ part2)

/-- A property of every operation of every stretch holds of every operation of @main. -/
theorem ops_forall {P : HloOp τ sig (Elt F) → Prop}
    (hNA : ∀ op ∈ NA, P op) (hNB : ∀ op ∈ NB, P op)
    (hP1 : ∀ op ∈ P1, P op) (hQ1 : ∀ op ∈ Q1, P op) (hR1 : ∀ op ∈ R1, P op)
    (hP2a : ∀ op ∈ P2a, P op) (hP2b : ∀ op ∈ P2b, P op) (hQ2 : ∀ op ∈ Q2, P op) (hR2 : ∀ op ∈ R2, P op)
    (hP3 : ∀ op ∈ P3, P op) (hQ3 : ∀ op ∈ Q3, P op) (hR3 : ∀ op ∈ R3, P op)
    (hP4a : ∀ op ∈ P4a, P op) (hP4b : ∀ op ∈ P4b, P op) (hQ4 : ∀ op ∈ Q4, P op) (hR4 : ∀ op ∈ R4, P op)
    (hF1 : ∀ op ∈ F1, P op) (hF2 : ∀ op ∈ F2, P op) : ∀ op ∈ ops, P op := by
  unfold ops part0 part1 part2
  simp only [List.forall_mem_append]
  exact ⟨⟨hNA, hNB, hP1, hQ1, hR1, hP2a⟩, ⟨hP2b, hQ2, hR2, hP3, hQ3, hR3, hP4a⟩, hP4b, hQ4, hR4, hF1, hF2⟩

theorem ops_sub : (ops : List (HloOp τ sig (Elt F))).Forall fun op => op.bufs ⊆ tcRefs τ sig :=
  List.forall_iff_forall_mem.2 (ops_forall NA_sub NB_sub P1_sub Q1_sub R1_sub P2a_sub P2b_sub Q2_sub R2_sub P3_sub Q3_sub R3_sub
    P4a_sub P4b_sub Q4_sub R4_sub F1_sub F2_sub)

theorem ops_fresh : ∀ op ∈ (ops : List (HloOp τ sig (Elt F))), op.fresh = ∅ :=
  ops_forall NA_fresh NB_fresh P1_fresh Q1_fresh R1_fresh P2a_fresh P2b_fresh Q2_fresh R2_fresh P3_fresh Q3_fresh R3_fresh
    P4a_fresh P4b_fresh Q4_fresh R4_fresh F1_fresh F2_fresh

end Cert.RefValue

end
-- ==== Proof.RefMain.lean ====
/-
  The reference program's @main is the straight line of its 170 operations: each of its three
  windows is the line of its own operations once the two outlined functions are unfolded at their
  calls and sequencing is reassociated, and the windows run one after the other. Hence its run:
  every weakly fair execution terminates with every TensorCore buffer at the operations' fold over
  the launch contents.
-/
import proofs.«179694_j65103114272768_1_alg».proof.Proof.RefOps

noncomputable section

namespace Cert.RefValue

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = seq part0 := by
  simp only [main_part0, fn_leaky_relu.body, fn_where.body, part0, NA, NB, P1, Q1, R1, P2a, List.cons_append, List.nil_append,
    seq, bind_assoc, pure_bind]
  rfl

set_option maxRecDepth 8192 in
theorem part1_eq (c : Dev nD) : main_part1 (F := F) c = seq part1 := by
  simp only [main_part1, fn_leaky_relu.body, fn_where.body, part1, P2b, Q2, R2, P3, Q3, R3, P4a, List.cons_append, List.nil_append,
    seq, bind_assoc, pure_bind]
  rfl

set_option maxRecDepth 8192 in
theorem part2_eq (c : Dev nD) : main_part2 (F := F) c = seq part2 := by
  simp only [main_part2, fn_leaky_relu.body, fn_where.body, part2, P4b, Q4, R4, F1, F2, List.cons_append, List.nil_append,
    seq, bind_assoc, pure_bind]

/-- @main is the line of its operations. -/
theorem main_eq (c : Dev nD) : main (F := F) c = seq ops := by
  unfold ops
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, every
    TensorCore buffer at the fold of the operations' results over its launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefValue

end
-- ==== Proof.RefNorm.lean ====
/-
  The first 22 operations of the reference compute the two degree normalisations: per node the number
  of edges whose source (respectively destination) is that node, at least 1, to the power -1/2.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

/-- The count of each node among the sources, and among the destinations: a scatter-add of ones into zeros. -/
theorem NA_v3 (V : Valuation τ sig (Elt Ideal)) : after (NA (F := Ideal)) V (main_v3 : DevRef τ sig) =
    Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 (V (main_arg3 : DevRef τ sig)))
      (broadcastInDim S850000 ![] bcast_S_S850000 (constant (F := Ideal) S_ .f32 0x3F800000#32)) := by
  unfold NA; after_results_simp

theorem NA_v6 (V : Valuation τ sig (Elt Ideal)) : after (NA (F := Ideal)) V (main_v6 : DevRef τ sig) =
    Host.scatterAdd (F := Ideal) scatter_S50000_S850000x1_S850000_n_0_0_1
      (broadcastInDim S50000 ![] bcast_S_S50000 (constant (F := Ideal) S_ .f32 0x00000000#32))
      (broadcastInDim S850000x1 ![0] bcast_S850000_S850000x1_0 (V (main_arg4 : DevRef τ sig)))
      (broadcastInDim S850000 ![] bcast_S_S850000 (constant (F := Ideal) S_ .f32 0x3F800000#32)) := by
  unfold NA; after_results_simp

/-- Each count, at least 1, to the power -1/2. -/
theorem NB_v10 (V : Valuation τ sig (Elt Ideal)) : after (NB (F := Ideal)) V (main_v10 : DevRef τ sig) =
    Host.powf (F := Ideal)
      (maximumf (F := Ideal) (V (main_v3 : DevRef τ sig)) (broadcastInDim S50000 ![] bcast_S_S50000 (constant (F := Ideal) S_ .f32 0x3F800000#32)))
      (broadcastInDim S50000 ![] bcast_S_S50000 (constant (F := Ideal) S_ .f32 0xBF000000#32)) := by
  unfold NB; after_results_simp

theorem NB_v14 (V : Valuation τ sig (Elt Ideal)) : after (NB (F := Ideal)) V (main_v14 : DevRef τ sig) =
    Host.powf (F := Ideal)
      (maximumf (F := Ideal) (V (main_v6 : DevRef τ sig)) (broadcastInDim S50000 ![] bcast_S_S50000 (constant (F := Ideal) S_ .f32 0x3F800000#32)))
      (broadcastInDim S50000 ![] bcast_S_S50000 (constant (F := Ideal) S_ .f32 0xBF000000#32)) := by
  unfold NB; after_results_simp

/-- The normalisation stretch. -/
def N : List (HloOp τ sig (Elt Ideal)) := NA ++ NB

theorem N_v10 (V : Valuation τ sig (Elt Ideal)) :
    after N V (main_v10 : DevRef τ sig) = Cert.Spec.nrm (V (main_arg3 : DevRef τ sig)) := by
  unfold N
  rw [after_app, NB_v10, NA_v3]
  rfl

theorem N_v14 (V : Valuation τ sig (Elt Ideal)) :
    after N V (main_v14 : DevRef τ sig) = Cert.Spec.nrm (V (main_arg4 : DevRef τ sig)) := by
  unfold N
  rw [after_app, NB_v14, NA_v6]
  rfl

theorem N_frame (V : Valuation τ sig (Elt Ideal)) {r : Ref sig .tc} (hA : r ∉ NAw) (hB : r ∉ NBw) :
    after N V (Proc.devRef .tc r) = V (Proc.devRef .tc r) := by
  unfold N
  rw [after_app, NB_frame _ hB, NA_frame _ hA]

end Cert.RefValue

end
-- ==== Proof.RefLayer1.lean ====
/-
  Layer 1 of the reference (35 operations): the input rows scaled by the source normalisation and
  gathered at the edges' sources; scatter-added at the destinations and scaled by the destination
  normalisation; multiplied by the layer's weight matrix, the bias added, the leaky rectifier applied.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

/-- The scaled input's rows at the edges' sources (a negative source counted from the end). -/
theorem P1_val (V : Valuation τ sig (Elt Ideal)) : after (P1 (F := Ideal)) V (main_v24 : DevRef τ sig) =
    Host.gather gather_S50000x128_S850000x1_S850000x128_1_0_n_n_0_1_1128
      (mulf (F := Ideal) (φ := .f32) (V (main_arg0 : DevRef τ sig) : Cert.Spec.Nodes)
        (broadcastInDim S50000x128 ![0, 1] bcast_S50000x1_S50000x128_0_1
          (broadcastInDim S50000x1 ![0] bcast_S50000_S50000x1_0 (V (main_v10 : DevRef τ sig) : Cert.Spec.NodeVec))))
      (broadcastInDim S850000x1 ![0] bcast_S850000_S850000x1_0
        (select (cmpi .slt (V (main_arg3 : DevRef τ sig) : Cert.Spec.Edges) (broadcastInDim S850000 ![] bcast_S_S850000 (constantI S_ 32 0#32)))
          (addi (V (main_arg3 : DevRef τ sig) : Cert.Spec.Edges) (broadcastInDim S850000 ![] bcast_S_S850000 (constantI S_ 32 50000#32)))
          (V (main_arg3 : DevRef τ sig) : Cert.Spec.Edges))) := by
  unfold P1; after_results_simp

theorem P1_frame' (V : Valuation τ sig (Elt Ideal)) {r : Ref sig .tc} (h : r ∉ P1w) :
    after (P1 (F := Ideal)) V (Proc.devRef .tc r) = V (Proc.devRef .tc r) := P1_frame V h

/-- The gathered rows summed at the edges' destinations, each node's sum scaled by its normalisation. -/
theorem Q1_val (V : Valuation τ sig (Elt Ideal)) : after (Q1 (F := Ideal)) V (main_v30 : DevRef τ sig) =
    mulf (F := Ideal)
      (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 (V (main_arg4 : DevRef τ sig) : Cert.Spec.Edges))
        (V (main_v24 : DevRef τ sig) : FVec Ideal S850000x128 .f32))
      (broadcastInDim S50000x128 ![0, 1] bcast_S50000x1_S50000x128_0_1
        (broadcastInDim S50000x1 ![0] bcast_S50000_S50000x1_0 (V (main_v14 : DevRef τ sig) : Cert.Spec.NodeVec))) := by
  unfold Q1; after_results_simp

/-- The product with the layer's weights, the bias added, the leaky rectifier applied (its two outlined
    functions' operations read at this call's own buffers). -/
theorem R1_val (V : Valuation τ sig (Elt Ideal)) : after (R1 (F := Ideal)) V (main_v39 : DevRef τ sig) =
    Cert.Spec.leaky (addf (F := Ideal)
      (Host.dotGeneral (F := Ideal) (φ₁ := .f32) (φ₂ := .f32) dot_S50000x128_S128x128_S50000x128_1_0_0_1_n_n none (V (main_v30 : DevRef τ sig) : Cert.Spec.Nodes) (Cert.Spec.wmat0 (V (main_arg1 : DevRef τ sig) : Cert.Spec.Wts)))
      (broadcastInDim S50000x128 ![0, 1] bcast_S1x128_S50000x128_0_1 (Cert.Spec.brow (Cert.Spec.bvec0 (V (main_arg2 : DevRef τ sig) : Cert.Spec.Biases))))) := by
  unfold R1; after_results_simp
  simp only [TRef.toBuf, TRef.ofBuf, cast_eq, id]
  rfl

/-- Layer 1's operations. -/
def L1 : List (HloOp τ sig (Elt Ideal)) := (P1 (F := Ideal)) ++ (Q1 ++ R1)

/-- Layer 1 is one layer of the specification, of its input and the two normalisations as the buffers hold them. -/
theorem L1_val (V : Valuation τ sig (Elt Ideal)) : after L1 V (main_v39 : DevRef τ sig) =
    Cert.Spec.layer (V (main_arg0 : DevRef τ sig) : Cert.Spec.Nodes) (Cert.Spec.col (V (main_v10 : DevRef τ sig) : Cert.Spec.NodeVec)) (Cert.Spec.col (V (main_v14 : DevRef τ sig) : Cert.Spec.NodeVec))
      (Cert.Spec.wmat0 (V (main_arg1 : DevRef τ sig) : Cert.Spec.Wts)) (Cert.Spec.brow (Cert.Spec.bvec0 (V (main_arg2 : DevRef τ sig) : Cert.Spec.Biases)))
      (V (main_arg3 : DevRef τ sig) : Cert.Spec.Edges) (V (main_arg4 : DevRef τ sig) : Cert.Spec.Edges) := by
  unfold L1
  rw [after_app, after_app, R1_val, Q1_val,
    Q1_frame (r := main_arg1) _ (by decide), Q1_frame (r := main_arg2) _ (by decide),
    P1_val, P1_frame' (r := main_arg4) _ (by decide), P1_frame' (r := main_v14) _ (by decide),
    P1_frame' (r := main_arg1) _ (by decide), P1_frame' (r := main_arg2) _ (by decide)]
  rfl

/-- A reference layer 1 does not write keeps its contents. -/
theorem L1_frame (V : Valuation τ sig (Elt Ideal)) {r : Ref sig .tc} (hP : r ∉ P1w) (hQ : r ∉ Q1w) (hR : r ∉ R1w) :
    after L1 V (Proc.devRef .tc r) = V (Proc.devRef .tc r) := by
  unfold L1
  rw [after_app, after_app, R1_frame _ hR, Q1_frame _ hQ, P1_frame' _ hP]

end Cert.RefValue

end
-- ==== Proof.RefLayer2.lean ====
/-
  Layer 2 of the reference (35 operations): the input rows scaled by the source normalisation and
  gathered at the edges' sources; scatter-added at the destinations and scaled by the destination
  normalisation; multiplied by the layer's weight matrix, the bias added, the leaky rectifier applied.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

/-- The scaled input's rows at the edges' sources (a negative source counted from the end). -/
theorem P2_val (V : Valuation τ sig (Elt Ideal)) : after (P2a (F := Ideal) ++ P2b) V (main_v49 : DevRef τ sig) =
    Host.gather gather_S50000x128_S850000x1_S850000x128_1_0_n_n_0_1_1128
      (mulf (F := Ideal) (φ := .f32) (V (main_v39 : DevRef τ sig) : Cert.Spec.Nodes)
        (broadcastInDim S50000x128 ![0, 1] bcast_S50000x1_S50000x128_0_1
          (broadcastInDim S50000x1 ![0] bcast_S50000_S50000x1_0 (V (main_v10 : DevRef τ sig) : Cert.Spec.NodeVec))))
      (broadcastInDim S850000x1 ![0] bcast_S850000_S850000x1_0
        (select (cmpi .slt (V (main_arg3 : DevRef τ sig) : Cert.Spec.Edges) (broadcastInDim S850000 ![] bcast_S_S850000 (constantI S_ 32 0#32)))
          (addi (V (main_arg3 : DevRef τ sig) : Cert.Spec.Edges) (broadcastInDim S850000 ![] bcast_S_S850000 (constantI S_ 32 50000#32)))
          (V (main_arg3 : DevRef τ sig) : Cert.Spec.Edges))) := by
  unfold P2a P2b; simp only [List.cons_append, List.nil_append]; after_results_simp

theorem P2_frame' (V : Valuation τ sig (Elt Ideal)) {r : Ref sig .tc} (h : r ∉ P2aw ∧ r ∉ P2bw) :
    after (P2a (F := Ideal) ++ P2b) V (Proc.devRef .tc r) = V (Proc.devRef .tc r) := by
  rw [after_app, P2b_frame _ h.2, P2a_frame _ h.1]

/-- The gathered rows summed at the edges' destinations, each node's sum scaled by its normalisation. -/
theorem Q2_val (V : Valuation τ sig (Elt Ideal)) : after (Q2 (F := Ideal)) V (main_v55 : DevRef τ sig) =
    mulf (F := Ideal)
      (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 (V (main_arg4 : DevRef τ sig) : Cert.Spec.Edges))
        (V (main_v49 : DevRef τ sig) : FVec Ideal S850000x128 .f32))
      (broadcastInDim S50000x128 ![0, 1] bcast_S50000x1_S50000x128_0_1
        (broadcastInDim S50000x1 ![0] bcast_S50000_S50000x1_0 (V (main_v14 : DevRef τ sig) : Cert.Spec.NodeVec))) := by
  unfold Q2; after_results_simp

/-- The product with the layer's weights, the bias added, the leaky rectifier applied (its two outlined
    functions' operations read at this call's own buffers). -/
theorem R2_val (V : Valuation τ sig (Elt Ideal)) : after (R2 (F := Ideal)) V (main_v64 : DevRef τ sig) =
    Cert.Spec.leaky (addf (F := Ideal)
      (Host.dotGeneral (F := Ideal) (φ₁ := .f32) (φ₂ := .f32) dot_S50000x128_S128x128_S50000x128_1_0_0_1_n_n none (V (main_v55 : DevRef τ sig) : Cert.Spec.Nodes) (Cert.Spec.wmat1 (V (main_arg1 : DevRef τ sig) : Cert.Spec.Wts)))
      (broadcastInDim S50000x128 ![0, 1] bcast_S1x128_S50000x128_0_1 (Cert.Spec.brow (Cert.Spec.bvec1 (V (main_arg2 : DevRef τ sig) : Cert.Spec.Biases))))) := by
  unfold R2; after_results_simp
  simp only [TRef.toBuf, TRef.ofBuf, cast_eq, id]
  rfl

/-- Layer 2's operations. -/
def L2 : List (HloOp τ sig (Elt Ideal)) := (P2a (F := Ideal) ++ P2b) ++ (Q2 ++ R2)

/-- Layer 2 is one layer of the specification, of its input and the two normalisations as the buffers hold them. -/
theorem L2_val (V : Valuation τ sig (Elt Ideal)) : after L2 V (main_v64 : DevRef τ sig) =
    Cert.Spec.layer (V (main_v39 : DevRef τ sig) : Cert.Spec.Nodes) (Cert.Spec.col (V (main_v10 : DevRef τ sig) : Cert.Spec.NodeVec)) (Cert.Spec.col (V (main_v14 : DevRef τ sig) : Cert.Spec.NodeVec))
      (Cert.Spec.wmat1 (V (main_arg1 : DevRef τ sig) : Cert.Spec.Wts)) (Cert.Spec.brow (Cert.Spec.bvec1 (V (main_arg2 : DevRef τ sig) : Cert.Spec.Biases)))
      (V (main_arg3 : DevRef τ sig) : Cert.Spec.Edges) (V (main_arg4 : DevRef τ sig) : Cert.Spec.Edges) := by
  unfold L2
  rw [after_app, after_app, R2_val, Q2_val,
    Q2_frame (r := main_arg1) _ (by decide), Q2_frame (r := main_arg2) _ (by decide),
    P2_val, P2_frame' (r := main_arg4) _ (by decide), P2_frame' (r := main_v14) _ (by decide),
    P2_frame' (r := main_arg1) _ (by decide), P2_frame' (r := main_arg2) _ (by decide)]
  rfl

/-- A reference layer 2 does not write keeps its contents. -/
theorem L2_frame (V : Valuation τ sig (Elt Ideal)) {r : Ref sig .tc} (hP : r ∉ P2aw ∧ r ∉ P2bw) (hQ : r ∉ Q2w) (hR : r ∉ R2w) :
    after L2 V (Proc.devRef .tc r) = V (Proc.devRef .tc r) := by
  unfold L2
  rw [after_app, after_app, R2_frame _ hR, Q2_frame _ hQ, P2_frame' _ hP]

end Cert.RefValue

end
-- ==== Proof.RefLayer3.lean ====
/-
  Layer 3 of the reference (35 operations): the input rows scaled by the source normalisation and
  gathered at the edges' sources; scatter-added at the destinations and scaled by the destination
  normalisation; multiplied by the layer's weight matrix, the bias added, the leaky rectifier applied.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

/-- The scaled input's rows at the edges' sources (a negative source counted from the end). -/
theorem P3_val (V : Valuation τ sig (Elt Ideal)) : after (P3 (F := Ideal)) V (main_v74 : DevRef τ sig) =
    Host.gather gather_S50000x128_S850000x1_S850000x128_1_0_n_n_0_1_1128
      (mulf (F := Ideal) (φ := .f32) (V (main_v64 : DevRef τ sig) : Cert.Spec.Nodes)
        (broadcastInDim S50000x128 ![0, 1] bcast_S50000x1_S50000x128_0_1
          (broadcastInDim S50000x1 ![0] bcast_S50000_S50000x1_0 (V (main_v10 : DevRef τ sig) : Cert.Spec.NodeVec))))
      (broadcastInDim S850000x1 ![0] bcast_S850000_S850000x1_0
        (select (cmpi .slt (V (main_arg3 : DevRef τ sig) : Cert.Spec.Edges) (broadcastInDim S850000 ![] bcast_S_S850000 (constantI S_ 32 0#32)))
          (addi (V (main_arg3 : DevRef τ sig) : Cert.Spec.Edges) (broadcastInDim S850000 ![] bcast_S_S850000 (constantI S_ 32 50000#32)))
          (V (main_arg3 : DevRef τ sig) : Cert.Spec.Edges))) := by
  unfold P3; after_results_simp

theorem P3_frame' (V : Valuation τ sig (Elt Ideal)) {r : Ref sig .tc} (h : r ∉ P3w) :
    after (P3 (F := Ideal)) V (Proc.devRef .tc r) = V (Proc.devRef .tc r) := P3_frame V h

/-- The gathered rows summed at the edges' destinations, each node's sum scaled by its normalisation. -/
theorem Q3_val (V : Valuation τ sig (Elt Ideal)) : after (Q3 (F := Ideal)) V (main_v80 : DevRef τ sig) =
    mulf (F := Ideal)
      (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 (V (main_arg4 : DevRef τ sig) : Cert.Spec.Edges))
        (V (main_v74 : DevRef τ sig) : FVec Ideal S850000x128 .f32))
      (broadcastInDim S50000x128 ![0, 1] bcast_S50000x1_S50000x128_0_1
        (broadcastInDim S50000x1 ![0] bcast_S50000_S50000x1_0 (V (main_v14 : DevRef τ sig) : Cert.Spec.NodeVec))) := by
  unfold Q3; after_results_simp

/-- The product with the layer's weights, the bias added, the leaky rectifier applied (its two outlined
    functions' operations read at this call's own buffers). -/
theorem R3_val (V : Valuation τ sig (Elt Ideal)) : after (R3 (F := Ideal)) V (main_v89 : DevRef τ sig) =
    Cert.Spec.leaky (addf (F := Ideal)
      (Host.dotGeneral (F := Ideal) (φ₁ := .f32) (φ₂ := .f32) dot_S50000x128_S128x128_S50000x128_1_0_0_1_n_n none (V (main_v80 : DevRef τ sig) : Cert.Spec.Nodes) (Cert.Spec.wmat2 (V (main_arg1 : DevRef τ sig) : Cert.Spec.Wts)))
      (broadcastInDim S50000x128 ![0, 1] bcast_S1x128_S50000x128_0_1 (Cert.Spec.brow (Cert.Spec.bvec2 (V (main_arg2 : DevRef τ sig) : Cert.Spec.Biases))))) := by
  unfold R3; after_results_simp
  simp only [TRef.toBuf, TRef.ofBuf, cast_eq, id]
  rfl

/-- Layer 3's operations. -/
def L3 : List (HloOp τ sig (Elt Ideal)) := (P3 (F := Ideal)) ++ (Q3 ++ R3)

/-- Layer 3 is one layer of the specification, of its input and the two normalisations as the buffers hold them. -/
theorem L3_val (V : Valuation τ sig (Elt Ideal)) : after L3 V (main_v89 : DevRef τ sig) =
    Cert.Spec.layer (V (main_v64 : DevRef τ sig) : Cert.Spec.Nodes) (Cert.Spec.col (V (main_v10 : DevRef τ sig) : Cert.Spec.NodeVec)) (Cert.Spec.col (V (main_v14 : DevRef τ sig) : Cert.Spec.NodeVec))
      (Cert.Spec.wmat2 (V (main_arg1 : DevRef τ sig) : Cert.Spec.Wts)) (Cert.Spec.brow (Cert.Spec.bvec2 (V (main_arg2 : DevRef τ sig) : Cert.Spec.Biases)))
      (V (main_arg3 : DevRef τ sig) : Cert.Spec.Edges) (V (main_arg4 : DevRef τ sig) : Cert.Spec.Edges) := by
  unfold L3
  rw [after_app, after_app, R3_val, Q3_val,
    Q3_frame (r := main_arg1) _ (by decide), Q3_frame (r := main_arg2) _ (by decide),
    P3_val, P3_frame' (r := main_arg4) _ (by decide), P3_frame' (r := main_v14) _ (by decide),
    P3_frame' (r := main_arg1) _ (by decide), P3_frame' (r := main_arg2) _ (by decide)]
  rfl

/-- A reference layer 3 does not write keeps its contents. -/
theorem L3_frame (V : Valuation τ sig (Elt Ideal)) {r : Ref sig .tc} (hP : r ∉ P3w) (hQ : r ∉ Q3w) (hR : r ∉ R3w) :
    after L3 V (Proc.devRef .tc r) = V (Proc.devRef .tc r) := by
  unfold L3
  rw [after_app, after_app, R3_frame _ hR, Q3_frame _ hQ, P3_frame' _ hP]

end Cert.RefValue

end
-- ==== Proof.RefLayer4.lean ====
/-
  Layer 4 of the reference (35 operations): the input rows scaled by the source normalisation and
  gathered at the edges' sources; scatter-added at the destinations and scaled by the destination
  normalisation; multiplied by the layer's weight matrix, the bias added, the leaky rectifier applied.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

/-- The scaled input's rows at the edges' sources (a negative source counted from the end). -/
theorem P4_val (V : Valuation τ sig (Elt Ideal)) : after (P4a (F := Ideal) ++ P4b) V (main_v99 : DevRef τ sig) =
    Host.gather gather_S50000x128_S850000x1_S850000x128_1_0_n_n_0_1_1128
      (mulf (F := Ideal) (φ := .f32) (V (main_v89 : DevRef τ sig) : Cert.Spec.Nodes)
        (broadcastInDim S50000x128 ![0, 1] bcast_S50000x1_S50000x128_0_1
          (broadcastInDim S50000x1 ![0] bcast_S50000_S50000x1_0 (V (main_v10 : DevRef τ sig) : Cert.Spec.NodeVec))))
      (broadcastInDim S850000x1 ![0] bcast_S850000_S850000x1_0
        (select (cmpi .slt (V (main_arg3 : DevRef τ sig) : Cert.Spec.Edges) (broadcastInDim S850000 ![] bcast_S_S850000 (constantI S_ 32 0#32)))
          (addi (V (main_arg3 : DevRef τ sig) : Cert.Spec.Edges) (broadcastInDim S850000 ![] bcast_S_S850000 (constantI S_ 32 50000#32)))
          (V (main_arg3 : DevRef τ sig) : Cert.Spec.Edges))) := by
  unfold P4a P4b; simp only [List.cons_append, List.nil_append]; after_results_simp

theorem P4_frame' (V : Valuation τ sig (Elt Ideal)) {r : Ref sig .tc} (h : r ∉ P4aw ∧ r ∉ P4bw) :
    after (P4a (F := Ideal) ++ P4b) V (Proc.devRef .tc r) = V (Proc.devRef .tc r) := by
  rw [after_app, P4b_frame _ h.2, P4a_frame _ h.1]

/-- The gathered rows summed at the edges' destinations, each node's sum scaled by its normalisation. -/
theorem Q4_val (V : Valuation τ sig (Elt Ideal)) : after (Q4 (F := Ideal)) V (main_v105 : DevRef τ sig) =
    mulf (F := Ideal)
      (Host.scatterAdd (F := Ideal) scatter_S50000x128_S850000x1_S850000x128_1_0_0_1
        (broadcastInDim S50000x128 ![] bcast_S_S50000x128 (constant (F := Ideal) S_ .f32 0x00000000#32))
        (broadcastInDim S850000x1 ![0] bcast_S850000_S850000x1_0 (V (main_arg4 : DevRef τ sig) : Cert.Spec.Edges))
        (V (main_v99 : DevRef τ sig) : FVec Ideal S850000x128 .f32))
      (broadcastInDim S50000x128 ![0, 1] bcast_S50000x1_S50000x128_0_1
        (broadcastInDim S50000x1 ![0] bcast_S50000_S50000x1_0 (V (main_v14 : DevRef τ sig) : Cert.Spec.NodeVec))) := by
  unfold Q4; after_results_simp

/-- The product with the layer's weights, the bias added, the leaky rectifier applied (its two outlined
    functions' operations read at this call's own buffers). -/
theorem R4_val (V : Valuation τ sig (Elt Ideal)) : after (R4 (F := Ideal)) V (main_v114 : DevRef τ sig) =
    Cert.Spec.leaky (addf (F := Ideal)
      (Host.dotGeneral (F := Ideal) (φ₁ := .f32) (φ₂ := .f32) dot_S50000x128_S128x128_S50000x128_1_0_0_1_n_n none (V (main_v105 : DevRef τ sig) : Cert.Spec.Nodes) (Cert.Spec.wmat3 (V (main_arg1 : DevRef τ sig) : Cert.Spec.Wts)))
      (broadcastInDim S50000x128 ![0, 1] bcast_S1x128_S50000x128_0_1 (Cert.Spec.brow (Cert.Spec.bvec3 (V (main_arg2 : DevRef τ sig) : Cert.Spec.Biases))))) := by
  unfold R4; after_results_simp
  simp only [TRef.toBuf, TRef.ofBuf, cast_eq, id]
  rfl

/-- Layer 4's operations. -/
def L4 : List (HloOp τ sig (Elt Ideal)) := (P4a (F := Ideal) ++ P4b) ++ (Q4 ++ R4)

/-- Layer 4 is one layer of the specification, of its input and the two normalisations as the buffers hold them. -/
theorem L4_val (V : Valuation τ sig (Elt Ideal)) : after L4 V (main_v114 : DevRef τ sig) =
    Cert.Spec.layer (V (main_v89 : DevRef τ sig) : Cert.Spec.Nodes) (Cert.Spec.col (V (main_v10 : DevRef τ sig) : Cert.Spec.NodeVec)) (Cert.Spec.col (V (main_v14 : DevRef τ sig) : Cert.Spec.NodeVec))
      (Cert.Spec.wmat3 (V (main_arg1 : DevRef τ sig) : Cert.Spec.Wts)) (Cert.Spec.brow (Cert.Spec.bvec3 (V (main_arg2 : DevRef τ sig) : Cert.Spec.Biases)))
      (V (main_arg3 : DevRef τ sig) : Cert.Spec.Edges) (V (main_arg4 : DevRef τ sig) : Cert.Spec.Edges) := by
  unfold L4
  rw [after_app, after_app, R4_val, Q4_val,
    Q4_frame (r := main_arg1) _ (by decide), Q4_frame (r := main_arg2) _ (by decide),
    P4_val, P4_frame' (r := main_arg4) _ (by decide), P4_frame' (r := main_v14) _ (by decide),
    P4_frame' (r := main_arg1) _ (by decide), P4_frame' (r := main_arg2) _ (by decide)]
  rfl

/-- A reference layer 4 does not write keeps its contents. -/
theorem L4_frame (V : Valuation τ sig (Elt Ideal)) {r : Ref sig .tc} (hP : r ∉ P4aw ∧ r ∉ P4bw) (hQ : r ∉ Q4w) (hR : r ∉ R4w) :
    after L4 V (Proc.devRef .tc r) = V (Proc.devRef .tc r) := by
  unfold L4
  rw [after_app, after_app, R4_frame _ hR, Q4_frame _ hQ, P4_frame' _ hP]

end Cert.RefValue

end
-- ==== Proof.RefFinal.lean ====
/-
  The last 8 operations of the reference: the input features and the four layers' outputs each given a
  trailing unit axis, stacked along it, and the maximum taken along it from -inf.
-/
import proofs.«179694_j65103114272768_1_alg».proof.Proof.RefOps
import proofs.«179694_j65103114272768_1_alg».proof.Proof.Spec

noncomputable section

namespace Cert.RefValue

open Cert.ReferenceIdeal Cert.ReferenceIdeal.Facts₀ Idealize.ShloMosaic Idealize.ShloMosaic.TcCoe Idealize.SL.Sem Idealize.ShloMosaic.StableHlo

theorem F1_v115 (V : Valuation τ sig (Elt Ideal)) : after (F1 (F := Ideal)) V (main_v115 : DevRef τ sig) =
    broadcastInDim S50000x128x1 ![0, 1] bcast_S50000x128_S50000x128x1_0_1 (V (main_arg0 : DevRef τ sig) : Cert.Spec.Nodes) := by
  unfold F1; after_results_simp

theorem F1_v116 (V : Valuation τ sig (Elt Ideal)) : after (F1 (F := Ideal)) V (main_v116 : DevRef τ sig) =
    broadcastInDim S50000x128x1 ![0, 1] bcast_S50000x128_S50000x128x1_0_1 (V (main_v39 : DevRef τ sig) : Cert.Spec.Nodes) := by
  unfold F1; after_results_simp

theorem F1_v117 (V : Valuation τ sig (Elt Ideal)) : after (F1 (F := Ideal)) V (main_v117 : DevRef τ sig) =
    broadcastInDim S50000x128x1 ![0, 1] bcast_S50000x128_S50000x128x1_0_1 (V (main_v64 : DevRef τ sig) : Cert.Spec.Nodes) := by
  unfold F1; after_results_simp

theorem F1_v118 (V : Valuation τ sig (Elt Ideal)) : after (F1 (F := Ideal)) V (main_v118 : DevRef τ sig) =
    broadcastInDim S50000x128x1 ![0, 1] bcast_S50000x128_S50000x128x1_0_1 (V (main_v89 : DevRef τ sig) : Cert.Spec.Nodes) := by
  unfold F1; after_results_simp

theorem F1_v119 (V : Valuation τ sig (Elt Ideal)) : after (F1 (F := Ideal)) V (main_v119 : DevRef τ sig) =
    broadcastInDim S50000x128x1 ![0, 1] bcast_S50000x128_S50000x128x1_0_1 (V (main_v114 : DevRef τ sig) : Cert.Spec.Nodes) := by
  unfold F1; after_results_simp

/-- The five stacked arrays' maximum along the stacking axis. -/
theorem F2_val (V : Valuation τ sig (Elt Ideal)) : after (F2 (F := Ideal)) V (main_v121 : DevRef τ sig) =
    (Host.reduce (FloatOps.maximumf (F := Ideal) (φ := .f32))
      (concatenate S50000x128x5 2 [⟨S50000x128x1, (V (main_v115 : DevRef τ sig) : FVec Ideal S50000x128x1 .f32)⟩, ⟨S50000x128x1, (V (main_v116 : DevRef τ sig) : FVec Ideal S50000x128x1 .f32)⟩,
        ⟨S50000x128x1, (V (main_v117 : DevRef τ sig) : FVec Ideal S50000x128x1 .f32)⟩, ⟨S50000x128x1, (V (main_v118 : DevRef τ sig) : FVec Ideal S50000x128x1 .f32)⟩, ⟨S50000x128x1, (V (main_v119 : DevRef τ sig) : FVec Ideal S50000x128x1 .f32)⟩]
        concatenates_S50000x128x1_S50000x128x1_S50000x128x1_S50000x128x1_S50000x128x1_S50000x128x5_d2)
      (constant (F := Ideal) S_ .f32 0xFF800000#32) reducesTo_S50000x128x5_S50000x128_d2 h_S_ : Cert.Spec.Nodes) := by
  unfold F2; after_results_simp
  rfl

/-- The final stretch. -/
def Fin : List (HloOp τ sig (Elt Ideal)) := F1 ++ F2

/-- The result is the entrywise maximum of the five arrays the buffers hold. -/
theorem Fin_val (V : Valuation τ sig (Elt Ideal)) : after Fin V (main_v121 : DevRef τ sig) =
    Cert.Spec.jk (V (main_arg0 : DevRef τ sig) : Cert.Spec.Nodes) (V (main_v39 : DevRef τ sig) : Cert.Spec.Nodes) (V (main_v64 : DevRef τ sig) : Cert.Spec.Nodes) (V (main_v89 : DevRef τ sig) : Cert.Spec.Nodes) (V (main_v114 : DevRef τ sig) : Cert.Spec.Nodes) := by
  unfold Fin
  rw [after_app, F2_val, F1_v115, F1_v116, F1_v117, F1_v118, F1_v119]
  rfl

theorem Fin_frame (V : Valuation τ sig (Elt Ideal)) {r : Ref sig .tc} (h1 : r ∉ F1w) (h2 : r ∉ F2w) :
    after Fin V (Proc.devRef .tc r) = V (Proc.devRef .tc r) := by
  unfold Fin
  rw [after_app, F2_frame _ h2, F1_frame _ h1]

end Cert.RefValue

end
-- ==== Proof.RefRun.lean ====
/-
  The reference's run: every weakly fair execution of its @main terminates with the result buffer at the
  specification's function G of the five arguments' launch contents and the arguments unchanged. The 170
  operations are read stage by stage — the normalisations, the four layers, the final maximum — over a
  universally quantified valuation, each stage's result named by the specification's function of the same
  stage and carried across the later stages, which do not write it.
-/
import proofs.«179694_j65103114272768_1_alg».proof.Proof.RefMain
import proofs.«179694_j65103114272768_1_alg».proof.Proof.RefNorm
import proofs.«179694_j65103114272768_1_alg».proof.Proof.RefLayer1
import proofs.«179694_j65103114272768_1_alg».proof.Proof.RefLayer2
import proofs.«179694_j65103114272768_1_alg».proof.Proof.RefLayer3
import proofs.«179694_j65103114272768_1_alg».proof.Proof.RefLayer4
import proofs.«179694_j65103114272768_1_alg».proof.Proof.RefFinal

noncomputable section

namespace Cert.RefValue

open Cert.ReferenceIdeal Cert.ReferenceIdeal.Facts₀ Idealize.ShloMosaic Idealize.ShloMosaic.TcCoe Idealize.SL.Sem Idealize.ShloMosaic.StableHlo

/-- @main's operations, regrouped by stage. -/
theorem ops_eq : ops (F := Ideal) = N ++ (L1 ++ (L2 ++ (L3 ++ (L4 ++ Fin)))) := by
  unfold ops part0 part1 part2 N L1 L2 L3 L4 Fin
  simp only [List.append_assoc]

/-- A reference no operation writes keeps its contents across the whole line. -/
theorem ops_frame (V : Valuation τ sig (Elt Ideal)) {r : Ref sig .tc}
    (h : (r ∉ NAw ∧ r ∉ NBw) ∧ (r ∉ P1w ∧ r ∉ Q1w ∧ r ∉ R1w) ∧ ((r ∉ P2aw ∧ r ∉ P2bw) ∧ r ∉ Q2w ∧ r ∉ R2w)
      ∧ (r ∉ P3w ∧ r ∉ Q3w ∧ r ∉ R3w) ∧ ((r ∉ P4aw ∧ r ∉ P4bw) ∧ r ∉ Q4w ∧ r ∉ R4w) ∧ (r ∉ F1w ∧ r ∉ F2w)) :
    after ops V (Proc.devRef .tc r) = V (Proc.devRef .tc r) := by
  obtain ⟨⟨hNA, hNB⟩, ⟨hP1, hQ1, hR1⟩, ⟨hP2, hQ2, hR2⟩, ⟨hP3, hQ3, hR3⟩, ⟨hP4, hQ4, hR4⟩, hF1, hF2⟩ := h
  rw [ops_eq, after_app, after_app, after_app, after_app, after_app, Fin_frame _ hF1 hF2, L4_frame _ hP4 hQ4 hR4,
    L3_frame _ hP3 hQ3 hR3, L2_frame _ hP2 hQ2 hR2, L1_frame _ hP1 hQ1 hR1, N_frame _ hNA hNB]

/-- The result buffer after the whole line: the specification's G of the five arguments. -/
theorem value (V : Valuation τ sig (Elt Ideal)) : after ops V (main_v121 : DevRef τ sig) =
    Cert.Spec.G (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := by
  have n_arg0 : (after N V) (main_arg0 : DevRef τ sig) = V (main_arg0 : DevRef τ sig) := N_frame V (by decide) (by decide)
  have n_arg1 : (after N V) (main_arg1 : DevRef τ sig) = V (main_arg1 : DevRef τ sig) := N_frame V (by decide) (by decide)
  have n_arg2 : (after N V) (main_arg2 : DevRef τ sig) = V (main_arg2 : DevRef τ sig) := N_frame V (by decide) (by decide)
  have n_arg3 : (after N V) (main_arg3 : DevRef τ sig) = V (main_arg3 : DevRef τ sig) := N_frame V (by decide) (by decide)
  have n_arg4 : (after N V) (main_arg4 : DevRef τ sig) = V (main_arg4 : DevRef τ sig) := N_frame V (by decide) (by decide)
  have n_ks : ((after N V) (main_v10 : DevRef τ sig) : Cert.Spec.NodeVec) = Cert.Spec.nrm (V (main_arg3 : DevRef τ sig) : Cert.Spec.Edges) := N_v10 V
  have n_kd : ((after N V) (main_v14 : DevRef τ sig) : Cert.Spec.NodeVec) = Cert.Spec.nrm (V (main_arg4 : DevRef τ sig) : Cert.Spec.Edges) := N_v14 V
  have l1_arg0 : (after L1 (after N V)) (main_arg0 : DevRef τ sig) = V (main_arg0 : DevRef τ sig) := (L1_frame (after N V) (by decide) (by decide) (by decide)).trans n_arg0
  have l1_arg1 : (after L1 (after N V)) (main_arg1 : DevRef τ sig) = V (main_arg1 : DevRef τ sig) := (L1_frame (after N V) (by decide) (by decide) (by decide)).trans n_arg1
  have l1_arg2 : (after L1 (after N V)) (main_arg2 : DevRef τ sig) = V (main_arg2 : DevRef τ sig) := (L1_frame (after N V) (by decide) (by decide) (by decide)).trans n_arg2
  have l1_arg3 : (after L1 (after N V)) (main_arg3 : DevRef τ sig) = V (main_arg3 : DevRef τ sig) := (L1_frame (after N V) (by decide) (by decide) (by decide)).trans n_arg3
  have l1_arg4 : (after L1 (after N V)) (main_arg4 : DevRef τ sig) = V (main_arg4 : DevRef τ sig) := (L1_frame (after N V) (by decide) (by decide) (by decide)).trans n_arg4
  have l1_ks : ((after L1 (after N V)) (main_v10 : DevRef τ sig) : Cert.Spec.NodeVec) = Cert.Spec.nrm (V (main_arg3 : DevRef τ sig) : Cert.Spec.Edges) := (L1_frame (after N V) (by decide) (by decide) (by decide)).trans n_ks
  have l1_kd : ((after L1 (after N V)) (main_v14 : DevRef τ sig) : Cert.Spec.NodeVec) = Cert.Spec.nrm (V (main_arg4 : DevRef τ sig) : Cert.Spec.Edges) := (L1_frame (after N V) (by decide) (by decide) (by decide)).trans n_kd
  have l1_v39 : ((after L1 (after N V)) (main_v39 : DevRef τ sig) : Cert.Spec.Nodes) = Cert.Spec.x1 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) :=
    (L1_val (after N V)).trans (by rw [n_arg0, n_ks, n_kd, n_arg1, n_arg2, n_arg3, n_arg4]; rfl)
  have l2_arg0 : (after L2 (after L1 (after N V))) (main_arg0 : DevRef τ sig) = V (main_arg0 : DevRef τ sig) := (L2_frame (after L1 (after N V)) ⟨by decide, by decide⟩ (by decide) (by decide)).trans l1_arg0
  have l2_arg1 : (after L2 (after L1 (after N V))) (main_arg1 : DevRef τ sig) = V (main_arg1 : DevRef τ sig) := (L2_frame (after L1 (after N V)) ⟨by decide, by decide⟩ (by decide) (by decide)).trans l1_arg1
  have l2_arg2 : (after L2 (after L1 (after N V))) (main_arg2 : DevRef τ sig) = V (main_arg2 : DevRef τ sig) := (L2_frame (after L1 (after N V)) ⟨by decide, by decide⟩ (by decide) (by decide)).trans l1_arg2
  have l2_arg3 : (after L2 (after L1 (after N V))) (main_arg3 : DevRef τ sig) = V (main_arg3 : DevRef τ sig) := (L2_frame (after L1 (after N V)) ⟨by decide, by decide⟩ (by decide) (by decide)).trans l1_arg3
  have l2_arg4 : (after L2 (after L1 (after N V))) (main_arg4 : DevRef τ sig) = V (main_arg4 : DevRef τ sig) := (L2_frame (after L1 (after N V)) ⟨by decide, by decide⟩ (by decide) (by decide)).trans l1_arg4
  have l2_ks : ((after L2 (after L1 (after N V))) (main_v10 : DevRef τ sig) : Cert.Spec.NodeVec) = Cert.Spec.nrm (V (main_arg3 : DevRef τ sig) : Cert.Spec.Edges) := (L2_frame (after L1 (after N V)) ⟨by decide, by decide⟩ (by decide) (by decide)).trans l1_ks
  have l2_kd : ((after L2 (after L1 (after N V))) (main_v14 : DevRef τ sig) : Cert.Spec.NodeVec) = Cert.Spec.nrm (V (main_arg4 : DevRef τ sig) : Cert.Spec.Edges) := (L2_frame (after L1 (after N V)) ⟨by decide, by decide⟩ (by decide) (by decide)).trans l1_kd
  have l2_v39 : ((after L2 (after L1 (after N V))) (main_v39 : DevRef τ sig) : Cert.Spec.Nodes) = Cert.Spec.x1 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L2_frame (after L1 (after N V)) ⟨by decide, by decide⟩ (by decide) (by decide)).trans l1_v39
  have l2_v64 : ((after L2 (after L1 (after N V))) (main_v64 : DevRef τ sig) : Cert.Spec.Nodes) = Cert.Spec.x2 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) :=
    (L2_val (after L1 (after N V))).trans (by rw [l1_v39, l1_ks, l1_kd, l1_arg1, l1_arg2, l1_arg3, l1_arg4]; rfl)
  have l3_arg0 : (after L3 (after L2 (after L1 (after N V)))) (main_arg0 : DevRef τ sig) = V (main_arg0 : DevRef τ sig) := (L3_frame (after L2 (after L1 (after N V))) (by decide) (by decide) (by decide)).trans l2_arg0
  have l3_arg1 : (after L3 (after L2 (after L1 (after N V)))) (main_arg1 : DevRef τ sig) = V (main_arg1 : DevRef τ sig) := (L3_frame (after L2 (after L1 (after N V))) (by decide) (by decide) (by decide)).trans l2_arg1
  have l3_arg2 : (after L3 (after L2 (after L1 (after N V)))) (main_arg2 : DevRef τ sig) = V (main_arg2 : DevRef τ sig) := (L3_frame (after L2 (after L1 (after N V))) (by decide) (by decide) (by decide)).trans l2_arg2
  have l3_arg3 : (after L3 (after L2 (after L1 (after N V)))) (main_arg3 : DevRef τ sig) = V (main_arg3 : DevRef τ sig) := (L3_frame (after L2 (after L1 (after N V))) (by decide) (by decide) (by decide)).trans l2_arg3
  have l3_arg4 : (after L3 (after L2 (after L1 (after N V)))) (main_arg4 : DevRef τ sig) = V (main_arg4 : DevRef τ sig) := (L3_frame (after L2 (after L1 (after N V))) (by decide) (by decide) (by decide)).trans l2_arg4
  have l3_ks : ((after L3 (after L2 (after L1 (after N V)))) (main_v10 : DevRef τ sig) : Cert.Spec.NodeVec) = Cert.Spec.nrm (V (main_arg3 : DevRef τ sig) : Cert.Spec.Edges) := (L3_frame (after L2 (after L1 (after N V))) (by decide) (by decide) (by decide)).trans l2_ks
  have l3_kd : ((after L3 (after L2 (after L1 (after N V)))) (main_v14 : DevRef τ sig) : Cert.Spec.NodeVec) = Cert.Spec.nrm (V (main_arg4 : DevRef τ sig) : Cert.Spec.Edges) := (L3_frame (after L2 (after L1 (after N V))) (by decide) (by decide) (by decide)).trans l2_kd
  have l3_v39 : ((after L3 (after L2 (after L1 (after N V)))) (main_v39 : DevRef τ sig) : Cert.Spec.Nodes) = Cert.Spec.x1 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L3_frame (after L2 (after L1 (after N V))) (by decide) (by decide) (by decide)).trans l2_v39
  have l3_v64 : ((after L3 (after L2 (after L1 (after N V)))) (main_v64 : DevRef τ sig) : Cert.Spec.Nodes) = Cert.Spec.x2 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L3_frame (after L2 (after L1 (after N V))) (by decide) (by decide) (by decide)).trans l2_v64
  have l3_v89 : ((after L3 (after L2 (after L1 (after N V)))) (main_v89 : DevRef τ sig) : Cert.Spec.Nodes) = Cert.Spec.x3 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) :=
    (L3_val (after L2 (after L1 (after N V)))).trans (by rw [l2_v64, l2_ks, l2_kd, l2_arg1, l2_arg2, l2_arg3, l2_arg4]; rfl)
  have l4_arg0 : (after L4 (after L3 (after L2 (after L1 (after N V))))) (main_arg0 : DevRef τ sig) = V (main_arg0 : DevRef τ sig) := (L4_frame (after L3 (after L2 (after L1 (after N V)))) ⟨by decide, by decide⟩ (by decide) (by decide)).trans l3_arg0
  have l4_arg1 : (after L4 (after L3 (after L2 (after L1 (after N V))))) (main_arg1 : DevRef τ sig) = V (main_arg1 : DevRef τ sig) := (L4_frame (after L3 (after L2 (after L1 (after N V)))) ⟨by decide, by decide⟩ (by decide) (by decide)).trans l3_arg1
  have l4_arg2 : (after L4 (after L3 (after L2 (after L1 (after N V))))) (main_arg2 : DevRef τ sig) = V (main_arg2 : DevRef τ sig) := (L4_frame (after L3 (after L2 (after L1 (after N V)))) ⟨by decide, by decide⟩ (by decide) (by decide)).trans l3_arg2
  have l4_arg3 : (after L4 (after L3 (after L2 (after L1 (after N V))))) (main_arg3 : DevRef τ sig) = V (main_arg3 : DevRef τ sig) := (L4_frame (after L3 (after L2 (after L1 (after N V)))) ⟨by decide, by decide⟩ (by decide) (by decide)).trans l3_arg3
  have l4_arg4 : (after L4 (after L3 (after L2 (after L1 (after N V))))) (main_arg4 : DevRef τ sig) = V (main_arg4 : DevRef τ sig) := (L4_frame (after L3 (after L2 (after L1 (after N V)))) ⟨by decide, by decide⟩ (by decide) (by decide)).trans l3_arg4
  have l4_ks : ((after L4 (after L3 (after L2 (after L1 (after N V))))) (main_v10 : DevRef τ sig) : Cert.Spec.NodeVec) = Cert.Spec.nrm (V (main_arg3 : DevRef τ sig) : Cert.Spec.Edges) := (L4_frame (after L3 (after L2 (after L1 (after N V)))) ⟨by decide, by decide⟩ (by decide) (by decide)).trans l3_ks
  have l4_kd : ((after L4 (after L3 (after L2 (after L1 (after N V))))) (main_v14 : DevRef τ sig) : Cert.Spec.NodeVec) = Cert.Spec.nrm (V (main_arg4 : DevRef τ sig) : Cert.Spec.Edges) := (L4_frame (after L3 (after L2 (after L1 (after N V)))) ⟨by decide, by decide⟩ (by decide) (by decide)).trans l3_kd
  have l4_v39 : ((after L4 (after L3 (after L2 (after L1 (after N V))))) (main_v39 : DevRef τ sig) : Cert.Spec.Nodes) = Cert.Spec.x1 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L4_frame (after L3 (after L2 (after L1 (after N V)))) ⟨by decide, by decide⟩ (by decide) (by decide)).trans l3_v39
  have l4_v64 : ((after L4 (after L3 (after L2 (after L1 (after N V))))) (main_v64 : DevRef τ sig) : Cert.Spec.Nodes) = Cert.Spec.x2 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L4_frame (after L3 (after L2 (after L1 (after N V)))) ⟨by decide, by decide⟩ (by decide) (by decide)).trans l3_v64
  have l4_v89 : ((after L4 (after L3 (after L2 (after L1 (after N V))))) (main_v89 : DevRef τ sig) : Cert.Spec.Nodes) = Cert.Spec.x3 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) := (L4_frame (after L3 (after L2 (after L1 (after N V)))) ⟨by decide, by decide⟩ (by decide) (by decide)).trans l3_v89
  have l4_v114 : ((after L4 (after L3 (after L2 (after L1 (after N V))))) (main_v114 : DevRef τ sig) : Cert.Spec.Nodes) = Cert.Spec.x4 (V (main_arg0 : DevRef τ sig) : Cert.Spec.Nodes) (V (main_arg1 : DevRef τ sig) : Cert.Spec.Wts) (V (main_arg2 : DevRef τ sig) : Cert.Spec.Biases) (V (main_arg3 : DevRef τ sig) : Cert.Spec.Edges) (V (main_arg4 : DevRef τ sig) : Cert.Spec.Edges) :=
    (L4_val (after L3 (after L2 (after L1 (after N V))))).trans (by rw [l3_v89, l3_ks, l3_kd, l3_arg1, l3_arg2, l3_arg3, l3_arg4]; rfl)
  rw [ops_eq, after_app, after_app, after_app, after_app, after_app, Fin_val, l4_arg0, l4_v39, l4_v64, l4_v89, l4_v114]
  rfl

/-- On every device, from any memory with zero counters: every weakly fair execution of @main terminates with the
    result at G of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v121)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))) :=
  (θ_run (defs (F := Ideal)) _ _).mono (fun _ h c => ⟨(h c main_v121).trans (value _),
      (h c main_arg0).trans (ops_frame _ (by decide)),
      (h c main_arg1).trans (ops_frame _ (by decide)),
      (h c main_arg2).trans (ops_frame _ (by decide)),
      (h c main_arg3).trans (ops_frame _ (by decide)),
      (h c main_arg4).trans (ops_frame _ (by decide))⟩)
    (run_main m ρ)

end Cert.RefValue

end
-- ==== Proof.lean ====
/-
  A four-layer graph convolution with degree normalisation on both sides and a running maximum over the layers, as eight
  tiled regions (a row scaling before the aggregation; after it a row scaling, a 128 x 128 matrix product, a bias, a leaky
  rectifier and the running maximum) among host gathers and scatter-adds, against the plain reference
  max(x, x_1, .., x_4),  x_(l+1) = leaky (((aggr (x_l · ks) src dst) · kd) W_l + b_l).
  At the ideal values the two programs apply the same operations in the same places: a tile's product into a zero
  accumulator is the row's sum over the 128 contracted coordinates, a change of float format is the identity, the kernel's
  test y > 0 and the reference's y ≥ 0 pick equal values (both branches give 0 at y = 0), and the running pairwise maximum
  is the maximum from -inf over the five stacked arrays. No law used needs the inputs finite, so the precondition is never
  opened. The idealization rewrote no operation, so `preserves` is `True`.
-/
import proofs.«179694_j65103114272768_1_alg».proof.Defs
import proofs.«179694_j65103114272768_1_alg».proof.Proof.Gen.Kernel
import proofs.«179694_j65103114272768_1_alg».proof.Proof.Gen.Kernel.Frame
import proofs.«179694_j65103114272768_1_alg».proof.Proof.Gen.KernelIdeal
import proofs.«179694_j65103114272768_1_alg».proof.Proof.Gen.KernelIdeal.Frame
import proofs.«179694_j65103114272768_1_alg».proof.Proof.Gen.ReferenceIdeal
import proofs.«179694_j65103114272768_1_alg».proof.Proof.Gen.Pre_finite_inputs
import proofs.«179694_j65103114272768_1_alg».proof.Proof.Spec
import proofs.«179694_j65103114272768_1_alg».proof.Proof.KRun
import proofs.«179694_j65103114272768_1_alg».proof.Proof.Walk
import proofs.«179694_j65103114272768_1_alg».proof.Proof.RefRun
import Idealize.ShloMosaic.Adequacy
import Idealize.ShloMosaic.Init

noncomputable section

/-! ## The claims -/

namespace Cert.Proof

open Idealize.ShloMosaic Idealize.ShloMosaic.TcCoe Idealize.SL.Sem

/-- The kernel program as printed, and its idealization, run without a fault and leave their arguments as launched. -/
theorem frame_k : Cert.frame_Kernel := fun m ρ _ => Cert.Kernel.Gen.frame m ρ
theorem frame_ki : Cert.frame_KernelIdeal := fun m ρ _ => Cert.KernelIdeal.Gen.frame m ρ
/-- The reference's frame is its run with the value forgotten. -/
theorem frame_ri : Cert.frame_ReferenceIdeal := fun m ρ _ =>
  (θ_run (Cert.ReferenceIdeal.defs (F := Ideal)) _ _).mono (fun _ h c => (h c).2) (Cert.RefValue.run m ρ)

/-- The idealization rewrote no operation. -/
theorem preserves : Cert.preserves_Kernel_KernelIdeal := trivial

/-- Both idealized programs end with the entrywise maximum of the input features and the four layers' outputs, the one
    function `Spec.G` of the argument arrays: the kernel program by the walk through its boundaries, the reference by its
    run; the two memories agree on the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.KValue.kernel_value m ρ c), (h c).2⟩) (Cert.KValue.run_named m ρ)
  · refine (θ_run (Cert.ReferenceIdeal.defs (F := Ideal)) _ _).mono (fun _ h c => ⟨(h c).1.trans ?_, (h c).2⟩) (Cert.RefValue.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
